-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S256 .f32) (main_arg9 : FVec F S256x128 .f32) (main_arg10 : FVec F S128 .f32) (main_arg11 : FVec F S128 .f32) (main_arg12 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128 .f32) (main_arg6 : FVec F S128 .f32) (main_arg7 : FVec F S128x256 .f32) (main_arg8 : FVec F S256 .f32) (main_arg9 : FVec F S256x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) (main_arg6 : FVec F S128 .f32) (main_arg7 : FVec F S128x256 .f32) (main_arg8 : FVec F S256 .f32) (main_arg9 : FVec F S256x128 .f32) (main_arg10 : FVec F S128 .f32) (main_arg11 : FVec F S128 .f32) (main_arg12 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S1x256 : Shape := ⟨2, ![1, 256]⟩
abbrev S2000x256 : Shape := ⟨2, ![2000, 256]⟩

abbrev nBuf : Space → Nat
  | .hbm => 90
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S100000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S_, .f32⟩
  | .hbm, ⟨21, _⟩ => ⟨S100000, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S100000x128, .f32⟩
  | .hbm, ⟨59, _⟩ => ⟨S1700000x1, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x256, .f32⟩
  | .hbm, ⟨83, _⟩ => ⟨S1x128, .f32⟩
  | .hbm, ⟨84, _⟩ => ⟨S100000x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S128x256, .f32⟩
  | .local _ .vmem, ⟨22, _⟩ => ⟨S1x256, .f32⟩
  | .local _ .vmem, ⟨23, _⟩ => ⟨S256x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S2000x128, .f32⟩
  | .local _ .vmem, ⟨38, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51_0 : Ref sig .tc := ⟨.hbm, 78, rfl⟩
abbrev main_v51_1 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56_0 : Ref sig .tc := ⟨.hbm, 84, rfl⟩
abbrev main_v56_1 : Ref sig .tc := ⟨.hbm, 85, rfl⟩
abbrev main_v56_2 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc1_scratch1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg10_1 : Ref sig .tc := ⟨.vmem, 26, rfl⟩
abbrev cc2_stg11_0 : Ref sig .tc := ⟨.vmem, 27, rfl⟩
abbrev cc2_stg12_0 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem10_1 : DmaSem sig := 24
abbrev cc2_sem11_0 : DmaSem sig := 25
abbrev cc2_sem12_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v22 : BitVec 1 := Scalar.cmpi .eq arg0 c49_i32
  let v23 : BitVec 32 := Scalar.extui v22
  let c0_i32_13 : BitVec 32 := 0#32
  let v24 : BitVec 1 := Scalar.cmpi .ne v23 c0_i32_13
  v24

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v61 : BitVec 1 := Scalar.cmpi .eq arg0 c49_i32
  let v62 : BitVec 32 := Scalar.extui v61
  let c0_i32_35 : BitVec 32 := 0#32
  let v63 : BitVec 1 := Scalar.cmpi .ne v62 c0_i32_35
  v63

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  reduces_S2000x128_S128 : S2000x128.Reduces [0] S128
  shapeCasts_S256_S1x256 : S256.ShapeCasts S1x256
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .f32 = 32 ∨ (Rect.block (s := S256x128) S256x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S100000x128.size a
  hwx2_10 : ∀ i : grid2.Coords, EltTy.bits .f32 = 32 ∨ (Rect.block (s := S100000x128) S2000x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51_0) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51_1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg9) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v55) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v56_0) S2000x128.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v56_1) S1x128.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v56_2) S1x128.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev idle2 : Fin 13 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond2 i == 1#1) | 12 => fun i => !(k2_cond2 i == 1#1) | ⟨_ + 13, h⟩ => absurd h (Nat.not_lt.2 (Nat.le_add_left _ _))

abbrev win3_0 : Pipeline.Window sig grid3 :=
  Pipeline.Window.ofSpec (Memref.whole main_v56_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56_1) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56_2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩
abbrev S1x256 : Shape := ⟨2, ![1, 256]⟩

abbrev nBuf : Space → Nat
  | .hbm => 179
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128, .f32⟩
  | 12 => ⟨S128, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x128, .f32⟩
  | 59 => ⟨S1700000x1, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S100000x128, .f32⟩
  | 92 => ⟨S100000x128, .f32⟩
  | 93 => ⟨S100000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S100000x256, .f32⟩
  | 124 => ⟨S1x256, .f32⟩
  | 125 => ⟨S100000x256, .f32⟩
  | 126 => ⟨S100000x256, .f32⟩
  | 127 => ⟨S_, .f32⟩
  | _ => ⟨S100000x128, .f32⟩

abbrev hbmTy0_1 (i : Nat) : BufTy := match i % 128 with
  | 0 => ⟨S100000x256, .f32⟩
  | 1 => ⟨S100000x256, .f32⟩
  | 2 => ⟨S100000x128, .f32⟩
  | 3 => ⟨S1x128, .f32⟩
  | 4 => ⟨S100000x128, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S100000x128, .f32⟩
  | 20 => ⟨S100000x128, .f32⟩
  | 21 => ⟨S100000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_13 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_call2_cst : Ref sig .tc := ⟨.hbm, 127, rfl⟩
abbrev main_call2_v0 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_14 : Ref sig .tc := ⟨.hbm, 135, rfl⟩
abbrev main_v81 : Ref sig .tc := ⟨.hbm, 136, rfl⟩
abbrev main_cst_15 : Ref sig .tc := ⟨.hbm, 137, rfl⟩
abbrev main_v82 : Ref sig .tc := ⟨.hbm, 138, rfl⟩
abbrev main_v83 : Ref sig .tc := ⟨.hbm, 139, rfl⟩
abbrev main_c_16 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_cst_1 : Ref sig .tc := ⟨.hbm, 151, rfl⟩
abbrev main_call3_v8 : Ref sig .tc := ⟨.hbm, 152, rfl⟩
abbrev main_call3_cst_2 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_cst_3 : Ref sig .tc := ⟨.hbm, 157, rfl⟩
abbrev main_call3_v12 : Ref sig .tc := ⟨.hbm, 158, rfl⟩
abbrev main_call3_cst_4 : Ref sig .tc := ⟨.hbm, 159, rfl⟩
abbrev main_call3_call0_v0 : Ref sig .tc := ⟨.hbm, 160, rfl⟩
abbrev main_call3_call0_v1 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_cst_17 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.K.Reg0.lean ====
/- Region 0 of @main, the matrix product `cc0__matmul_kernel` on a grid of 50 row blocks: the proof data of its pipeline at an arbitrary entry contents `V`, and the body obligation. Window 0 is the block of 2000 rows of the left operand, window 1 the whole right operand (its block index never moves), window 2 the block of 2000 rows of the product, stored whole at every point. -/
import proofs.«118182_j89309549953493_1_alg».proof.Proof.Gen.Kernel.Launch
import proofs.«118182_j89309549953493_1_alg».proof.Proof.Gen.Kernel.Skeleton
import proofs.«118182_j89309549953493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right operand; fetched at the first point only, its block index constant) likewise:
    where it is not fetched the index has not moved, and the block kept is the block there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2000×128 block, and the whole 128×128 right operand. -/
abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-! ## What the body leaves in the output window's buffer -/

/-- Window 2's staging buffer after the body, from the input windows' blocks: its one store, of the product
    of the left block `x0` and the right operand `x1`. -/
def out0_2 (x0 : Vec F S2000x128 .f32) (x1 : Vec F S128x128 .f32) : Vec F S2000x128 .f32 :=
  View.canon [⟨r0_0, k0_pay1 (View.ld x0 r0_0) (View.ld x1 r0_1)⟩]

/-- The store's rectangle is the whole buffer, so it covers it. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 (F := F) _)

/-! ## The pipeline's proof data -/

/-- The proof data of pipeline 0 on core `c`: the arrays as the region finds them (`V`); after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the ends -/

/-- The region's invariant is the class's at every point, so it is entered and left by reflexivity. -/
theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Pipeline.ΦA spec0 c from rfl]

end Cert.Kernel.Fr

end
-- ==== Proof.K.Reg1.lean ====
/- The stats region of the block (its second kernel launch, a grid of 50 row blocks of 2000 rows): the two running
   column sums it carries between grid points — of h = x + h_local and of h * h —, zeroed at the first point, and the
   mean and variance rows it stores at the last. Proof data for that region at ANY contents `V` of the arrays on
   entry, generic in the float interpretation: the three cases of a point (first, middle, last), each run once over
   the kernel's skeleton; what the two scratch rows and the two output rows hold after each point, by recursion on
   the point; the invariant; the body obligation. -/
import proofs.«118182_j89309549953493_1_alg».proof.Proof.Gen.Kernel.Launch
import proofs.«118182_j89309549953493_1_alg».proof.Proof.Gen.Kernel.Skeleton
import proofs.«118182_j89309549953493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place: window 0 (the rows of x), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- and window 1 (the rows of h_local). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the grid point is the first), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's second `scf.if` (the grid point is the last). -/
abbrev cond1_1 (i : grid1.Coords) : Prop := k1_cond2 i = 1#1
/-- It holds at the last point only — decided over the grid. -/
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two output rows are idle and not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The staging memrefs and the two scratch rows -/

/-- Each window's current staging memref at point `t`, as the pipeline passes it, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The running sum of h and the running sum of h * h: whole scoped buffers of the kernel's own. -/
abbrev scM1_0 : Memref sig .tc .vmem S1x128 .f32 := Memref.whole cc1_scratch0
abbrev scM1_1 : Memref sig .tc .vmem S1x128 .f32 := Memref.whole cc1_scratch1
/-- Views through which the rows' contents are stated (the choice does not matter: the stores cover them). -/
abbrev VS1_0 : View sig .tc .vmem S1x128 .f32 := scM1_0.view
abbrev VS1_1 : View sig .tc .vmem S1x128 .f32 := scM1_1.view
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view

/-- Every other scoped buffer of the core (the other launches' staging buffers and scratch), unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-! ## The body in each of its three cases: a subtype the run finds -/

set_option maxHeartbeats 1000000 in
/-- THE FIRST POINT (the rows zeroed, then the block's column sums added; nothing stored into the outputs): on whole
    memrefs — the inputs' at their blocks, the outputs' at contents handed back untouched, the scratch rows at
    anything — the body runs to the continuation with the scratch rows' stores written, as pieces the run finds. -/
noncomputable def kernelRun1_A (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i)
    (x0 : Vec F S2000x128 .f32) (x1 : Vec F S2000x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1
            ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1
    obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists fs0; iexact HS0
    iexists fs1; iexact HS1

set_option maxHeartbeats 1000000 in
/-- A MIDDLE POINT (the block's column sums added to the rows; nothing stored into the outputs): the scratch rows
    at what the point before left. -/
noncomputable def kernelRun1_B (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i)
    (x0 : Vec F S2000x128 .f32) (x1 : Vec F S2000x128 .f32) (xs0 : Vec F S1x128 .f32) (xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1
    obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; iexact HS0
    iexists _; iexact HS1

set_option maxHeartbeats 1000000 in
/-- THE LAST POINT (the block's column sums added, then the mean and the variance rows computed from the two sums
    and stored into the outputs): the outputs' memrefs at anything, each left with its store written. -/
noncomputable def kernelRun1_C (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i)
    (x0 : Vec F S2000x128 .f32) (x1 : Vec F S2000x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists f2; iexact H2
    isplitl [H3]
    · iexists f3; iexact H3
    isplitl [HS0]
    · iexists _; iexact HS0
    iexists _; iexact HS1

/-! ## What each case leaves in the scratch rows and in the output rows

Each is the case's found pieces read back (over anything: they cover the row). -/

theorem scover1_A_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) (y : S1x128.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x128.size (by sl_kernel_rfl) y
def sout1_A_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).1)
theorem scover1_A_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) (y : S1x128.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x128.size (by sl_kernel_rfl) y
def sout1_A_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.1)
theorem scover1_B_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x128.size (by sl_kernel_rfl) y
def sout1_B_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).1)
theorem scover1_B_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x128.size (by sl_kernel_rfl) y
def sout1_B_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.1)
theorem cover1_C_2 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y
def out1_C_2 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)
theorem cover1_C_3 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y
def out1_C_3 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)
theorem scover1_C_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y
def sout1_C_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)
theorem scover1_C_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y
def sout1_C_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

/-! ## What the rows hold after each point -/

/-- THE ACCUMULATION. After the body at position `n`: (the mean row's buffer, the variance row's buffer, the running
    sum of h, the running sum of h * h). The first point is the first case over the blocks there; a later point the
    middle case — at the last point the last case — over the blocks there and the two sums the point before left.
    Where the outputs are idle (every point but the last) their component is a placeholder nothing consults. -/
def outsAt1 (c : Dev nD) : (n : ℕ) → n < cfg1.N → Vec F S1x128 .f32 × Vec F S1x128 .f32 × Vec F S1x128 .f32 × Vec F S1x128 .f32
  | 0, hn => (View.canon ([] : List (View.Piece (Elt F) S1x128 .f32)), View.canon ([] : List (View.Piece (Elt F) S1x128 .f32)),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 49 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (View.canon ([] : List (View.Piece (Elt F) S1x128 .f32)), View.canon ([] : List (View.Piece (Elt F) S1x128 .f32)),
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 49) :
    outsAt1 V c t.val t.isLt = (View.canon ([] : List (View.Piece (Elt F) S1x128 .f32)), View.canon ([] : List (View.Piece (Elt F) S1x128 .f32)),
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 49) :
    outsAt1 V c t.val t.isLt = (View.canon ([] : List (View.Piece (Elt F) S1x128 .f32)), View.canon ([] : List (View.Piece (Elt F) S1x128 .f32)),
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 49) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-- The two running sums after `n + 1` points: what the interface of the region calls the accumulator. -/
abbrev acc1 (c : Dev nD) (n : ℕ) (hn : n < cfg1.N) : Vec F S1x128 .f32 × Vec F S1x128 .f32 :=
  ((outsAt1 V c n hn).2.2.1, (outsAt1 V c n hn).2.2.2)

/-- The region invariant before position `n`: before the first point what the launch hands over (the scratch rows at
    anything); afterwards the two rows at the running sums the point before left, the other scoped buffers unopened,
    the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

/-! ## The pipeline's proof data -/

/-- The proof data of the region on core `c`: the arrays as the region finds them (`V`); after the body at point
    `t` each input's buffer at its block, the outputs' at `outsAt1`'s components; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms of the two conditions say which of
    the three cases the point is in, so that case's run applies; the invariant hands the body the two scratch rows — at
    anything at the first point, at the running sums the point before left afterwards — and takes them back at this
    point's sums (the case's pieces cover the rows); an idle output row goes back as it came, a stored one at what
    its covering store left; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases h0 : t.val = 0
  · have h1 : ¬t.val = 49 := by omega
    have hc0 : cond1_0 (grid1.coords t) := (hcond1_0 t).mpr h0
    have hc1 : ¬cond1_1 (grid1.coords t) := fun h => h1 ((hcond1_1 t).mp h)
    rw [show (dat1 V c).leavesExact 0 t = owns (c : Thread nD τ) (ms1_0 t) fullShare ((dat1 V c).after 0 t) from by
        unfold Dat.leavesExact; rw [liveAt1_0 t], after1_0]
    rw [show (dat1 V c).leavesExact 1 t = owns (c : Thread nD τ) (ms1_1 t) fullShare ((dat1 V c).after 1 t) from by
        unfold Dat.leavesExact; rw [liveAt1_1 t], after1_1]
    rw [Dat.leavesExact_idle (dat1 V c) 2 t (idleAt1_2 t hc1) (noFlush1_2 t hc1)]
    rw [Dat.leavesExact_idle (dat1 V c) 3 t (idleAt1_3 t hc1) (noFlush1_3 t hc1)]
    rw [outsAt1_A V c t h0 h1]
    unfold sout1_A_0 sout1_A_1; (try dsimp only)
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, ⟨%d3, H3⟩⟩
    iapply ((kernelRun1_A c (grid1.coords t) _ _ _ _ _ _ _ _ _ _ _ _ hc0 hc1 (iblk1 V c 0 t) (iblk1 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ )
          · unfold owns; iexists _; isplitr
            swap; · iexact HS1
            ipureintro; exact View.read_writes_of_cover _ _ _ _ _ (scover1_A_1 c _ _ _ _ _ _ _ _ _ _ _ _ _ _ _ _ _ )
        iexact HR
      iexact Hg
    isplitl [Ho]; · iexact Ho
    isplitl [H0]; · iexact H0
    isplitl [H1]; · iexact H1
    isplitl [H2]; · iexists _; iexact H2
    iexists _; iexact H3
  · by_cases h1 : t.val = 49
    · have hc0 : ¬cond1_0 (grid1.coords t) := fun h => h0 ((hcond1_0 t).mp h)
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t hc1], after1_2]
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C_2 out1_C_3 sout1_C_0 sout1_C_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩⟩
      iapply ((kernelRun1_C c (grid1.coords t) _ _ _ _ _ _ _ _ _ _ _ _ hc0 hc1 (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ )
            · unfold owns; iexists _; isplitr
              swap; · iexact HS1
              ipureintro; exact View.read_writes_of_cover _ _ _ _ _ (scover1_C_1 c _ _ _ _ _ _ _ _ _ _ _ _ _ _ _ _ _ _ _ )
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _ )
      unfold owns; iexists _; isplitr
      swap; · iexact H3
      ipureintro; exact View.read_writes_of_cover _ _ _ _ _ (cover1_C_3 c _ _ _ _ _ _ _ _ _ _ _ _ _ _ _ _ _ _ _ )
    · have hc0 : ¬cond1_0 (grid1.coords t) := fun h => h0 ((hcond1_0 t).mp h)
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t hc1) (noFlush1_2 t hc1)]
      rw [Dat.leavesExact_idle (dat1 V c) 3 t (idleAt1_3 t hc1) (noFlush1_3 t hc1)]
      rw [outsAt1_B V c t h0 h1]
      unfold sout1_B_0 sout1_B_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩⟩
      iapply ((kernelRun1_B c (grid1.coords t) _ _ _ _ _ _ _ _ _ _ _ _ hc0 hc1 (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ )
            · unfold owns; iexists _; isplitr
              swap; · iexact HS1
              ipureintro; exact View.read_writes_of_cover _ _ _ _ _ (scover1_B_1 c _ _ _ _ _ _ _ _ _ _ _ _ _ _ _ _ _ _ _ )
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the running sums' values are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.Kernel.Fr

end
-- ==== Proof.K.Reg2.lean ====
/- Region 2 (the feed-forward kernel with the second normalisation's statistics): the body's triple at the first, a middle
   and the last point of the grid, the sums carried between points, the proof data, the body obligation and the
   invariant's two ends — at any float model `F` and any entry contents `V`. -/
import proofs.«118182_j89309549953493_1_alg».proof.Proof.Gen.Kernel.Launch
import proofs.«118182_j89309549953493_1_alg».proof.Proof.Gen.Kernel.Skeleton
import proofs.«118182_j89309549953493_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A load of a whole buffer through the rectangle of its own extents at zero offsets reads its contents. -/
theorem readAt_unit_zero' {sig : RefSig} {κ : Kind} {sp : Space} {S : Shape} {e : EltTy} {Val : EltTy → Type} (v : View sig κ sp S e) {off : Fin S.rank → ℕ}
    (h : off = fun _ => 0) (inb : ∀ a, off a + S.size a ≤ S.size a) (f : v.ty.Contents Val) :
    v.readAt Val (Rect.unit off S.size inb).toLoadRect f = v.read Val f :=
  (View.readAt_eq_ld v f _).trans (View.ld_unit_zero h inb _)

theorem zeros2 : (![0, 0] : Fin 2 → ℕ) = fun _ => 0 := by funext a; fin_cases a <;> rfl

/-! ## The body's two conditionals, decided over the grid -/

/-- The first conditional's condition (the point is the grid's first), from the grid coordinates. -/
abbrev cond2_0 (i : grid2.Coords) : Prop := (Scalar.cmpi .ne (Scalar.extui (Scalar.cmpi .eq (BitVec.ofNat 32 (i 0).val) 0#32)) 0#32) = 1#1
/-- The second conditional's condition (the point is the grid's last). -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 49 :=
  (by decide +kernel : ∀ t : Fin grid2.N, cond2_1 (grid2.coords t) ↔ t.val = 49)

/-- Windows 0 to 10 are idle nowhere. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel
/-- Windows 11 and 12 are idle, and not written back, at every point but the last; live at the last. -/
theorem idleAt2_11 : ∀ t : Fin cfg2.N, t.val ≠ 49 → cfg2.idle 11 (grid2.coords t) = true := by decide +kernel
theorem noFlush2_11 : ∀ t : Fin cfg2.N, t.val ≠ 49 → (cfg2.win 11).flush t = false := by decide +kernel
theorem liveAt2_11 : ∀ t : Fin cfg2.N, t.val = 49 → cfg2.idle 11 (grid2.coords t) = false := by decide +kernel
theorem idleAt2_12 : ∀ t : Fin cfg2.N, t.val ≠ 49 → cfg2.idle 12 (grid2.coords t) = true := by decide +kernel
theorem noFlush2_12 : ∀ t : Fin cfg2.N, t.val ≠ 49 → (cfg2.win 12).flush t = false := by decide +kernel
theorem liveAt2_12 : ∀ t : Fin cfg2.N, t.val = 49 → cfg2.idle 12 (grid2.coords t) = false := by decide +kernel

/-! ## What the body computes, over the contents of its input windows

`x0`, `x1` are the two row blocks whose sum is normalised, `x2`, `x3` the mean and variance rows, `x4`, `x5` the scale and
shift rows, `x6`, `x7` the first layer's matrix and bias row, `x8`, `x9` the second layer's. -/

/-- The normalised, scaled and shifted block. -/
def h1blk (x0 : Vec F S2000x128 .f32) (x1 : Vec F S2000x128 .f32) (x2 : Vec F S1x128 .f32) (x3 : Vec F S1x128 .f32) (x4 : Vec F S1x128 .f32) (x5 : Vec F S1x128 .f32) : FVec F S2000x128 .f32 := k2_pay8 x0 x1 x3 x2 x4 x5
/-- The hidden layer's activations of that block. -/
def actblk (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) : FVec F S2000x256 .bf16 := k2_pay9 x0 x1 x3 x2 x4 x5 x6 x7
/-- The block stored into window 10: the normalised block plus the second layer's image of the activations. -/
def out2_10 (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) : Vec F S2000x128 .f32 := k2_pay1 (h1blk x0 x1 x2 x3 x4 x5) (actblk x0 x1 x2 x3 x4 x5 x6 x7) x8 x9
/-- The column sums of the stored blocks after a point, from the sums `s` before it. -/
def step2_0 (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) (s : Vec F S1x128 .f32) : Vec F S1x128 .f32 := k2_pay2 (h1blk x0 x1 x2 x3 x4 x5) (actblk x0 x1 x2 x3 x4 x5 x6 x7) x8 x9 s
/-- The column sums of their squares after a point, from the sums `s` before it. -/
def step2_1 (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) (s : Vec F S1x128 .f32) : Vec F S1x128 .f32 := k2_pay3 (h1blk x0 x1 x2 x3 x4 x5) (actblk x0 x1 x2 x3 x4 x5 x6 x7) x8 x9 s
/-- The sums before the first point: zero rows. -/
def zero2_0 : Vec F S1x128 .f32 := k2_pay6 (F := F)
def zero2_1 : Vec F S1x128 .f32 := k2_pay7 (F := F)
/-- The mean row from the column sums, and the variance row from both sums. -/
def mean2 (s0 : Vec F S1x128 .f32) : Vec F S1x128 .f32 := k2_pay4 s0
def var2 (s0 s1 : Vec F S1x128 .f32) : Vec F S1x128 .f32 := k2_pay5 s0 s1

/-! ## The body's triple, case by case

On whole staging memrefs — the inputs' at their contents, window 10's at anything — the body runs to the continuation holding
the inputs' as they were and window 10's at the stored block. At the first point the two scratch rows are handed over at
anything and left at the first block's sums; at the other points they are handed over at the sums so far and left at the next
sums. Windows 11 and 12 are handed back untouched except at the last point, which stores the mean and variance rows. -/

set_option maxHeartbeats 4000000 in
theorem sound2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond2_0 i) (hc1 : ¬cond2_1 i)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32)
    (xi11 xi12 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9) ∗ owns (c : Thread nD τ) arg12 fullShare xi11 ∗ owns (c : Thread nD τ) arg13 fullShare xi12 ∗ owns (c : Thread nD τ) arg14 fullShare (step2_0 x0 x1 x2 x3 x4 x5 x6 x7 x8 x9 zero2_0) ∗ owns (c : Thread nD τ) arg15 fullShare (step2_1 x0 x1 x2 x3 x4 x5 x6 x7 x8 x9 zero2_1)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
  subst hf0 hf1 hf2 hf3 hf4 hf5 hf6 hf7 hf8 hf9 hf11 hf12
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    delta sound2_A.sl.r sound2_A.sl.r_1
    try delta sound2_A.sl.r sound2_A.sl.r_1
    rw [View.read_writes_eq_canon _ _ _ (fun y => ⟨_, List.Mem.head _, View.mem_set_unit_zero zeros2 inb_S2000x128_S2000x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [H11]
  · iexists f11; isplitr; · ipureintro; rfl
    iexact H11
  isplitl [H12]
  · iexists f12; isplitr; · ipureintro; rfl
    iexact H12
  isplitl [HS0]
  · iexists _; isplitr
    swap; · iexact HS0
    ipureintro
    delta sound2_A.sl.r sound2_A.sl.r_1 sound2_A.sl.v46 sound2_A.sl.HS0_1
    try delta sound2_A.sl.r sound2_A.sl.r_1 sound2_A.sl.v46 sound2_A.sl.HS0_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  · iexists _; isplitr
    swap; · iexact HS1
    ipureintro
    delta sound2_A.sl.r sound2_A.sl.r_1 sound2_A.sl.v53 sound2_A.sl.HS1_1
    try delta sound2_A.sl.r sound2_A.sl.r_1 sound2_A.sl.v53 sound2_A.sl.HS1_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl

set_option maxHeartbeats 4000000 in
theorem sound2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond2_0 i) (hc1 : ¬cond2_1 i)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32)
    (xi11 xi12 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ owns (c : Thread nD τ) arg12 fullShare xi11 ∗ owns (c : Thread nD τ) arg13 fullShare xi12 ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9) ∗ owns (c : Thread nD τ) arg12 fullShare xi11 ∗ owns (c : Thread nD τ) arg13 fullShare xi12 ∗ owns (c : Thread nD τ) arg14 fullShare (step2_0 x0 x1 x2 x3 x4 x5 x6 x7 x8 x9 xs0) ∗ owns (c : Thread nD τ) arg15 fullShare (step2_1 x0 x1 x2 x3 x4 x5 x6 x7 x8 x9 xs1)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
  subst hf0 hf1 hf2 hf3 hf4 hf5 hf6 hf7 hf8 hf9 hf11 hf12 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    delta sound2_B.sl.r sound2_B.sl.r_1
    try delta sound2_B.sl.r sound2_B.sl.r_1
    rw [View.read_writes_eq_canon _ _ _ (fun y => ⟨_, List.Mem.head _, View.mem_set_unit_zero zeros2 inb_S2000x128_S2000x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [H11]
  · iexists f11; isplitr; · ipureintro; rfl
    iexact H11
  isplitl [H12]
  · iexists f12; isplitr; · ipureintro; rfl
    iexact H12
  isplitl [HS0]
  · iexists _; isplitr
    swap; · iexact HS0
    ipureintro
    delta sound2_B.sl.r sound2_B.sl.r_1
    try delta sound2_B.sl.r sound2_B.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  · iexists _; isplitr
    swap; · iexact HS1
    ipureintro
    delta sound2_B.sl.r sound2_B.sl.r_1
    try delta sound2_B.sl.r sound2_B.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl

set_option maxHeartbeats 4000000 in
theorem sound2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond2_0 i) (hc1 : cond2_1 i)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32)
    (xi11 xi12 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (∃ d, owns (c : Thread nD τ) arg12 fullShare d) ∗ (∃ d, owns (c : Thread nD τ) arg13 fullShare d) ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9) ∗ owns (c : Thread nD τ) arg12 fullShare (mean2 (step2_0 x0 x1 x2 x3 x4 x5 x6 x7 x8 x9 xs0)) ∗ owns (c : Thread nD τ) arg13 fullShare (var2 (step2_0 x0 x1 x2 x3 x4 x5 x6 x7 x8 x9 xs0) (step2_1 x0 x1 x2 x3 x4 x5 x6 x7 x8 x9 xs1)) ∗ owns (c : Thread nD τ) arg14 fullShare (step2_0 x0 x1 x2 x3 x4 x5 x6 x7 x8 x9 xs0) ∗ owns (c : Thread nD τ) arg15 fullShare (step2_1 x0 x1 x2 x3 x4 x5 x6 x7 x8 x9 xs1)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
  subst hf0 hf1 hf2 hf3 hf4 hf5 hf6 hf7 hf8 hf9 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    delta sound2_C.sl.r sound2_C.sl.r_1
    try delta sound2_C.sl.r sound2_C.sl.r_1
    rw [View.read_writes_eq_canon _ _ _ (fun y => ⟨_, List.Mem.head _, View.mem_set_unit_zero zeros2 inb_S2000x128_S2000x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [H11]
  · iexists _; isplitr
    swap; · iexact H11
    ipureintro
    delta sound2_C.sl.v64 sound2_C.sl.HS0_1 sound2_C.sl.r sound2_C.sl.r_1
    try delta sound2_C.sl.v64 sound2_C.sl.HS0_1 sound2_C.sl.r sound2_C.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [H12]
  · iexists _; isplitr
    swap; · iexact H12
    ipureintro
    delta sound2_C.sl.v64 sound2_C.sl.v67 sound2_C.sl.HS0_1 sound2_C.sl.HS1_1 sound2_C.sl.r sound2_C.sl.r_1
    try delta sound2_C.sl.v64 sound2_C.sl.v67 sound2_C.sl.HS0_1 sound2_C.sl.HS1_1 sound2_C.sl.r sound2_C.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [HS0]
  · iexists _; isplitr
    swap; · iexact HS0
    ipureintro
    delta sound2_C.sl.HS0_1 sound2_C.sl.r sound2_C.sl.r_1
    try delta sound2_C.sl.HS0_1 sound2_C.sl.r sound2_C.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  · iexists _; isplitr
    swap; · iexact HS1
    ipureintro
    delta sound2_C.sl.HS1_1 sound2_C.sl.r sound2_C.sl.r_1
    try delta sound2_C.sl.HS1_1 sound2_C.sl.r sound2_C.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The sums carried between points -/

/-- The column sums and sums of squares of the stored blocks after the body at position `n`: from zero rows at the first
    point, from what the point before left afterwards. -/
def acc2 (c : Dev nD) : (n : ℕ) → n < cfg2.N → Vec F S1x128 .f32 × Vec F S1x128 .f32
  | 0, hn => (step2_0 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) zero2_0, step2_1 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) zero2_1)
  | n + 1, hn => (step2_0 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (acc2 c n (Nat.lt_of_succ_lt hn)).1, step2_1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (acc2 c n (Nat.lt_of_succ_lt hn)).2)

theorem acc2_first (c : Dev nD) (t : Fin cfg2.N) (h : t.val = 0) :
    acc2 V c t.val t.isLt = (step2_0 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) zero2_0, step2_1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) zero2_1) := by
  obtain ⟨n, hn⟩ := t
  cases n with
  | zero => rfl
  | succ n => exact absurd h (Nat.succ_ne_zero n)

theorem acc2_next (c : Dev nD) (t : Fin cfg2.N) (h : t.val ≠ 0) :
    acc2 V c t.val t.isLt = (step2_0 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) (Nat.lt_of_le_of_lt (Nat.sub_le _ _) t.isLt)).1, step2_1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) (Nat.lt_of_le_of_lt (Nat.sub_le _ _) t.isLt)).2) := by
  obtain ⟨n, hn⟩ := t
  cases n with
  | zero => exact absurd rfl h
  | succ n => rfl

/-! ## The region invariant -/

abbrev scM2_0 : Memref sig .tc .vmem S1x128 .f32 := Memref.whole cc2_scratch0
abbrev scM2_1 : Memref sig .tc .vmem S1x128 .f32 := Memref.whole cc2_scratch1

/-- The scoped buffers that are neither a staging buffer of this call nor one of its two scratch rows. -/
abbrev restB2 (c : Dev nD) : sProp 𝕄 :=
  Pipeline.scopedRestBut (Ix := Unit) (Name := ℕ) (U := UR sig nD τ) (Lvl := ℕ) (Val := Elt F) spec2 c [cc2_scratch0, cc2_scratch1]

theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ restB2 (F := F) c) :=
  Pipeline.scopedRest_split_of_list spec2 c [cc2_scratch0, cc2_scratch1] (by decide) (by decide)

/-- The class invariant with the two scratch rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restB2 (F := F) c) ∗ (∃ r, prngReg c r)) := by
  unfold Pipeline.ΦA; rw [scopedRest2_split]; simp only [scM2_0, scM2_1, owns_whole]; try rfl

/-- The invariant before position `n`: before the first point every scoped buffer at anything; afterwards the two scratch
    rows at the sums the point before left, the rest at anything. -/
def PhiS (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ restB2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM2_0 fullShare (acc2 V c n hn).1 ∗ owns (c : Thread nD τ) scM2_1 fullShare (acc2 V c n hn).2) ∗ restB2 (F := F) c) ∗ (∃ r, prngReg c r)) := rfl

theorem PhiS_pos (c : Dev nD) (n : ℕ) (h : n ≤ cfg2.N) (hz : n ≠ 0) :
    PhiS V c n h = iprop(iprop(iprop(owns (c : Thread nD τ) scM2_0 fullShare (acc2 V c (n - 1) (by omega)).1 ∗ owns (c : Thread nD τ) scM2_1 fullShare (acc2 V c (n - 1) (by omega)).2) ∗ restB2 (F := F) c) ∗ (∃ r, prngReg c r)) := by
  cases n with
  | zero => exact absurd rfl hz
  | succ n => rfl

/-! ## The pipeline's proof data -/

/-- The proof data of pipeline 2 on core `c`: the arrays as the region finds them; after the body at point `t` each input's
    buffer at its block, window 10's at the stored block, windows 11 and 12 at the mean and variance rows of the sums so
    far (what the last point stores; at the other points the windows are idle and this is not consulted). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    | ⟨11, _⟩ => mean2 (acc2 V c t.val t.isLt).1
    | ⟨12, _⟩ => var2 (acc2 V c t.val t.isLt).1 (acc2 V c t.val t.isLt).2
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
theorem after2_11 (c : Dev nD) (t : Fin cfg2.N) : (dat2 V c).after 11 t = mean2 (acc2 V c t.val t.isLt).1 := by dsimp only [dat2]
theorem after2_12 (c : Dev nD) (t : Fin cfg2.N) : (dat2 V c).after 12 t = var2 (acc2 V c t.val t.isLt).1 (acc2 V c t.val t.isLt).2 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 4800000 in
/-- The body at any point: the inputs' memrefs hold their blocks; the closed forms say whether the point is the first, a
    middle one or the last; the invariant hands the body the two scratch rows at the sums the point before left (at
    anything at the first point) and takes them back at this point's sums; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [show (dat2 V c).Φ t.succ = PhiS V c (t.val + 1) t.isLt from rfl, PhiS_succ]
  have hN : t.val < 50 := lt_of_lt_of_eq t.isLt (show cfg2.N = 50 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  rw [show (dat2 V c).leavesExact 9 t = owns (c : Thread nD τ) (st2_9 t) fullShare ((dat2 V c).after 9 t) from by
    unfold Dat.leavesExact; rw [liveAt2_9 t], after2_9]
  rw [show (dat2 V c).leavesExact 10 t = owns (c : Thread nD τ) (st2_10 t) fullShare ((dat2 V c).after 10 t) from by
    unfold Dat.leavesExact; rw [liveAt2_10 t], after2_10]
  by_cases hz : t.val = 0
  · have hl : t.val ≠ 49 := by omega
    rw [Dat.leavesExact_idle (dat2 V c) 11 t (idleAt2_11 t hl) (noFlush2_11 t hl), Dat.leavesExact_idle (dat2 V c) 12 t (idleAt2_12 t hl) (noFlush2_12 t hl)]
    rw [acc2_first V c t hz]; dsimp only
    rw [PhiS_castSucc V c t, PhiS_zero V c _ _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound2_A c (grid2.coords t) _ _ _ _ _ _ _ _ _ _ _ _ _ _ _ _ _ _ _ _ _ _ _ _ _ _ _ _ _ _ ((hcond2_0 t).mpr hz) (fun h => hl ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 11 t d11) ((dat2 V c).before 12 t d12) zero2_0 zero2_1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexists _; iexact H12
  · by_cases hl : t.val = 49
    · rw [show (dat2 V c).leavesExact 11 t = owns (c : Thread nD τ) (st2_11 t) fullShare ((dat2 V c).after 11 t) from by
        unfold Dat.leavesExact; rw [liveAt2_11 t hl], after2_11]
      rw [show (dat2 V c).leavesExact 12 t = owns (c : Thread nD τ) (st2_12 t) fullShare ((dat2 V c).after 12 t) from by
        unfold Dat.leavesExact; rw [liveAt2_12 t hl], after2_12]
      rw [acc2_next V c t hz]; dsimp only
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound2_C c (grid2.coords t) _ _ _ _ _ _ _ _ _ _ _ _ _ _ _ _ _ _ _ _ _ _ _ _ _ _ _ _ _ _ (fun h => hz ((hcond2_0 t).mp h)) ((hcond2_1 t).mpr hl) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 11 t d11) ((dat2 V c).before 12 t d12) (acc2 V c (t.val - 1) (Nat.lt_of_le_of_lt (Nat.sub_le _ _) t.isLt)).1 (acc2 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      iintro ⟨H0, H1, H2, H3, H4, H5, H6, H7, H8, H9, H10, H11, H12, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Dat.leavesExact_idle (dat2 V c) 11 t (idleAt2_11 t hl) (noFlush2_11 t hl), Dat.leavesExact_idle (dat2 V c) 12 t (idleAt2_12 t hl) (noFlush2_12 t hl)]
      rw [acc2_next V c t hz]; dsimp only
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound2_B c (grid2.coords t) _ _ _ _ _ _ _ _ _ _ _ _ _ _ _ _ _ _ _ _ _ _ _ _ _ _ _ _ _ _ (fun h => hz ((hcond2_0 t).mp h)) (fun h => hl ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 11 t d11) ((dat2 V c).before 12 t d12) (acc2 V c (t.val - 1) (Nat.lt_of_le_of_lt (Nat.sub_le _ _) t.isLt)).1 (acc2 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the class invariant back: the sums' names are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Region

end Cert.Kernel.Fr
end
-- ==== Proof.K.Reg3.lean ====
/- Region 3 of @main, the normalisation `cc3__bn2_kernel` on a grid of 50 row blocks: the proof data of its pipeline at an arbitrary entry contents `V`, and the body obligation. Window 0 is the block of 2000 rows of the input, windows 1 to 4 the four rows [1,128] (mean, variance, scale, shift; their block index never moves), window 5 the block of 2000 rows of the result, stored whole at every point. -/
import proofs.«118182_j89309549953493_1_alg».proof.Proof.Gen.Kernel.Launch
import proofs.«118182_j89309549953493_1_alg».proof.Proof.Gen.Kernel.Skeleton
import proofs.«118182_j89309549953493_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axis
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input windows 1 to 4 (one row each; fetched at the first point only, the block index constant) likewise: where
    a window is not fetched its index has not moved, and the block kept is the block there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000×128 block, and the whole row [1,128]. -/
abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the output window's buffer -/

/-- Window 5's staging buffer after the body, from the input windows' blocks: its one store, of the input block
    `x0` normalised by the mean `x1` and the variance `x2`, scaled by `x3` and shifted by `x4`. -/
def out3_5 (x0 : Vec F S2000x128 .f32) (x1 x2 x3 x4 : Vec F S1x128 .f32) : Vec F S2000x128 .f32 :=
  View.canon [⟨r3_0, k3_pay1 (View.ld x2 r3_1) (View.ld x0 r3_0) (View.ld x1 r3_1) (View.ld x3 r3_1) (View.ld x4 r3_1)⟩]

/-- The store's rectangle is the whole buffer, so it covers it. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `x0 … x4` and the output's at anything,
    runs to the continuation holding the inputs' as they were and the output's at `out3_5 x0 x1 x2 x3 x4`. -/
theorem sound_kernel3 (c : Dev nD) (E : Set ℕ) (i : grid3.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn2_kernel i arg1 harg1 arg2 harg2 arg3 harg3 arg4 harg4 arg5 harg5 arg6 harg6) K := by
  simp only [cc3__bn2_kernel_eq_skeleton]; unfold cc3__bn2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 (F := F) _)

/-! ## The pipeline's proof data -/

/-- The proof data of pipeline 3 on core `c`: the arrays as the region finds them (`V`); after the body at point `t`
    each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the ends -/

/-- The region's invariant is the class's at every point, so it is entered and left by reflexivity. -/
theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = Pipeline.ΦA spec3 c from rfl]

end Cert.Kernel.Fr

end
-- ==== Proof.K.Run.lean ====
import proofs.«118182_j89309549953493_1_alg».proof.Proof.K.Reg0
import proofs.«118182_j89309549953493_1_alg».proof.Proof.K.Reg1
import proofs.«118182_j89309549953493_1_alg».proof.Proof.K.Reg2
import proofs.«118182_j89309549953493_1_alg».proof.Proof.K.Reg3
import proofs.«118182_j89309549953493_1_alg».proof.Proof.Gen.Kernel.Launch
import proofs.«118182_j89309549953493_1_alg».proof.Proof.Gen.Kernel.Skeleton
import proofs.«118182_j89309549953493_1_alg».proof.Proof.Gen.Kernel.Points
import proofs.«118182_j89309549953493_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The kernel's program as ten segments, and its run

@main is three stretches of host operations, then four kernel regions with a stretch of host operations before each of the
last three. Each region is entered with every unscoped buffer of the core at known contents, runs its pipeline over the
grid of 50 row blocks under its own proof data (modules `Reg0` … `Reg3`), and leaves its output windows' arrays at what
the write-backs folded; every other buffer is as the region found it. Chaining the segments gives the run: every weakly
fair execution terminates, and the final memory holds every unscoped buffer at the last boundary's contents — in
particular the arguments as launched, and the result at what region 3's write-backs leave.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the first stretch of host operations (the degree and its inverse square root), -/
abbrev W1 : Dev nD → Valuation τ sig (Elt F) := fun c => StableHlo.after hostOps0 (W0 m ρ c)
/-- after the select that zeroes the isolated nodes, -/
abbrev W2 : Dev nD → Valuation τ sig (Elt F) := fun c => StableHlo.after hostOps0_1 (W1 m ρ c)
/-- after the per-edge normalisation: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its windows' arrays at what the write-backs leave, every other buffer as the region found it. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the aggregation over the edges and the bias: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its windows' arrays at what the write-backs leave, every other buffer as the region found it. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the reshapes of the first normalisation's and the feed-forward's parameters: region 2's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its windows' arrays at what the write-backs leave, every other buffer as the region found it. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the reshapes of the second normalisation's parameters: region 3's entry. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- At region 3's exit: its windows' arrays at what the write-backs leave, every other buffer as the region found it. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- Region 0 changes no buffer but its output windows' arrays: an input window's array is read and left as found, every
    other buffer bypasses the region. -/
theorem W4_keep (c : Dev nD) (b : Ref sig .tc) (hb : ∀ w : Fin cfg0.W, (cfg0.win w).isOut = true → Pipeline.arrRef spec0 w ≠ b) :
    W4 m ρ c (Proc.devRef .tc b) = W3 m ρ c (Proc.devRef .tc b) := by
  by_cases h : ∀ w, Pipeline.arrRef spec0 w ≠ b
  · exact W4_of_ne m ρ c b h
  · obtain ⟨w, hw⟩ := not_forall.mp h
    have hw' : Pipeline.arrRef spec0 w = b := not_not.mp hw
    subst hw'
    have hin : (cfg0.win w).isOut = false := by
      cases ho : (cfg0.win w).isOut with
      | false => rfl
      | true => exact absurd rfl (hb w ho)
    exact (W4_arr m ρ c w).trans (((dat0 (V3 m ρ) c).arrAt_in w hin _).trans (A_eq0 (V3 m ρ) c w))

/-- Region 1 changes no buffer but its output windows' arrays: an input window's array is read and left as found, every
    other buffer bypasses the region. -/
theorem W6_keep (c : Dev nD) (b : Ref sig .tc) (hb : ∀ w : Fin cfg1.W, (cfg1.win w).isOut = true → Pipeline.arrRef spec1 w ≠ b) :
    W6 m ρ c (Proc.devRef .tc b) = W5 m ρ c (Proc.devRef .tc b) := by
  by_cases h : ∀ w, Pipeline.arrRef spec1 w ≠ b
  · exact W6_of_ne m ρ c b h
  · obtain ⟨w, hw⟩ := not_forall.mp h
    have hw' : Pipeline.arrRef spec1 w = b := not_not.mp hw
    subst hw'
    have hin : (cfg1.win w).isOut = false := by
      cases ho : (cfg1.win w).isOut with
      | false => rfl
      | true => exact absurd rfl (hb w ho)
    exact (W6_arr m ρ c w).trans (((dat1 (V5 m ρ) c).arrAt_in w hin _).trans (A_eq1 (V5 m ρ) c w))

/-- Region 2 changes no buffer but its output windows' arrays: an input window's array is read and left as found, every
    other buffer bypasses the region. -/
theorem W8_keep (c : Dev nD) (b : Ref sig .tc) (hb : ∀ w : Fin cfg2.W, (cfg2.win w).isOut = true → Pipeline.arrRef spec2 w ≠ b) :
    W8 m ρ c (Proc.devRef .tc b) = W7 m ρ c (Proc.devRef .tc b) := by
  by_cases h : ∀ w, Pipeline.arrRef spec2 w ≠ b
  · exact W8_of_ne m ρ c b h
  · obtain ⟨w, hw⟩ := not_forall.mp h
    have hw' : Pipeline.arrRef spec2 w = b := not_not.mp hw
    subst hw'
    have hin : (cfg2.win w).isOut = false := by
      cases ho : (cfg2.win w).isOut with
      | false => rfl
      | true => exact absurd rfl (hb w ho)
    exact (W8_arr m ρ c w).trans (((dat2 (V7 m ρ) c).arrAt_in w hin _).trans (A_eq2 (V7 m ρ) c w))

/-- Region 3 changes no buffer but its output windows' arrays: an input window's array is read and left as found, every
    other buffer bypasses the region. -/
theorem W10_keep (c : Dev nD) (b : Ref sig .tc) (hb : ∀ w : Fin cfg3.W, (cfg3.win w).isOut = true → Pipeline.arrRef spec3 w ≠ b) :
    W10 m ρ c (Proc.devRef .tc b) = W9 m ρ c (Proc.devRef .tc b) := by
  by_cases h : ∀ w, Pipeline.arrRef spec3 w ≠ b
  · exact W10_of_ne m ρ c b h
  · obtain ⟨w, hw⟩ := not_forall.mp h
    have hw' : Pipeline.arrRef spec3 w = b := not_not.mp hw
    subst hw'
    have hin : (cfg3.win w).isOut = false := by
      cases ho : (cfg3.win w).isOut with
      | false => rfl
      | true => exact absurd rfl (hb w ho)
    exact (W10_arr m ρ c w).trans (((dat3 (V9 m ρ) c).arrAt_in w hin _).trans (A_eq3 (V9 m ρ) c w))

/-! ### A buffer nothing has written yet holds its launch contents

Boundary by boundary: a buffer that no stretch of host operations so far writes and that is no output array of a region so
far holds what the launch put there. -/

theorem W3_of (c : Dev nD) (b : Ref sig .tc) (h0 : b ∉ hostOps0_W) (h01 : b ∉ hostOps0_1_W) (h02 : b ∉ hostOps0_2_W) :
    W3 m ρ c (Proc.devRef .tc b) = m ((c : Thread nD τ).loc b) :=
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0).trans rfl
theorem W4_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b) :
    W4 m ρ c (Proc.devRef .tc b) = m ((c : Thread nD τ).loc b) :=
  (W4_keep m ρ c b o0).trans (W3_of m ρ c b h0 h01 h02)
theorem W5_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) : W5 m ρ c (Proc.devRef .tc b) = m ((c : Thread nD τ).loc b) :=
  (StableHlo.after_of_writes_sub hostOps1 _ hostOps1_writes h1).trans (W4_of m ρ c b h0 h01 h02 o0)
theorem W6_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) (o1 : ∀ w : Fin cfg1.W, (cfg1.win w).isOut = true → Pipeline.arrRef spec1 w ≠ b) : W6 m ρ c (Proc.devRef .tc b) = m ((c : Thread nD τ).loc b) :=
  (W6_keep m ρ c b o1).trans (W5_of m ρ c b h0 h01 h02 o0 h1)
theorem W7_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) (o1 : ∀ w : Fin cfg1.W, (cfg1.win w).isOut = true → Pipeline.arrRef spec1 w ≠ b) (h2 : b ∉ hostOps2_W) : W7 m ρ c (Proc.devRef .tc b) = m ((c : Thread nD τ).loc b) :=
  (StableHlo.after_of_writes_sub hostOps2 _ hostOps2_writes h2).trans (W6_of m ρ c b h0 h01 h02 o0 h1 o1)
theorem W8_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) (o1 : ∀ w : Fin cfg1.W, (cfg1.win w).isOut = true → Pipeline.arrRef spec1 w ≠ b) (h2 : b ∉ hostOps2_W) (o2 : ∀ w : Fin cfg2.W, (cfg2.win w).isOut = true → Pipeline.arrRef spec2 w ≠ b) : W8 m ρ c (Proc.devRef .tc b) = m ((c : Thread nD τ).loc b) :=
  (W8_keep m ρ c b o2).trans (W7_of m ρ c b h0 h01 h02 o0 h1 o1 h2)
theorem W9_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) (o1 : ∀ w : Fin cfg1.W, (cfg1.win w).isOut = true → Pipeline.arrRef spec1 w ≠ b) (h2 : b ∉ hostOps2_W) (o2 : ∀ w : Fin cfg2.W, (cfg2.win w).isOut = true → Pipeline.arrRef spec2 w ≠ b) (h3 : b ∉ hostOps3_W) :
    W9 m ρ c (Proc.devRef .tc b) = m ((c : Thread nD τ).loc b) :=
  (StableHlo.after_of_writes_sub hostOps3 _ hostOps3_writes h3).trans (W8_of m ρ c b h0 h01 h02 o0 h1 o1 h2 o2)
/-- A buffer that no stretch of host operations writes and that is no region's output array ends as launched. -/
theorem W10_of (c : Dev nD) (b : Ref sig .tc)
    (h0 : b ∉ hostOps0_W) (h01 : b ∉ hostOps0_1_W) (h02 : b ∉ hostOps0_2_W) (h1 : b ∉ hostOps1_W) (h2 : b ∉ hostOps2_W) (h3 : b ∉ hostOps3_W)
    (o0 : ∀ w : Fin cfg0.W, (cfg0.win w).isOut = true → Pipeline.arrRef spec0 w ≠ b)
    (o1 : ∀ w : Fin cfg1.W, (cfg1.win w).isOut = true → Pipeline.arrRef spec1 w ≠ b)
    (o2 : ∀ w : Fin cfg2.W, (cfg2.win w).isOut = true → Pipeline.arrRef spec2 w ≠ b)
    (o3 : ∀ w : Fin cfg3.W, (cfg3.win w).isOut = true → Pipeline.arrRef spec3 w ≠ b) :
    W10 m ρ c (Proc.devRef .tc b) = m ((c : Thread nD τ).loc b) :=
  (W10_keep m ρ c b o3).trans (W9_of m ρ c b h0 h01 h02 o0 h1 o1 h2 o2 h3)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps0_1_fresh' : (hostOps0_1 : List (HloOp τ sig (Elt F))).Forall fun op => op.fresh = ∅ := by
  simp only [List.Forall]; repeat' constructor
theorem hostOps0_2_fresh' : (hostOps0_2 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-- What the launch hands region 0 beside its windows makes the class's invariant (the scoped buffers no window stages,
    each whole at some contents, and the generator register), and the invariant gives the same back. -/
theorem toΦA0 (c : Dev nD) :
    iprop((∃ r, prngReg c r) ∗ Pipeline.prefHeld (pcfgs (F := F) 0).pre c (fun _ => fullShare) (adm (F := F) 0).1 ∗ Pipeline.scopedRest spec0 c)
      ⊢ (Pipeline.ΦA spec0 c : sProp 𝕄) := by
  unfold Pipeline.ΦA
  iintro ⟨Hp, -, Hr⟩
  isplitl [Hr]; · iexact Hr
  iexact Hp
theorem ofΦA0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-- What the launch hands region 1 beside its windows makes the class's invariant (the scoped buffers no window stages,
    each whole at some contents, and the generator register), and the invariant gives the same back. -/
theorem toΦA1 (c : Dev nD) :
    iprop((∃ r, prngReg c r) ∗ Pipeline.prefHeld (pcfgs (F := F) 1).pre c (fun _ => fullShare) (adm (F := F) 1).1 ∗ Pipeline.scopedRest spec1 c)
      ⊢ (Pipeline.ΦA spec1 c : sProp 𝕄) := by
  unfold Pipeline.ΦA
  iintro ⟨Hp, -, Hr⟩
  isplitl [Hr]; · iexact Hr
  iexact Hp
theorem ofΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- What the launch hands region 2 beside its windows makes the class's invariant (the scoped buffers no window stages,
    each whole at some contents, and the generator register), and the invariant gives the same back. -/
theorem toΦA2 (c : Dev nD) :
    iprop((∃ r, prngReg c r) ∗ Pipeline.prefHeld (pcfgs (F := F) 2).pre c (fun _ => fullShare) (adm (F := F) 2).1 ∗ Pipeline.scopedRest spec2 c)
      ⊢ (Pipeline.ΦA spec2 c : sProp 𝕄) := by
  unfold Pipeline.ΦA
  iintro ⟨Hp, -, Hr⟩
  isplitl [Hr]; · iexact Hr
  iexact Hp
theorem ofΦA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-- What the launch hands region 3 beside its windows makes the class's invariant (the scoped buffers no window stages,
    each whole at some contents, and the generator register), and the invariant gives the same back. -/
theorem toΦA3 (c : Dev nD) :
    iprop((∃ r, prngReg c r) ∗ Pipeline.prefHeld (pcfgs (F := F) 3).pre c (fun _ => fullShare) (adm (F := F) 3).1 ∗ Pipeline.scopedRest spec3 c)
      ⊢ (Pipeline.ΦA spec3 c : sProp 𝕄) := by
  unfold Pipeline.ΦA
  iintro ⟨Hp, -, Hr⟩
  isplitl [Hr]; · iexact Hr
  iexact Hp
theorem ofΦA3 (c : Dev nD) :
    (Pipeline.ΦA spec3 c : sProp 𝕄) ⊢ iprop((∃ r, prngReg c r) ∗ BI.emp ∗ Pipeline.scopedRest spec3 c) := by
  unfold Pipeline.ΦA
  iintro ⟨Hr, Hp⟩
  isplitl [Hp]; · iexact Hp
  isplitr; · iempintro
  iexact Hr

/-! ## The regions as segments -/

set_option backward.isDefEq.respectTransparency.types false in
/-- Region 0 as a segment: entered with every unscoped buffer at `W3`, left with them at `W4`. The windows' arrays
    are split out of the unscoped buffers on entry and joined back, at what the write-backs leave, on exit; the generator
    register goes into the kernel's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA0 c).trans (hin0 (V3 m ρ) c)
  hout c := by
    rw [Pipeline.ownSems0_none]
    exact (hout0 (V3 m ρ) c).trans (ofΦA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. The windows' arrays
    are split out of the unscoped buffers on entry and joined back, at what the write-backs leave, on exit; the generator
    register goes into the kernel's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c).trans (hin1 (V5 m ρ) c)
  hout c := by
    rw [Pipeline.ownSems0_none]
    exact (hout1 (V5 m ρ) c).trans (ofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. The windows' arrays
    are split out of the unscoped buffers on entry and joined back, at what the write-backs leave, on exit; the generator
    register goes into the kernel's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA2 c).trans (hin2 (V7 m ρ) c)
  hout c := by
    rw [Pipeline.ownSems0_none]
    exact (hout2 (V7 m ρ) c).trans (ofΦA2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W9`, left with them at `W10`. The windows' arrays
    are split out of the unscoped buffers on entry and joined back, at what the write-backs leave, on exit; the generator
    register goes into the kernel's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA3 c).trans (hin3 (V9 m ρ) c)
  hout c := by
    rw [Pipeline.ownSems0_none]
    exact (hout3 (V9 m ρ) c).trans (ofΦA3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m ρ) () defs₀ 𝒱₀ L lv) :=
  [ .host (hseg hostOps0 hostOps0_sub hostOps0_fresh' (W0 m ρ)),
    .host (hseg hostOps0_1 hostOps0_1_sub hostOps0_1_fresh' (W1 m ρ)),
    .host (hseg hostOps0_2 hostOps0_2_sub hostOps0_2_fresh' (W2 m ρ)),
    .region (reg0 m ρ),
    .host (hseg hostOps1 hostOps1_sub hostOps1_fresh' (W4 m ρ)),
    .region (reg1 m ρ),
    .host (hseg hostOps2 hostOps2_sub hostOps2_fresh' (W6 m ρ)),
    .region (reg2 m ρ),
    .host (hseg hostOps3 hostOps3_sub hostOps3_fresh' (W8 m ρ)),
    .region (reg3 m ρ) ]

set_option backward.isDefEq.respectTransparency.types false in
/-- THE RUN: from any memory with zero counters every weakly fair execution of @main terminates, nothing faulting, and
    every final memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W10 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- THE FRAME: every weakly fair execution of @main terminates, nothing faulting, and leaves every argument array as launched
    — no stretch of host operations writes an argument and no region has one as an output. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W10_of m ρ c main_arg0 (by decide) (by decide) (by decide) (by decide) (by decide) (by decide) (by decide) (by decide) (by decide) (by decide)),
    (h c _ (mem_uc main_arg1 (by decide))).trans (W10_of m ρ c main_arg1 (by decide) (by decide) (by decide) (by decide) (by decide) (by decide) (by decide) (by decide) (by decide) (by decide)),
    (h c _ (mem_uc main_arg2 (by decide))).trans (W10_of m ρ c main_arg2 (by decide) (by decide) (by decide) (by decide) (by decide) (by decide) (by decide) (by decide) (by decide) (by decide)),
    (h c _ (mem_uc main_arg3 (by decide))).trans (W10_of m ρ c main_arg3 (by decide) (by decide) (by decide) (by decide) (by decide) (by decide) (by decide) (by decide) (by decide) (by decide)),
    (h c _ (mem_uc main_arg4 (by decide))).trans (W10_of m ρ c main_arg4 (by decide) (by decide) (by decide) (by decide) (by decide) (by decide) (by decide) (by decide) (by decide) (by decide)),
    (h c _ (mem_uc main_arg5 (by decide))).trans (W10_of m ρ c main_arg5 (by decide) (by decide) (by decide) (by decide) (by decide) (by decide) (by decide) (by decide) (by decide) (by decide)),
    (h c _ (mem_uc main_arg6 (by decide))).trans (W10_of m ρ c main_arg6 (by decide) (by decide) (by decide) (by decide) (by decide) (by decide) (by decide) (by decide) (by decide) (by decide)),
    (h c _ (mem_uc main_arg7 (by decide))).trans (W10_of m ρ c main_arg7 (by decide) (by decide) (by decide) (by decide) (by decide) (by decide) (by decide) (by decide) (by decide) (by decide)),
    (h c _ (mem_uc main_arg8 (by decide))).trans (W10_of m ρ c main_arg8 (by decide) (by decide) (by decide) (by decide) (by decide) (by decide) (by decide) (by decide) (by decide) (by decide)),
    (h c _ (mem_uc main_arg9 (by decide))).trans (W10_of m ρ c main_arg9 (by decide) (by decide) (by decide) (by decide) (by decide) (by decide) (by decide) (by decide) (by decide) (by decide)),
    (h c _ (mem_uc main_arg10 (by decide))).trans (W10_of m ρ c main_arg10 (by decide) (by decide) (by decide) (by decide) (by decide) (by decide) (by decide) (by decide) (by decide) (by decide)),
    (h c _ (mem_uc main_arg11 (by decide))).trans (W10_of m ρ c main_arg11 (by decide) (by decide) (by decide) (by decide) (by decide) (by decide) (by decide) (by decide) (by decide) (by decide)),
    (h c _ (mem_uc main_arg12 (by decide))).trans (W10_of m ρ c main_arg12 (by decide) (by decide) (by decide) (by decide) (by decide) (by decide) (by decide) (by decide) (by decide) (by decide))⟩)
    (run_all m ρ)

/-- THE RESULT beside the frame: the final memory holds, in the result's buffer, what region 3's write-backs leave. -/
theorem run_value : θ_run defs (onTc (τ := τ) (main (F := F))) ⟨m, fun _ => 0, ρ⟩ (fun r => ∀ c : Dev nD,
      r.2.mem ((c.tc : Thread nD τ).loc main_v59) = (dat3 (V9 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v59 (by decide))).trans (W10_arr m ρ c 5),
    (h c _ (mem_uc main_arg0 (by decide))).trans (W10_of m ρ c main_arg0 (by decide) (by decide) (by decide) (by decide) (by decide) (by decide) (by decide) (by decide) (by decide) (by decide)),
    (h c _ (mem_uc main_arg1 (by decide))).trans (W10_of m ρ c main_arg1 (by decide) (by decide) (by decide) (by decide) (by decide) (by decide) (by decide) (by decide) (by decide) (by decide)),
    (h c _ (mem_uc main_arg2 (by decide))).trans (W10_of m ρ c main_arg2 (by decide) (by decide) (by decide) (by decide) (by decide) (by decide) (by decide) (by decide) (by decide) (by decide)),
    (h c _ (mem_uc main_arg3 (by decide))).trans (W10_of m ρ c main_arg3 (by decide) (by decide) (by decide) (by decide) (by decide) (by decide) (by decide) (by decide) (by decide) (by decide)),
    (h c _ (mem_uc main_arg4 (by decide))).trans (W10_of m ρ c main_arg4 (by decide) (by decide) (by decide) (by decide) (by decide) (by decide) (by decide) (by decide) (by decide) (by decide)),
    (h c _ (mem_uc main_arg5 (by decide))).trans (W10_of m ρ c main_arg5 (by decide) (by decide) (by decide) (by decide) (by decide) (by decide) (by decide) (by decide) (by decide) (by decide)),
    (h c _ (mem_uc main_arg6 (by decide))).trans (W10_of m ρ c main_arg6 (by decide) (by decide) (by decide) (by decide) (by decide) (by decide) (by decide) (by decide) (by decide) (by decide)),
    (h c _ (mem_uc main_arg7 (by decide))).trans (W10_of m ρ c main_arg7 (by decide) (by decide) (by decide) (by decide) (by decide) (by decide) (by decide) (by decide) (by decide) (by decide)),
    (h c _ (mem_uc main_arg8 (by decide))).trans (W10_of m ρ c main_arg8 (by decide) (by decide) (by decide) (by decide) (by decide) (by decide) (by decide) (by decide) (by decide) (by decide)),
    (h c _ (mem_uc main_arg9 (by decide))).trans (W10_of m ρ c main_arg9 (by decide) (by decide) (by decide) (by decide) (by decide) (by decide) (by decide) (by decide) (by decide) (by decide)),
    (h c _ (mem_uc main_arg10 (by decide))).trans (W10_of m ρ c main_arg10 (by decide) (by decide) (by decide) (by decide) (by decide) (by decide) (by decide) (by decide) (by decide) (by decide)),
    (h c _ (mem_uc main_arg11 (by decide))).trans (W10_of m ρ c main_arg11 (by decide) (by decide) (by decide) (by decide) (by decide) (by decide) (by decide) (by decide) (by decide) (by decide)),
    (h c _ (mem_uc main_arg12 (by decide))).trans (W10_of m ρ c main_arg12 (by decide) (by decide) (by decide) (by decide) (by decide) (by decide) (by decide) (by decide) (by decide) (by decide))⟩)
    (run_all m ρ)

end Cert.Kernel.Fr

end
-- ==== Proof.KI.Reg0.lean ====
/- Region 0 of @main, the matrix product `cc0__matmul_kernel` on a grid of 50 row blocks: the proof data of its pipeline at an arbitrary entry contents `V`, and the body obligation. Window 0 is the block of 2000 rows of the left operand, window 1 the whole right operand (its block index never moves), window 2 the block of 2000 rows of the product, stored whole at every point. -/
import proofs.«118182_j89309549953493_1_alg».proof.Proof.Gen.KernelIdeal.Launch
import proofs.«118182_j89309549953493_1_alg».proof.Proof.Gen.KernelIdeal.Skeleton
import proofs.«118182_j89309549953493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole right operand; fetched at the first point only, its block index constant) likewise:
    where it is not fetched the index has not moved, and the block kept is the block there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 2000×128 block, and the whole 128×128 right operand. -/
abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-! ## What the body leaves in the output window's buffer -/

/-- Window 2's staging buffer after the body, from the input windows' blocks: its one store, of the product
    of the left block `x0` and the right operand `x1`. -/
def out0_2 (x0 : Vec F S2000x128 .f32) (x1 : Vec F S128x128 .f32) : Vec F S2000x128 .f32 :=
  View.canon [⟨r0_0, k0_pay1 (View.ld x0 r0_0) (View.ld x1 r0_1)⟩]

/-- The store's rectangle is the whole buffer, so it covers it. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 (F := F) _)

/-! ## The pipeline's proof data -/

/-- The proof data of pipeline 0 on core `c`: the arrays as the region finds them (`V`); after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the ends -/

/-- The region's invariant is the class's at every point, so it is entered and left by reflexivity. -/
theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c := by
  rw [show (dat0 V c).Φ (Fin.last cfg0.N) = Pipeline.ΦA spec0 c from rfl]

end Cert.KernelIdeal.Fr

end
-- ==== Proof.KI.Reg1.lean ====
/- The stats region of the block (its second kernel launch, a grid of 50 row blocks of 2000 rows): the two running
   column sums it carries between grid points — of h = x + h_local and of h * h —, zeroed at the first point, and the
   mean and variance rows it stores at the last. Proof data for that region at ANY contents `V` of the arrays on
   entry, generic in the float interpretation: the three cases of a point (first, middle, last), each run once over
   the kernel's skeleton; what the two scratch rows and the two output rows hold after each point, by recursion on
   the point; the invariant; the body obligation. -/
import proofs.«118182_j89309549953493_1_alg».proof.Proof.Gen.KernelIdeal.Launch
import proofs.«118182_j89309549953493_1_alg».proof.Proof.Gen.KernelIdeal.Skeleton
import proofs.«118182_j89309549953493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place: window 0 (the rows of x), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- and window 1 (the rows of h_local). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the grid point is the first), from the grid coordinates. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val = 0 :=
  (by decide +kernel : ∀ t : Fin grid1.N, cond1_0 (grid1.coords t) ↔ t.val = 0)

/-- The condition of the body's second `scf.if` (the grid point is the last). -/
abbrev cond1_1 (i : grid1.Coords) : Prop := k1_cond2 i = 1#1
/-- It holds at the last point only — decided over the grid. -/
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two output rows are idle and not written back; -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The staging memrefs and the two scratch rows -/

/-- Each window's current staging memref at point `t`, as the pipeline passes it, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The running sum of h and the running sum of h * h: whole scoped buffers of the kernel's own. -/
abbrev scM1_0 : Memref sig .tc .vmem S1x128 .f32 := Memref.whole cc1_scratch0
abbrev scM1_1 : Memref sig .tc .vmem S1x128 .f32 := Memref.whole cc1_scratch1
/-- Views through which the rows' contents are stated (the choice does not matter: the stores cover them). -/
abbrev VS1_0 : View sig .tc .vmem S1x128 .f32 := scM1_0.view
abbrev VS1_1 : View sig .tc .vmem S1x128 .f32 := scM1_1.view
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view

/-- Every other scoped buffer of the core (the other launches' staging buffers and scratch), unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-! ## The body in each of its three cases: a subtype the run finds -/

set_option maxHeartbeats 1000000 in
/-- THE FIRST POINT (the rows zeroed, then the block's column sums added; nothing stored into the outputs): on whole
    memrefs — the inputs' at their blocks, the outputs' at contents handed back untouched, the scratch rows at
    anything — the body runs to the continuation with the scratch rows' stores written, as pieces the run finds. -/
noncomputable def kernelRun1_A (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i)
    (x0 : Vec F S2000x128 .f32) (x1 : Vec F S2000x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1
            ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1
    obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists fs0; iexact HS0
    iexists fs1; iexact HS1

set_option maxHeartbeats 1000000 in
/-- A MIDDLE POINT (the block's column sums added to the rows; nothing stored into the outputs): the scratch rows
    at what the point before left. -/
noncomputable def kernelRun1_B (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i)
    (x0 : Vec F S2000x128 .f32) (x1 : Vec F S2000x128 .f32) (xs0 : Vec F S1x128 .f32) (xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ owns (c : Thread nD τ) arg3 fullShare xi2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1
    obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; iexact HS0
    iexists _; iexact HS1

set_option maxHeartbeats 1000000 in
/-- THE LAST POINT (the block's column sums added, then the mean and the variance rows computed from the two sums
    and stored into the outputs): the outputs' memrefs at anything, each left with its store written. -/
noncomputable def kernelRun1_C (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i)
    (x0 : Vec F S2000x128 .f32) (x1 : Vec F S2000x128 .f32) (xs0 : Vec F S1x128 .f32) (xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists f2; iexact H2
    isplitl [H3]
    · iexists f3; iexact H3
    isplitl [HS0]
    · iexists _; iexact HS0
    iexists _; iexact HS1

/-! ## What each case leaves in the scratch rows and in the output rows

Each is the case's found pieces read back (over anything: they cover the row). -/

theorem scover1_A_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) (y : S1x128.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x128.size (by sl_kernel_rfl) y
def sout1_A_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).1)
theorem scover1_A_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) (y : S1x128.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x128.size (by sl_kernel_rfl) y
def sout1_A_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.1)
theorem scover1_B_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x128.size (by sl_kernel_rfl) y
def sout1_B_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).1)
theorem scover1_B_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x128.size (by sl_kernel_rfl) y
def sout1_B_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.1)
theorem cover1_C_2 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y
def out1_C_2 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)
theorem cover1_C_3 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y
def out1_C_3 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)
theorem scover1_C_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y
def sout1_C_0 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)
theorem scover1_C_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y
def sout1_C_1 (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

/-! ## What the rows hold after each point -/

/-- THE ACCUMULATION. After the body at position `n`: (the mean row's buffer, the variance row's buffer, the running
    sum of h, the running sum of h * h). The first point is the first case over the blocks there; a later point the
    middle case — at the last point the last case — over the blocks there and the two sums the point before left.
    Where the outputs are idle (every point but the last) their component is a placeholder nothing consults. -/
def outsAt1 (c : Dev nD) : (n : ℕ) → n < cfg1.N → Vec F S1x128 .f32 × Vec F S1x128 .f32 × Vec F S1x128 .f32 × Vec F S1x128 .f32
  | 0, hn => (View.canon ([] : List (View.Piece (Elt F) S1x128 .f32)), View.canon ([] : List (View.Piece (Elt F) S1x128 .f32)),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 49 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (View.canon ([] : List (View.Piece (Elt F) S1x128 .f32)), View.canon ([] : List (View.Piece (Elt F) S1x128 .f32)),
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 49) :
    outsAt1 V c t.val t.isLt = (View.canon ([] : List (View.Piece (Elt F) S1x128 .f32)), View.canon ([] : List (View.Piece (Elt F) S1x128 .f32)),
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 49) :
    outsAt1 V c t.val t.isLt = (View.canon ([] : List (View.Piece (Elt F) S1x128 .f32)), View.canon ([] : List (View.Piece (Elt F) S1x128 .f32)),
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 49) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-- The two running sums after `n + 1` points: what the interface of the region calls the accumulator. -/
abbrev acc1 (c : Dev nD) (n : ℕ) (hn : n < cfg1.N) : Vec F S1x128 .f32 × Vec F S1x128 .f32 :=
  ((outsAt1 V c n hn).2.2.1, (outsAt1 V c n hn).2.2.2)

/-- The region invariant before position `n`: before the first point what the launch hands over (the scratch rows at
    anything); afterwards the two rows at the running sums the point before left, the other scoped buffers unopened,
    the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

/-! ## The pipeline's proof data -/

/-- The proof data of the region on core `c`: the arrays as the region finds them (`V`); after the body at point
    `t` each input's buffer at its block, the outputs' at `outsAt1`'s components; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms of the two conditions say which of
    the three cases the point is in, so that case's run applies; the invariant hands the body the two scratch rows — at
    anything at the first point, at the running sums the point before left afterwards — and takes them back at this
    point's sums (the case's pieces cover the rows); an idle output row goes back as it came, a stored one at what
    its covering store left; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases h0 : t.val = 0
  · have h1 : ¬t.val = 49 := by omega
    have hc0 : cond1_0 (grid1.coords t) := (hcond1_0 t).mpr h0
    have hc1 : ¬cond1_1 (grid1.coords t) := fun h => h1 ((hcond1_1 t).mp h)
    rw [show (dat1 V c).leavesExact 0 t = owns (c : Thread nD τ) (ms1_0 t) fullShare ((dat1 V c).after 0 t) from by
        unfold Dat.leavesExact; rw [liveAt1_0 t], after1_0]
    rw [show (dat1 V c).leavesExact 1 t = owns (c : Thread nD τ) (ms1_1 t) fullShare ((dat1 V c).after 1 t) from by
        unfold Dat.leavesExact; rw [liveAt1_1 t], after1_1]
    rw [Dat.leavesExact_idle (dat1 V c) 2 t (idleAt1_2 t hc1) (noFlush1_2 t hc1)]
    rw [Dat.leavesExact_idle (dat1 V c) 3 t (idleAt1_3 t hc1) (noFlush1_3 t hc1)]
    rw [outsAt1_A V c t h0 h1]
    unfold sout1_A_0 sout1_A_1; (try dsimp only)
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, ⟨%d3, H3⟩⟩
    iapply ((kernelRun1_A c (grid1.coords t) _ _ _ _ _ _ _ _ _ _ _ _ hc0 hc1 (iblk1 V c 0 t) (iblk1 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ )
          · unfold owns; iexists _; isplitr
            swap; · iexact HS1
            ipureintro; exact View.read_writes_of_cover _ _ _ _ _ (scover1_A_1 c _ _ _ _ _ _ _ _ _ _ _ _ _ _ _ _ _ )
        iexact HR
      iexact Hg
    isplitl [Ho]; · iexact Ho
    isplitl [H0]; · iexact H0
    isplitl [H1]; · iexact H1
    isplitl [H2]; · iexists _; iexact H2
    iexists _; iexact H3
  · by_cases h1 : t.val = 49
    · have hc0 : ¬cond1_0 (grid1.coords t) := fun h => h0 ((hcond1_0 t).mp h)
      have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t hc1], after1_2]
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C_2 out1_C_3 sout1_C_0 sout1_C_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩⟩
      iapply ((kernelRun1_C c (grid1.coords t) _ _ _ _ _ _ _ _ _ _ _ _ hc0 hc1 (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ )
            · unfold owns; iexists _; isplitr
              swap; · iexact HS1
              ipureintro; exact View.read_writes_of_cover _ _ _ _ _ (scover1_C_1 c _ _ _ _ _ _ _ _ _ _ _ _ _ _ _ _ _ _ _ )
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _ )
      unfold owns; iexists _; isplitr
      swap; · iexact H3
      ipureintro; exact View.read_writes_of_cover _ _ _ _ _ (cover1_C_3 c _ _ _ _ _ _ _ _ _ _ _ _ _ _ _ _ _ _ _ )
    · have hc0 : ¬cond1_0 (grid1.coords t) := fun h => h0 ((hcond1_0 t).mp h)
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t hc1) (noFlush1_2 t hc1)]
      rw [Dat.leavesExact_idle (dat1 V c) 3 t (idleAt1_3 t hc1) (noFlush1_3 t hc1)]
      rw [outsAt1_B V c t h0 h1]
      unfold sout1_B_0 sout1_B_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩⟩
      iapply ((kernelRun1_B c (grid1.coords t) _ _ _ _ _ _ _ _ _ _ _ _ hc0 hc1 (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ )
            · unfold owns; iexists _; isplitr
              swap; · iexact HS1
              ipureintro; exact View.read_writes_of_cover _ _ _ _ _ (scover1_B_1 c _ _ _ _ _ _ _ _ _ _ _ _ _ _ _ _ _ _ _ )
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the running sums' values are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Fr

end
-- ==== Proof.KI.Reg2.lean ====
/- Region 2 (the feed-forward kernel with the second normalisation's statistics): the body's triple at the first, a middle
   and the last point of the grid, the sums carried between points, the proof data, the body obligation and the
   invariant's two ends — at any float model `F` and any entry contents `V`. -/
import proofs.«118182_j89309549953493_1_alg».proof.Proof.Gen.KernelIdeal.Launch
import proofs.«118182_j89309549953493_1_alg».proof.Proof.Gen.KernelIdeal.Skeleton
import proofs.«118182_j89309549953493_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A load of a whole buffer through the rectangle of its own extents at zero offsets reads its contents. -/
theorem readAt_unit_zero' {sig : RefSig} {κ : Kind} {sp : Space} {S : Shape} {e : EltTy} {Val : EltTy → Type} (v : View sig κ sp S e) {off : Fin S.rank → ℕ}
    (h : off = fun _ => 0) (inb : ∀ a, off a + S.size a ≤ S.size a) (f : v.ty.Contents Val) :
    v.readAt Val (Rect.unit off S.size inb).toLoadRect f = v.read Val f :=
  (View.readAt_eq_ld v f _).trans (View.ld_unit_zero h inb _)

theorem zeros2 : (![0, 0] : Fin 2 → ℕ) = fun _ => 0 := by funext a; fin_cases a <;> rfl

/-! ## The body's two conditionals, decided over the grid -/

/-- The first conditional's condition (the point is the grid's first), from the grid coordinates. -/
abbrev cond2_0 (i : grid2.Coords) : Prop := (Scalar.cmpi .ne (Scalar.extui (Scalar.cmpi .eq (BitVec.ofNat 32 (i 0).val) 0#32)) 0#32) = 1#1
/-- The second conditional's condition (the point is the grid's last). -/
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 49 :=
  (by decide +kernel : ∀ t : Fin grid2.N, cond2_1 (grid2.coords t) ↔ t.val = 49)

/-- Windows 0 to 10 are idle nowhere. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel
/-- Windows 11 and 12 are idle, and not written back, at every point but the last; live at the last. -/
theorem idleAt2_11 : ∀ t : Fin cfg2.N, t.val ≠ 49 → cfg2.idle 11 (grid2.coords t) = true := by decide +kernel
theorem noFlush2_11 : ∀ t : Fin cfg2.N, t.val ≠ 49 → (cfg2.win 11).flush t = false := by decide +kernel
theorem liveAt2_11 : ∀ t : Fin cfg2.N, t.val = 49 → cfg2.idle 11 (grid2.coords t) = false := by decide +kernel
theorem idleAt2_12 : ∀ t : Fin cfg2.N, t.val ≠ 49 → cfg2.idle 12 (grid2.coords t) = true := by decide +kernel
theorem noFlush2_12 : ∀ t : Fin cfg2.N, t.val ≠ 49 → (cfg2.win 12).flush t = false := by decide +kernel
theorem liveAt2_12 : ∀ t : Fin cfg2.N, t.val = 49 → cfg2.idle 12 (grid2.coords t) = false := by decide +kernel

/-! ## What the body computes, over the contents of its input windows

`x0`, `x1` are the two row blocks whose sum is normalised, `x2`, `x3` the mean and variance rows, `x4`, `x5` the scale and
shift rows, `x6`, `x7` the first layer's matrix and bias row, `x8`, `x9` the second layer's. -/

/-- The normalised, scaled and shifted block. -/
def h1blk (x0 : Vec F S2000x128 .f32) (x1 : Vec F S2000x128 .f32) (x2 : Vec F S1x128 .f32) (x3 : Vec F S1x128 .f32) (x4 : Vec F S1x128 .f32) (x5 : Vec F S1x128 .f32) : FVec F S2000x128 .f32 := k2_pay8 x0 x1 x3 x2 x4 x5
/-- The hidden layer's activations of that block. -/
def actblk (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) : FVec F S2000x256 .bf16 := k2_pay9 x0 x1 x3 x2 x4 x5 x6 x7
/-- The block stored into window 10: the normalised block plus the second layer's image of the activations. -/
def out2_10 (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) : Vec F S2000x128 .f32 := k2_pay1 (h1blk x0 x1 x2 x3 x4 x5) (actblk x0 x1 x2 x3 x4 x5 x6 x7) x8 x9
/-- The column sums of the stored blocks after a point, from the sums `s` before it. -/
def step2_0 (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) (s : Vec F S1x128 .f32) : Vec F S1x128 .f32 := k2_pay2 (h1blk x0 x1 x2 x3 x4 x5) (actblk x0 x1 x2 x3 x4 x5 x6 x7) x8 x9 s
/-- The column sums of their squares after a point, from the sums `s` before it. -/
def step2_1 (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32) (s : Vec F S1x128 .f32) : Vec F S1x128 .f32 := k2_pay3 (h1blk x0 x1 x2 x3 x4 x5) (actblk x0 x1 x2 x3 x4 x5 x6 x7) x8 x9 s
/-- The sums before the first point: zero rows. -/
def zero2_0 : Vec F S1x128 .f32 := k2_pay6 (F := F)
def zero2_1 : Vec F S1x128 .f32 := k2_pay7 (F := F)
/-- The mean row from the column sums, and the variance row from both sums. -/
def mean2 (s0 : Vec F S1x128 .f32) : Vec F S1x128 .f32 := k2_pay4 s0
def var2 (s0 s1 : Vec F S1x128 .f32) : Vec F S1x128 .f32 := k2_pay5 s0 s1

/-! ## The body's triple, case by case

On whole staging memrefs — the inputs' at their contents, window 10's at anything — the body runs to the continuation holding
the inputs' as they were and window 10's at the stored block. At the first point the two scratch rows are handed over at
anything and left at the first block's sums; at the other points they are handed over at the sums so far and left at the next
sums. Windows 11 and 12 are handed back untouched except at the last point, which stores the mean and variance rows. -/

set_option maxHeartbeats 4000000 in
theorem sound2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond2_0 i) (hc1 : ¬cond2_1 i)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32)
    (xi11 xi12 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9) ∗ owns (c : Thread nD τ) arg12 fullShare xi11 ∗ owns (c : Thread nD τ) arg13 fullShare xi12 ∗ owns (c : Thread nD τ) arg14 fullShare (step2_0 x0 x1 x2 x3 x4 x5 x6 x7 x8 x9 zero2_0) ∗ owns (c : Thread nD τ) arg15 fullShare (step2_1 x0 x1 x2 x3 x4 x5 x6 x7 x8 x9 zero2_1)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
  subst hf0 hf1 hf2 hf3 hf4 hf5 hf6 hf7 hf8 hf9 hf11 hf12
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    delta sound2_A.sl.r sound2_A.sl.r_1
    try delta sound2_A.sl.r sound2_A.sl.r_1
    rw [View.read_writes_eq_canon _ _ _ (fun y => ⟨_, List.Mem.head _, View.mem_set_unit_zero zeros2 inb_S2000x128_S2000x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [H11]
  · iexists f11; isplitr; · ipureintro; rfl
    iexact H11
  isplitl [H12]
  · iexists f12; isplitr; · ipureintro; rfl
    iexact H12
  isplitl [HS0]
  · iexists _; isplitr
    swap; · iexact HS0
    ipureintro
    delta sound2_A.sl.r sound2_A.sl.r_1 sound2_A.sl.v46 sound2_A.sl.HS0_1
    try delta sound2_A.sl.r sound2_A.sl.r_1 sound2_A.sl.v46 sound2_A.sl.HS0_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  · iexists _; isplitr
    swap; · iexact HS1
    ipureintro
    delta sound2_A.sl.r sound2_A.sl.r_1 sound2_A.sl.v53 sound2_A.sl.HS1_1
    try delta sound2_A.sl.r sound2_A.sl.r_1 sound2_A.sl.v53 sound2_A.sl.HS1_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl

set_option maxHeartbeats 4000000 in
theorem sound2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond2_0 i) (hc1 : ¬cond2_1 i)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32)
    (xi11 xi12 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ owns (c : Thread nD τ) arg12 fullShare xi11 ∗ owns (c : Thread nD τ) arg13 fullShare xi12 ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9) ∗ owns (c : Thread nD τ) arg12 fullShare xi11 ∗ owns (c : Thread nD τ) arg13 fullShare xi12 ∗ owns (c : Thread nD τ) arg14 fullShare (step2_0 x0 x1 x2 x3 x4 x5 x6 x7 x8 x9 xs0) ∗ owns (c : Thread nD τ) arg15 fullShare (step2_1 x0 x1 x2 x3 x4 x5 x6 x7 x8 x9 xs1)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
  subst hf0 hf1 hf2 hf3 hf4 hf5 hf6 hf7 hf8 hf9 hf11 hf12 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    delta sound2_B.sl.r sound2_B.sl.r_1
    try delta sound2_B.sl.r sound2_B.sl.r_1
    rw [View.read_writes_eq_canon _ _ _ (fun y => ⟨_, List.Mem.head _, View.mem_set_unit_zero zeros2 inb_S2000x128_S2000x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [H11]
  · iexists f11; isplitr; · ipureintro; rfl
    iexact H11
  isplitl [H12]
  · iexists f12; isplitr; · ipureintro; rfl
    iexact H12
  isplitl [HS0]
  · iexists _; isplitr
    swap; · iexact HS0
    ipureintro
    delta sound2_B.sl.r sound2_B.sl.r_1
    try delta sound2_B.sl.r sound2_B.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  · iexists _; isplitr
    swap; · iexact HS1
    ipureintro
    delta sound2_B.sl.r sound2_B.sl.r_1
    try delta sound2_B.sl.r sound2_B.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl

set_option maxHeartbeats 4000000 in
theorem sound2_C (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S2000x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond2_0 i) (hc1 : cond2_1 i)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x256 .f32) (x7 : Vec F S1x256 .f32) (x8 : Vec F S256x128 .f32) (x9 : Vec F S1x128 .f32)
    (xi11 xi12 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (∃ d, owns (c : Thread nD τ) arg12 fullShare d) ∗ (∃ d, owns (c : Thread nD τ) arg13 fullShare d) ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9) ∗ owns (c : Thread nD τ) arg12 fullShare (mean2 (step2_0 x0 x1 x2 x3 x4 x5 x6 x7 x8 x9 xs0)) ∗ owns (c : Thread nD τ) arg13 fullShare (var2 (step2_0 x0 x1 x2 x3 x4 x5 x6 x7 x8 x9 xs0) (step2_1 x0 x1 x2 x3 x4 x5 x6 x7 x8 x9 xs1)) ∗ owns (c : Thread nD τ) arg14 fullShare (step2_0 x0 x1 x2 x3 x4 x5 x6 x7 x8 x9 xs0) ∗ owns (c : Thread nD τ) arg15 fullShare (step2_1 x0 x1 x2 x3 x4 x5 x6 x7 x8 x9 xs1)) -∗ K ⟨⟩))
      ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
  subst hf0 hf1 hf2 hf3 hf4 hf5 hf6 hf7 hf8 hf9 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    delta sound2_C.sl.r sound2_C.sl.r_1
    try delta sound2_C.sl.r sound2_C.sl.r_1
    rw [View.read_writes_eq_canon _ _ _ (fun y => ⟨_, List.Mem.head _, View.mem_set_unit_zero zeros2 inb_S2000x128_S2000x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [H11]
  · iexists _; isplitr
    swap; · iexact H11
    ipureintro
    delta sound2_C.sl.v64 sound2_C.sl.HS0_1 sound2_C.sl.r sound2_C.sl.r_1
    try delta sound2_C.sl.v64 sound2_C.sl.HS0_1 sound2_C.sl.r sound2_C.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [H12]
  · iexists _; isplitr
    swap; · iexact H12
    ipureintro
    delta sound2_C.sl.v64 sound2_C.sl.v67 sound2_C.sl.HS0_1 sound2_C.sl.HS1_1 sound2_C.sl.r sound2_C.sl.r_1
    try delta sound2_C.sl.v64 sound2_C.sl.v67 sound2_C.sl.HS0_1 sound2_C.sl.HS1_1 sound2_C.sl.r sound2_C.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  isplitl [HS0]
  · iexists _; isplitr
    swap; · iexact HS0
    ipureintro
    delta sound2_C.sl.HS0_1 sound2_C.sl.r sound2_C.sl.r_1
    try delta sound2_C.sl.HS0_1 sound2_C.sl.r sound2_C.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl
  · iexists _; isplitr
    swap; · iexact HS1
    ipureintro
    delta sound2_C.sl.HS1_1 sound2_C.sl.r sound2_C.sl.r_1
    try delta sound2_C.sl.HS1_1 sound2_C.sl.r sound2_C.sl.r_1
    rw [View.read_writes_eq_canon _ _ _ (fun y => ⟨_, List.Mem.head _, View.mem_set_unit_zero zeros2 inb_S1x128_S1x128_0_0 y⟩), View.canon_cons_unit_zero zeros2]
    simp only [readAt_unit_zero' (S := S2000x128) _ zeros2, readAt_unit_zero' (S := S1x128) _ zeros2, readAt_unit_zero' (S := S128x256) _ zeros2, readAt_unit_zero' (S := S1x256) _ zeros2, readAt_unit_zero' (S := S256x128) _ zeros2, View.readCov_unit_zero (S := S1x128) _ zeros2]
    try rfl

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The sums carried between points -/

/-- The column sums and sums of squares of the stored blocks after the body at position `n`: from zero rows at the first
    point, from what the point before left afterwards. -/
def acc2 (c : Dev nD) : (n : ℕ) → n < cfg2.N → Vec F S1x128 .f32 × Vec F S1x128 .f32
  | 0, hn => (step2_0 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) zero2_0, step2_1 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) zero2_1)
  | n + 1, hn => (step2_0 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (acc2 c n (Nat.lt_of_succ_lt hn)).1, step2_1 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (acc2 c n (Nat.lt_of_succ_lt hn)).2)

theorem acc2_first (c : Dev nD) (t : Fin cfg2.N) (h : t.val = 0) :
    acc2 V c t.val t.isLt = (step2_0 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) zero2_0, step2_1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) zero2_1) := by
  obtain ⟨n, hn⟩ := t
  cases n with
  | zero => rfl
  | succ n => exact absurd h (Nat.succ_ne_zero n)

theorem acc2_next (c : Dev nD) (t : Fin cfg2.N) (h : t.val ≠ 0) :
    acc2 V c t.val t.isLt = (step2_0 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) (Nat.lt_of_le_of_lt (Nat.sub_le _ _) t.isLt)).1, step2_1 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (acc2 V c (t.val - 1) (Nat.lt_of_le_of_lt (Nat.sub_le _ _) t.isLt)).2) := by
  obtain ⟨n, hn⟩ := t
  cases n with
  | zero => exact absurd rfl h
  | succ n => rfl

/-! ## The region invariant -/

abbrev scM2_0 : Memref sig .tc .vmem S1x128 .f32 := Memref.whole cc2_scratch0
abbrev scM2_1 : Memref sig .tc .vmem S1x128 .f32 := Memref.whole cc2_scratch1

/-- The scoped buffers that are neither a staging buffer of this call nor one of its two scratch rows. -/
abbrev restB2 (c : Dev nD) : sProp 𝕄 :=
  Pipeline.scopedRestBut (Ix := Unit) (Name := ℕ) (U := UR sig nD τ) (Lvl := ℕ) (Val := Elt F) spec2 c [cc2_scratch0, cc2_scratch1]

theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ restB2 (F := F) c) :=
  Pipeline.scopedRest_split_of_list spec2 c [cc2_scratch0, cc2_scratch1] (by decide) (by decide)

/-- The class invariant with the two scratch rows as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restB2 (F := F) c) ∗ (∃ r, prngReg c r)) := by
  unfold Pipeline.ΦA; rw [scopedRest2_split]; simp only [scM2_0, scM2_1, owns_whole]; try rfl

/-- The invariant before position `n`: before the first point every scoped buffer at anything; afterwards the two scratch
    rows at the sums the point before left, the rest at anything. -/
def PhiS (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ restB2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM2_0 fullShare (acc2 V c n hn).1 ∗ owns (c : Thread nD τ) scM2_1 fullShare (acc2 V c n hn).2) ∗ restB2 (F := F) c) ∗ (∃ r, prngReg c r)) := rfl

theorem PhiS_pos (c : Dev nD) (n : ℕ) (h : n ≤ cfg2.N) (hz : n ≠ 0) :
    PhiS V c n h = iprop(iprop(iprop(owns (c : Thread nD τ) scM2_0 fullShare (acc2 V c (n - 1) (by omega)).1 ∗ owns (c : Thread nD τ) scM2_1 fullShare (acc2 V c (n - 1) (by omega)).2) ∗ restB2 (F := F) c) ∗ (∃ r, prngReg c r)) := by
  cases n with
  | zero => exact absurd rfl hz
  | succ n => rfl

/-! ## The pipeline's proof data -/

/-- The proof data of pipeline 2 on core `c`: the arrays as the region finds them; after the body at point `t` each input's
    buffer at its block, window 10's at the stored block, windows 11 and 12 at the mean and variance rows of the sums so
    far (what the last point stores; at the other points the windows are idle and this is not consulted). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    | ⟨11, _⟩ => mean2 (acc2 V c t.val t.isLt).1
    | ⟨12, _⟩ => var2 (acc2 V c t.val t.isLt).1 (acc2 V c t.val t.isLt).2
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
theorem after2_11 (c : Dev nD) (t : Fin cfg2.N) : (dat2 V c).after 11 t = mean2 (acc2 V c t.val t.isLt).1 := by dsimp only [dat2]
theorem after2_12 (c : Dev nD) (t : Fin cfg2.N) : (dat2 V c).after 12 t = var2 (acc2 V c t.val t.isLt).1 (acc2 V c t.val t.isLt).2 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 4800000 in
/-- The body at any point: the inputs' memrefs hold their blocks; the closed forms say whether the point is the first, a
    middle one or the last; the invariant hands the body the two scratch rows at the sums the point before left (at
    anything at the first point) and takes them back at this point's sums; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).owesAt () t.succ = (dat2 V c).owesAt () t.castSucc from rfl]
  rw [show (dat2 V c).Φ t.succ = PhiS V c (t.val + 1) t.isLt from rfl, PhiS_succ]
  have hN : t.val < 50 := lt_of_lt_of_eq t.isLt (show cfg2.N = 50 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  rw [show (dat2 V c).leavesExact 9 t = owns (c : Thread nD τ) (st2_9 t) fullShare ((dat2 V c).after 9 t) from by
    unfold Dat.leavesExact; rw [liveAt2_9 t], after2_9]
  rw [show (dat2 V c).leavesExact 10 t = owns (c : Thread nD τ) (st2_10 t) fullShare ((dat2 V c).after 10 t) from by
    unfold Dat.leavesExact; rw [liveAt2_10 t], after2_10]
  by_cases hz : t.val = 0
  · have hl : t.val ≠ 49 := by omega
    rw [Dat.leavesExact_idle (dat2 V c) 11 t (idleAt2_11 t hl) (noFlush2_11 t hl), Dat.leavesExact_idle (dat2 V c) 12 t (idleAt2_12 t hl) (noFlush2_12 t hl)]
    rw [acc2_first V c t hz]; dsimp only
    rw [PhiS_castSucc V c t, PhiS_zero V c _ _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (sound2_A c (grid2.coords t) _ _ _ _ _ _ _ _ _ _ _ _ _ _ _ _ _ _ _ _ _ _ _ _ _ _ _ _ _ _ ((hcond2_0 t).mpr hz) (fun h => hl ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 11 t d11) ((dat2 V c).before 12 t d12) zero2_0 zero2_1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexists _; iexact H12
  · by_cases hl : t.val = 49
    · rw [show (dat2 V c).leavesExact 11 t = owns (c : Thread nD τ) (st2_11 t) fullShare ((dat2 V c).after 11 t) from by
        unfold Dat.leavesExact; rw [liveAt2_11 t hl], after2_11]
      rw [show (dat2 V c).leavesExact 12 t = owns (c : Thread nD τ) (st2_12 t) fullShare ((dat2 V c).after 12 t) from by
        unfold Dat.leavesExact; rw [liveAt2_12 t hl], after2_12]
      rw [acc2_next V c t hz]; dsimp only
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound2_C c (grid2.coords t) _ _ _ _ _ _ _ _ _ _ _ _ _ _ _ _ _ _ _ _ _ _ _ _ _ _ _ _ _ _ (fun h => hz ((hcond2_0 t).mp h)) ((hcond2_1 t).mpr hl) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 11 t d11) ((dat2 V c).before 12 t d12) (acc2 V c (t.val - 1) (Nat.lt_of_le_of_lt (Nat.sub_le _ _) t.isLt)).1 (acc2 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      iintro ⟨H0, H1, H2, H3, H4, H5, H6, H7, H8, H9, H10, H11, H12, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Dat.leavesExact_idle (dat2 V c) 11 t (idleAt2_11 t hl) (noFlush2_11 t hl), Dat.leavesExact_idle (dat2 V c) 12 t (idleAt2_12 t hl) (noFlush2_12 t hl)]
      rw [acc2_next V c t hz]; dsimp only
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (sound2_B c (grid2.coords t) _ _ _ _ _ _ _ _ _ _ _ _ _ _ _ _ _ _ _ _ _ _ _ _ _ _ _ _ _ _ (fun h => hz ((hcond2_0 t).mp h)) (fun h => hl ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) ((dat2 V c).before 11 t d11) ((dat2 V c).before 12 t d12) (acc2 V c (t.val - 1) (Nat.lt_of_le_of_lt (Nat.sub_le _ _) t.isLt)).1 (acc2 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the class invariant back: the sums' names are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Region

end Cert.KernelIdeal.Fr
end
-- ==== Proof.KI.Reg3.lean ====
/- Region 3 of @main, the normalisation `cc3__bn2_kernel` on a grid of 50 row blocks: the proof data of its pipeline at an arbitrary entry contents `V`, and the body obligation. Window 0 is the block of 2000 rows of the input, windows 1 to 4 the four rows [1,128] (mean, variance, scale, shift; their block index never moves), window 5 the block of 2000 rows of the result, stored whole at every point. -/
import proofs.«118182_j89309549953493_1_alg».proof.Proof.Gen.KernelIdeal.Launch
import proofs.«118182_j89309549953493_1_alg».proof.Proof.Gen.KernelIdeal.Skeleton
import proofs.«118182_j89309549953493_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axis
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input windows 1 to 4 (one row each; fetched at the first point only, the block index constant) likewise: where
    a window is not fetched its index has not moved, and the block kept is the block there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000×128 block, and the whole row [1,128]. -/
abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the output window's buffer -/

/-- Window 5's staging buffer after the body, from the input windows' blocks: its one store, of the input block
    `x0` normalised by the mean `x1` and the variance `x2`, scaled by `x3` and shifted by `x4`. -/
def out3_5 (x0 : Vec F S2000x128 .f32) (x1 x2 x3 x4 : Vec F S1x128 .f32) : Vec F S2000x128 .f32 :=
  View.canon [⟨r3_0, k3_pay1 (View.ld x2 r3_1) (View.ld x0 r3_0) (View.ld x1 r3_1) (View.ld x3 r3_1) (View.ld x4 r3_1)⟩]

/-- The store's rectangle is the whole buffer, so it covers it. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at read contents `x0 … x4` and the output's at anything,
    runs to the continuation holding the inputs' as they were and the output's at `out3_5 x0 x1 x2 x3 x4`. -/
theorem sound_kernel3 (c : Dev nD) (E : Set ℕ) (i : grid3.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn2_kernel i arg1 harg1 arg2 harg2 arg3 harg3 arg4 harg4 arg5 harg5 arg6 harg6) K := by
  simp only [cc3__bn2_kernel_eq_skeleton]; unfold cc3__bn2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 (F := F) _)

/-! ## The pipeline's proof data -/

/-- The proof data of pipeline 3 on core `c`: the arrays as the region finds them (`V`); after the body at point `t`
    each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the ends -/

/-- The region's invariant is the class's at every point, so it is entered and left by reflexivity. -/
theorem hin3 (c : Dev nD) : Pipeline.ΦA spec3 c ⊢ (dat3 V c).Φ 0 := by
  rw [show (dat3 V c).Φ 0 = Pipeline.ΦA spec3 c from rfl]

theorem hout3 (c : Dev nD) : (dat3 V c).Φ (Fin.last cfg3.N) ⊢ Pipeline.ΦA spec3 c := by
  rw [show (dat3 V c).Φ (Fin.last cfg3.N) = Pipeline.ΦA spec3 c from rfl]

end Cert.KernelIdeal.Fr

end
-- ==== Proof.KI.Run.lean ====
import proofs.«118182_j89309549953493_1_alg».proof.Proof.KI.Reg0
import proofs.«118182_j89309549953493_1_alg».proof.Proof.KI.Reg1
import proofs.«118182_j89309549953493_1_alg».proof.Proof.KI.Reg2
import proofs.«118182_j89309549953493_1_alg».proof.Proof.KI.Reg3
import proofs.«118182_j89309549953493_1_alg».proof.Proof.Gen.KernelIdeal.Launch
import proofs.«118182_j89309549953493_1_alg».proof.Proof.Gen.KernelIdeal.Skeleton
import proofs.«118182_j89309549953493_1_alg».proof.Proof.Gen.KernelIdeal.Points
import proofs.«118182_j89309549953493_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The kernel's program as ten segments, and its run

@main is three stretches of host operations, then four kernel regions with a stretch of host operations before each of the
last three. Each region is entered with every unscoped buffer of the core at known contents, runs its pipeline over the
grid of 50 row blocks under its own proof data (modules `Reg0` … `Reg3`), and leaves its output windows' arrays at what
the write-backs folded; every other buffer is as the region found it. Chaining the segments gives the run: every weakly
fair execution terminates, and the final memory holds every unscoped buffer at the last boundary's contents — in
particular the arguments as launched, and the result at what region 3's write-backs leave.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the first stretch of host operations (the degree and its inverse square root), -/
abbrev W1 : Dev nD → Valuation τ sig (Elt F) := fun c => StableHlo.after hostOps0 (W0 m ρ c)
/-- after the select that zeroes the isolated nodes, -/
abbrev W2 : Dev nD → Valuation τ sig (Elt F) := fun c => StableHlo.after hostOps0_1 (W1 m ρ c)
/-- after the per-edge normalisation: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its windows' arrays at what the write-backs leave, every other buffer as the region found it. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the aggregation over the edges and the bias: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its windows' arrays at what the write-backs leave, every other buffer as the region found it. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the reshapes of the first normalisation's and the feed-forward's parameters: region 2's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its windows' arrays at what the write-backs leave, every other buffer as the region found it. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the reshapes of the second normalisation's parameters: region 3's entry. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- At region 3's exit: its windows' arrays at what the write-backs leave, every other buffer as the region found it. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- Region 0 changes no buffer but its output windows' arrays: an input window's array is read and left as found, every
    other buffer bypasses the region. -/
theorem W4_keep (c : Dev nD) (b : Ref sig .tc) (hb : ∀ w : Fin cfg0.W, (cfg0.win w).isOut = true → Pipeline.arrRef spec0 w ≠ b) :
    W4 m ρ c (Proc.devRef .tc b) = W3 m ρ c (Proc.devRef .tc b) := by
  by_cases h : ∀ w, Pipeline.arrRef spec0 w ≠ b
  · exact W4_of_ne m ρ c b h
  · obtain ⟨w, hw⟩ := not_forall.mp h
    have hw' : Pipeline.arrRef spec0 w = b := not_not.mp hw
    subst hw'
    have hin : (cfg0.win w).isOut = false := by
      cases ho : (cfg0.win w).isOut with
      | false => rfl
      | true => exact absurd rfl (hb w ho)
    exact (W4_arr m ρ c w).trans (((dat0 (V3 m ρ) c).arrAt_in w hin _).trans (A_eq0 (V3 m ρ) c w))

/-- Region 1 changes no buffer but its output windows' arrays: an input window's array is read and left as found, every
    other buffer bypasses the region. -/
theorem W6_keep (c : Dev nD) (b : Ref sig .tc) (hb : ∀ w : Fin cfg1.W, (cfg1.win w).isOut = true → Pipeline.arrRef spec1 w ≠ b) :
    W6 m ρ c (Proc.devRef .tc b) = W5 m ρ c (Proc.devRef .tc b) := by
  by_cases h : ∀ w, Pipeline.arrRef spec1 w ≠ b
  · exact W6_of_ne m ρ c b h
  · obtain ⟨w, hw⟩ := not_forall.mp h
    have hw' : Pipeline.arrRef spec1 w = b := not_not.mp hw
    subst hw'
    have hin : (cfg1.win w).isOut = false := by
      cases ho : (cfg1.win w).isOut with
      | false => rfl
      | true => exact absurd rfl (hb w ho)
    exact (W6_arr m ρ c w).trans (((dat1 (V5 m ρ) c).arrAt_in w hin _).trans (A_eq1 (V5 m ρ) c w))

/-- Region 2 changes no buffer but its output windows' arrays: an input window's array is read and left as found, every
    other buffer bypasses the region. -/
theorem W8_keep (c : Dev nD) (b : Ref sig .tc) (hb : ∀ w : Fin cfg2.W, (cfg2.win w).isOut = true → Pipeline.arrRef spec2 w ≠ b) :
    W8 m ρ c (Proc.devRef .tc b) = W7 m ρ c (Proc.devRef .tc b) := by
  by_cases h : ∀ w, Pipeline.arrRef spec2 w ≠ b
  · exact W8_of_ne m ρ c b h
  · obtain ⟨w, hw⟩ := not_forall.mp h
    have hw' : Pipeline.arrRef spec2 w = b := not_not.mp hw
    subst hw'
    have hin : (cfg2.win w).isOut = false := by
      cases ho : (cfg2.win w).isOut with
      | false => rfl
      | true => exact absurd rfl (hb w ho)
    exact (W8_arr m ρ c w).trans (((dat2 (V7 m ρ) c).arrAt_in w hin _).trans (A_eq2 (V7 m ρ) c w))

/-- Region 3 changes no buffer but its output windows' arrays: an input window's array is read and left as found, every
    other buffer bypasses the region. -/
theorem W10_keep (c : Dev nD) (b : Ref sig .tc) (hb : ∀ w : Fin cfg3.W, (cfg3.win w).isOut = true → Pipeline.arrRef spec3 w ≠ b) :
    W10 m ρ c (Proc.devRef .tc b) = W9 m ρ c (Proc.devRef .tc b) := by
  by_cases h : ∀ w, Pipeline.arrRef spec3 w ≠ b
  · exact W10_of_ne m ρ c b h
  · obtain ⟨w, hw⟩ := not_forall.mp h
    have hw' : Pipeline.arrRef spec3 w = b := not_not.mp hw
    subst hw'
    have hin : (cfg3.win w).isOut = false := by
      cases ho : (cfg3.win w).isOut with
      | false => rfl
      | true => exact absurd rfl (hb w ho)
    exact (W10_arr m ρ c w).trans (((dat3 (V9 m ρ) c).arrAt_in w hin _).trans (A_eq3 (V9 m ρ) c w))

/-! ### A buffer nothing has written yet holds its launch contents

Boundary by boundary: a buffer that no stretch of host operations so far writes and that is no output array of a region so
far holds what the launch put there. -/

theorem W3_of (c : Dev nD) (b : Ref sig .tc) (h0 : b ∉ hostOps0_W) (h01 : b ∉ hostOps0_1_W) (h02 : b ∉ hostOps0_2_W) :
    W3 m ρ c (Proc.devRef .tc b) = m ((c : Thread nD τ).loc b) :=
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0).trans rfl
theorem W4_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b) :
    W4 m ρ c (Proc.devRef .tc b) = m ((c : Thread nD τ).loc b) :=
  (W4_keep m ρ c b o0).trans (W3_of m ρ c b h0 h01 h02)
theorem W5_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) : W5 m ρ c (Proc.devRef .tc b) = m ((c : Thread nD τ).loc b) :=
  (StableHlo.after_of_writes_sub hostOps1 _ hostOps1_writes h1).trans (W4_of m ρ c b h0 h01 h02 o0)
theorem W6_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) (o1 : ∀ w : Fin cfg1.W, (cfg1.win w).isOut = true → Pipeline.arrRef spec1 w ≠ b) : W6 m ρ c (Proc.devRef .tc b) = m ((c : Thread nD τ).loc b) :=
  (W6_keep m ρ c b o1).trans (W5_of m ρ c b h0 h01 h02 o0 h1)
theorem W7_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) (o1 : ∀ w : Fin cfg1.W, (cfg1.win w).isOut = true → Pipeline.arrRef spec1 w ≠ b) (h2 : b ∉ hostOps2_W) : W7 m ρ c (Proc.devRef .tc b) = m ((c : Thread nD τ).loc b) :=
  (StableHlo.after_of_writes_sub hostOps2 _ hostOps2_writes h2).trans (W6_of m ρ c b h0 h01 h02 o0 h1 o1)
theorem W8_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) (o1 : ∀ w : Fin cfg1.W, (cfg1.win w).isOut = true → Pipeline.arrRef spec1 w ≠ b) (h2 : b ∉ hostOps2_W) (o2 : ∀ w : Fin cfg2.W, (cfg2.win w).isOut = true → Pipeline.arrRef spec2 w ≠ b) : W8 m ρ c (Proc.devRef .tc b) = m ((c : Thread nD τ).loc b) :=
  (W8_keep m ρ c b o2).trans (W7_of m ρ c b h0 h01 h02 o0 h1 o1 h2)
theorem W9_of (c : Dev nD) (b : Ref sig .tc) (h0 : b ∉ hostOps0_W) (h01 : b ∉ hostOps0_1_W) (h02 : b ∉ hostOps0_2_W) (o0 : ∀ w : Fin cfg0.W, (cfg0.win w).isOut = true → Pipeline.arrRef spec0 w ≠ b)
    (h1 : b ∉ hostOps1_W) (o1 : ∀ w : Fin cfg1.W, (cfg1.win w).isOut = true → Pipeline.arrRef spec1 w ≠ b) (h2 : b ∉ hostOps2_W) (o2 : ∀ w : Fin cfg2.W, (cfg2.win w).isOut = true → Pipeline.arrRef spec2 w ≠ b) (h3 : b ∉ hostOps3_W) :
    W9 m ρ c (Proc.devRef .tc b) = m ((c : Thread nD τ).loc b) :=
  (StableHlo.after_of_writes_sub hostOps3 _ hostOps3_writes h3).trans (W8_of m ρ c b h0 h01 h02 o0 h1 o1 h2 o2)
/-- A buffer that no stretch of host operations writes and that is no region's output array ends as launched. -/
theorem W10_of (c : Dev nD) (b : Ref sig .tc)
    (h0 : b ∉ hostOps0_W) (h01 : b ∉ hostOps0_1_W) (h02 : b ∉ hostOps0_2_W) (h1 : b ∉ hostOps1_W) (h2 : b ∉ hostOps2_W) (h3 : b ∉ hostOps3_W)
    (o0 : ∀ w : Fin cfg0.W, (cfg0.win w).isOut = true → Pipeline.arrRef spec0 w ≠ b)
    (o1 : ∀ w : Fin cfg1.W, (cfg1.win w).isOut = true → Pipeline.arrRef spec1 w ≠ b)
    (o2 : ∀ w : Fin cfg2.W, (cfg2.win w).isOut = true → Pipeline.arrRef spec2 w ≠ b)
    (o3 : ∀ w : Fin cfg3.W, (cfg3.win w).isOut = true → Pipeline.arrRef spec3 w ≠ b) :
    W10 m ρ c (Proc.devRef .tc b) = m ((c : Thread nD τ).loc b) :=
  (W10_keep m ρ c b o3).trans (W9_of m ρ c b h0 h01 h02 o0 h1 o1 h2 o2 h3)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps0_1_fresh' : (hostOps0_1 : List (HloOp τ sig (Elt F))).Forall fun op => op.fresh = ∅ := by
  simp only [List.Forall]; repeat' constructor
theorem hostOps0_2_fresh' : (hostOps0_2 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-- What the launch hands region 0 beside its windows makes the class's invariant (the scoped buffers no window stages,
    each whole at some contents, and the generator register), and the invariant gives the same back. -/
theorem toΦA0 (c : Dev nD) :
    iprop((∃ r, prngReg c r) ∗ Pipeline.prefHeld (pcfgs (F := F) 0).pre c (fun _ => fullShare) (adm (F := F) 0).1 ∗ Pipeline.scopedRest spec0 c)
      ⊢ (Pipeline.ΦA spec0 c : sProp 𝕄) := by
  unfold Pipeline.ΦA
  iintro ⟨Hp, -, Hr⟩
  isplitl [Hr]; · iexact Hr
  iexact Hp
theorem ofΦA0 (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

/-- What the launch hands region 1 beside its windows makes the class's invariant (the scoped buffers no window stages,
    each whole at some contents, and the generator register), and the invariant gives the same back. -/
theorem toΦA1 (c : Dev nD) :
    iprop((∃ r, prngReg c r) ∗ Pipeline.prefHeld (pcfgs (F := F) 1).pre c (fun _ => fullShare) (adm (F := F) 1).1 ∗ Pipeline.scopedRest spec1 c)
      ⊢ (Pipeline.ΦA spec1 c : sProp 𝕄) := by
  unfold Pipeline.ΦA
  iintro ⟨Hp, -, Hr⟩
  isplitl [Hr]; · iexact Hr
  iexact Hp
theorem ofΦA1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-- What the launch hands region 2 beside its windows makes the class's invariant (the scoped buffers no window stages,
    each whole at some contents, and the generator register), and the invariant gives the same back. -/
theorem toΦA2 (c : Dev nD) :
    iprop((∃ r, prngReg c r) ∗ Pipeline.prefHeld (pcfgs (F := F) 2).pre c (fun _ => fullShare) (adm (F := F) 2).1 ∗ Pipeline.scopedRest spec2 c)
      ⊢ (Pipeline.ΦA spec2 c : sProp 𝕄) := by
  unfold Pipeline.ΦA
  iintro ⟨Hp, -, Hr⟩
  isplitl [Hr]; · iexact Hr
  iexact Hp
theorem ofΦA2 (c : Dev nD) :
    (Pipeline.ΦA spec2 c : sProp 𝕄) ⊢ iprop((∃ r, prngReg c r) ∗ BI.emp ∗ Pipeline.scopedRest spec2 c) := by
  unfold Pipeline.ΦA
  iintro ⟨Hr, Hp⟩
  isplitl [Hp]; · iexact Hp
  isplitr; · iempintro
  iexact Hr

/-- What the launch hands region 3 beside its windows makes the class's invariant (the scoped buffers no window stages,
    each whole at some contents, and the generator register), and the invariant gives the same back. -/
theorem toΦA3 (c : Dev nD) :
    iprop((∃ r, prngReg c r) ∗ Pipeline.prefHeld (pcfgs (F := F) 3).pre c (fun _ => fullShare) (adm (F := F) 3).1 ∗ Pipeline.scopedRest spec3 c)
      ⊢ (Pipeline.ΦA spec3 c : sProp 𝕄) := by
  unfold Pipeline.ΦA
  iintro ⟨Hp, -, Hr⟩
  isplitl [Hr]; · iexact Hr
  iexact Hp
theorem ofΦA3 (c : Dev nD) :
    (Pipeline.ΦA spec3 c : sProp 𝕄) ⊢ iprop((∃ r, prngReg c r) ∗ BI.emp ∗ Pipeline.scopedRest spec3 c) := by
  unfold Pipeline.ΦA
  iintro ⟨Hr, Hp⟩
  isplitl [Hp]; · iexact Hp
  isplitr; · iempintro
  iexact Hr

/-! ## The regions as segments -/

set_option backward.isDefEq.respectTransparency.types false in
/-- Region 0 as a segment: entered with every unscoped buffer at `W3`, left with them at `W4`. The windows' arrays
    are split out of the unscoped buffers on entry and joined back, at what the write-backs leave, on exit; the generator
    register goes into the kernel's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA0 c).trans (hin0 (V3 m ρ) c)
  hout c := by
    rw [Pipeline.ownSems0_none]
    exact (hout0 (V3 m ρ) c).trans (ofΦA0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. The windows' arrays
    are split out of the unscoped buffers on entry and joined back, at what the write-backs leave, on exit; the generator
    register goes into the kernel's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA1 c).trans (hin1 (V5 m ρ) c)
  hout c := by
    rw [Pipeline.ownSems0_none]
    exact (hout1 (V5 m ρ) c).trans (ofΦA1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. The windows' arrays
    are split out of the unscoped buffers on entry and joined back, at what the write-backs leave, on exit; the generator
    register goes into the kernel's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA2 c).trans (hin2 (V7 m ρ) c)
  hout c := by
    rw [Pipeline.ownSems0_none]
    exact (hout2 (V7 m ρ) c).trans (ofΦA2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W9`, left with them at `W10`. The windows' arrays
    are split out of the unscoped buffers on entry and joined back, at what the write-backs leave, on exit; the generator
    register goes into the kernel's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA3 c).trans (hin3 (V9 m ρ) c)
  hout c := by
    rw [Pipeline.ownSems0_none]
    exact (hout3 (V9 m ρ) c).trans (ofΦA3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order. -/
abbrev segs : List (Pipeline.Seg (pcfgs (F := F)) adm (pdats m ρ) () defs₀ 𝒱₀ L lv) :=
  [ .host (hseg hostOps0 hostOps0_sub hostOps0_fresh' (W0 m ρ)),
    .host (hseg hostOps0_1 hostOps0_1_sub hostOps0_1_fresh' (W1 m ρ)),
    .host (hseg hostOps0_2 hostOps0_2_sub hostOps0_2_fresh' (W2 m ρ)),
    .region (reg0 m ρ),
    .host (hseg hostOps1 hostOps1_sub hostOps1_fresh' (W4 m ρ)),
    .region (reg1 m ρ),
    .host (hseg hostOps2 hostOps2_sub hostOps2_fresh' (W6 m ρ)),
    .region (reg2 m ρ),
    .host (hseg hostOps3 hostOps3_sub hostOps3_fresh' (W8 m ρ)),
    .region (reg3 m ρ) ]

set_option backward.isDefEq.respectTransparency.types false in
/-- THE RUN: from any memory with zero counters every weakly fair execution of @main terminates, nothing faulting, and
    every final memory holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W10 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- THE FRAME: every weakly fair execution of @main terminates, nothing faulting, and leaves every argument array as launched
    — no stretch of host operations writes an argument and no region has one as an output. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W10_of m ρ c main_arg0 (by decide) (by decide) (by decide) (by decide) (by decide) (by decide) (by decide) (by decide) (by decide) (by decide)),
    (h c _ (mem_uc main_arg1 (by decide))).trans (W10_of m ρ c main_arg1 (by decide) (by decide) (by decide) (by decide) (by decide) (by decide) (by decide) (by decide) (by decide) (by decide)),
    (h c _ (mem_uc main_arg2 (by decide))).trans (W10_of m ρ c main_arg2 (by decide) (by decide) (by decide) (by decide) (by decide) (by decide) (by decide) (by decide) (by decide) (by decide)),
    (h c _ (mem_uc main_arg3 (by decide))).trans (W10_of m ρ c main_arg3 (by decide) (by decide) (by decide) (by decide) (by decide) (by decide) (by decide) (by decide) (by decide) (by decide)),
    (h c _ (mem_uc main_arg4 (by decide))).trans (W10_of m ρ c main_arg4 (by decide) (by decide) (by decide) (by decide) (by decide) (by decide) (by decide) (by decide) (by decide) (by decide)),
    (h c _ (mem_uc main_arg5 (by decide))).trans (W10_of m ρ c main_arg5 (by decide) (by decide) (by decide) (by decide) (by decide) (by decide) (by decide) (by decide) (by decide) (by decide)),
    (h c _ (mem_uc main_arg6 (by decide))).trans (W10_of m ρ c main_arg6 (by decide) (by decide) (by decide) (by decide) (by decide) (by decide) (by decide) (by decide) (by decide) (by decide)),
    (h c _ (mem_uc main_arg7 (by decide))).trans (W10_of m ρ c main_arg7 (by decide) (by decide) (by decide) (by decide) (by decide) (by decide) (by decide) (by decide) (by decide) (by decide)),
    (h c _ (mem_uc main_arg8 (by decide))).trans (W10_of m ρ c main_arg8 (by decide) (by decide) (by decide) (by decide) (by decide) (by decide) (by decide) (by decide) (by decide) (by decide)),
    (h c _ (mem_uc main_arg9 (by decide))).trans (W10_of m ρ c main_arg9 (by decide) (by decide) (by decide) (by decide) (by decide) (by decide) (by decide) (by decide) (by decide) (by decide)),
    (h c _ (mem_uc main_arg10 (by decide))).trans (W10_of m ρ c main_arg10 (by decide) (by decide) (by decide) (by decide) (by decide) (by decide) (by decide) (by decide) (by decide) (by decide)),
    (h c _ (mem_uc main_arg11 (by decide))).trans (W10_of m ρ c main_arg11 (by decide) (by decide) (by decide) (by decide) (by decide) (by decide) (by decide) (by decide) (by decide) (by decide)),
    (h c _ (mem_uc main_arg12 (by decide))).trans (W10_of m ρ c main_arg12 (by decide) (by decide) (by decide) (by decide) (by decide) (by decide) (by decide) (by decide) (by decide) (by decide))⟩)
    (run_all m ρ)

/-- THE RESULT beside the frame: the final memory holds, in the result's buffer, what region 3's write-backs leave. -/
theorem run_value : θ_run defs (onTc (τ := τ) (main (F := F))) ⟨m, fun _ => 0, ρ⟩ (fun r => ∀ c : Dev nD,
      r.2.mem ((c.tc : Thread nD τ).loc main_v59) = (dat3 (V9 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v59 (by decide))).trans (W10_arr m ρ c 5),
    (h c _ (mem_uc main_arg0 (by decide))).trans (W10_of m ρ c main_arg0 (by decide) (by decide) (by decide) (by decide) (by decide) (by decide) (by decide) (by decide) (by decide) (by decide)),
    (h c _ (mem_uc main_arg1 (by decide))).trans (W10_of m ρ c main_arg1 (by decide) (by decide) (by decide) (by decide) (by decide) (by decide) (by decide) (by decide) (by decide) (by decide)),
    (h c _ (mem_uc main_arg2 (by decide))).trans (W10_of m ρ c main_arg2 (by decide) (by decide) (by decide) (by decide) (by decide) (by decide) (by decide) (by decide) (by decide) (by decide)),
    (h c _ (mem_uc main_arg3 (by decide))).trans (W10_of m ρ c main_arg3 (by decide) (by decide) (by decide) (by decide) (by decide) (by decide) (by decide) (by decide) (by decide) (by decide)),
    (h c _ (mem_uc main_arg4 (by decide))).trans (W10_of m ρ c main_arg4 (by decide) (by decide) (by decide) (by decide) (by decide) (by decide) (by decide) (by decide) (by decide) (by decide)),
    (h c _ (mem_uc main_arg5 (by decide))).trans (W10_of m ρ c main_arg5 (by decide) (by decide) (by decide) (by decide) (by decide) (by decide) (by decide) (by decide) (by decide) (by decide)),
    (h c _ (mem_uc main_arg6 (by decide))).trans (W10_of m ρ c main_arg6 (by decide) (by decide) (by decide) (by decide) (by decide) (by decide) (by decide) (by decide) (by decide) (by decide)),
    (h c _ (mem_uc main_arg7 (by decide))).trans (W10_of m ρ c main_arg7 (by decide) (by decide) (by decide) (by decide) (by decide) (by decide) (by decide) (by decide) (by decide) (by decide)),
    (h c _ (mem_uc main_arg8 (by decide))).trans (W10_of m ρ c main_arg8 (by decide) (by decide) (by decide) (by decide) (by decide) (by decide) (by decide) (by decide) (by decide) (by decide)),
    (h c _ (mem_uc main_arg9 (by decide))).trans (W10_of m ρ c main_arg9 (by decide) (by decide) (by decide) (by decide) (by decide) (by decide) (by decide) (by decide) (by decide) (by decide)),
    (h c _ (mem_uc main_arg10 (by decide))).trans (W10_of m ρ c main_arg10 (by decide) (by decide) (by decide) (by decide) (by decide) (by decide) (by decide) (by decide) (by decide) (by decide)),
    (h c _ (mem_uc main_arg11 (by decide))).trans (W10_of m ρ c main_arg11 (by decide) (by decide) (by decide) (by decide) (by decide) (by decide) (by decide) (by decide) (by decide) (by decide)),
    (h c _ (mem_uc main_arg12 (by decide))).trans (W10_of m ρ c main_arg12 (by decide) (by decide) (by decide) (by decide) (by decide) (by decide) (by decide) (by decide) (by decide) (by decide))⟩)
    (run_all m ρ)

end Cert.KernelIdeal.Fr

end
-- ==== Proof.KI.Val0.lean ====
/- The array region 0 leaves, at the ideal values: the product of the [100000,128] left operand and the [128,128] right operand. Each grid point t writes rows 2000t … 2000t+1999 of the product; the 50 row blocks tile the array. -/
import proofs.«118182_j89309549953493_1_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered, at the ideal values
variable (V : (c : Dev nD) → (b : Ref sig .tc) → Buf (Elt Ideal) ((c : Thread nD τ).loc b))

/-! ## The specification -/

/-- The matrix product: entry (r, j) is the sum over k of x(r, k) · w(k, j). -/
def G0 (x : FVec Ideal S100000x128 .f32) (w : FVec Ideal S128x128 .f32) : FVec Ideal S100000x128 .f32 :=
  fun i => ∑ k : Fin 128, x (ix2 (n0 := 100000) (n1 := 128) (i 0) k) * w (ix2 (n0 := 128) (n1 := 128) k (i 1))

theorem G0_apply (x : FVec Ideal S100000x128 .f32) (w : FVec Ideal S128x128 .f32) (r : Fin 100000) (j : Fin 128) :
    G0 x w (ix2 r j) = ∑ k : Fin 128, x (ix2 r k) * w (ix2 k j) := rfl

/-! ## The block product at an index -/

/-- The product's dimension numbers: the left operand's axis 1 against the right operand's axis 0. -/
abbrev D0 : DotDims S2000x128 S128x128 S2000x128 := dot_S2000x128_S128x128_S2000x128_1_0_0_1_n_n

/-- The left operand's index at output index `i` and contraction index `q`: row `i 0`, column `q`. -/
theorem lhs0_0 (i : S2000x128.Idx) (q : D0.contr.Idx) : (D0.lhsIdx i q 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
theorem lhs0_1 (i : S2000x128.Idx) (q : D0.contr.Idx) : (D0.lhsIdx i q 1).val = (q ⟨0, by decide⟩).val :=
  D0.lhsIdx_val_of_single rfl i q
/-- The right operand's: row `q`, column `i 1`. -/
theorem rhs0_0 (i : S2000x128.Idx) (q : D0.contr.Idx) : (D0.rhsIdx i q 0).val = (q ⟨0, by decide⟩).val :=
  D0.rhsIdx_val_of_single rfl i q
theorem rhs0_1 (i : S2000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The body's stored value at (p, q): narrowing the operands changes nothing at the ideal values, and the product
    accumulated into the zero splat is the sum over the contraction index of the operands' products. -/
theorem pay0_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Ideal.matmul_constant_zero_apply D0 none _ _ (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 128 rfl rfl).symm k) = ix2 k q := funext fun a => Fin.ext (by
    match a with
    | ⟨0, _⟩ => exact (rhs0_0 _ _).trans hk
    | ⟨1, _⟩ => exact rhs0_1 _ _)
  exact congrArg₂ (fun a b : EReal => a * b) (congrArg x0 el) (congrArg x1 er)

/-! ## From blocks to the array -/

theorem hz : (![0, 0] : Fin 2 → Nat) = fun _ => 0 := funext fun a => by fin_cases a <;> rfl

/-- The index maps over the grid: windows 0 and 2 are at row block `t`, window 1 stays at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point `t` is rows 2000t … 2000t+1999 of the left operand. -/
theorem iblk0_0_apply (c : Dev nD) (t : Fin cfg0.N) (p : Fin 2000) (k : Fin 128) (r : Fin 100000)
    (hr : r.val = t.val * 2000 + p.val) :
    (iblk0 V c 0 t : Vec Ideal S2000x128 .f32) (ix2 p k) = (V c main_arg0 : S100000x128.Idx → Elt Ideal .f32) (ix2 r k) := by
  obtain ⟨e0, e1, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Window 1's block at every point is the whole right operand. -/
theorem iblk0_1_apply (c : Dev nD) (t : Fin cfg0.N) (k : Fin 128) (q : Fin 128) :
    (iblk0 V c 1 t : Vec Ideal S128x128 .f32) (ix2 k q) = (V c main_arg3 : S128x128.Idx → Elt Ideal .f32) (ix2 k q) := by
  obtain ⟨-, -, e2, e3, -⟩ := idx_facts0 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- An element (p, q) of the output's block at point `t` sits in the array at row 2000t + p, column q. -/
theorem emb0_2 (t : Fin cfg0.N) (p : Fin 2000) (q : Fin 128) (r : Fin 100000) (hr : r.val = t.val * 2000 + p.val) :
    ((cfg0.win 2).blk t).view.emb (ix2 p q) = (ix2 r q : S100000x128.Idx) := by
  obtain ⟨-, -, -, -, e4, e5⟩ := idx_facts0 t
  refine funext fun a => Fin.ext ?_
  match a with
  | ⟨0, _⟩ => show win0_2.index t (0 : Fin 2) * 2000 + 1 * p.val = r.val; omega
  | ⟨1, _⟩ => show win0_2.index t (1 : Fin 2) * 128 + 1 * q.val = q.val; omega

/-- What point `t` writes back is block `t` of the product of the two operands as the region finds them. -/
theorem flushed0_eq (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext y
  obtain ⟨p, q, rfl⟩ : ∃ (p : Fin 2000) (q : Fin 128), y = ix2 p q := ⟨y 0, y 1, eq_ix2 y⟩
  have ht : t.val < 50 := lt_of_lt_of_eq t.isLt N_0
  have hp : p.val < 2000 := p.isLt
  obtain ⟨r, hr⟩ : ∃ r : Fin 100000, r.val = t.val * 2000 + p.val := ⟨⟨t.val * 2000 + p.val, by omega⟩, rfl⟩
  show k0_pay1 (F := Ideal) (iblk0 V c 0 t) (iblk0 V c 1 t) (ix2 p q)
    = G0 (V c main_arg0) (V c main_arg3) (((cfg0.win 2).blk t).view.emb (ix2 p q))
  refine (pay0_apply (iblk0 V c 0 t) (iblk0 V c 1 t) p q).trans ?_
  refine Eq.trans ?_ (congrArg (G0 (V c main_arg0) (V c main_arg3)) (emb0_2 t p q r hr)).symm
  refine Eq.trans ?_ (G0_apply (V c main_arg0) (V c main_arg3) r q).symm
  refine Finset.sum_congr rfl fun k _ => ?_
  exact congrArg₂ (fun a b : EReal => a * b) (iblk0_0_apply V c t p k r hr) (iblk0_1_apply V c t k q)

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v34).slice (win0_2.rect t)).set ↔ _
  rw [View.set_slice_whole, Rect.mem_set_unit]
  exact Iff.rfl

/-- The 50 row blocks tile the array: row r is in the block of point r / 2000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  refine ⟨t, flush0_2 t, ?_⟩
  rw [mem_blk0]
  obtain ⟨-, -, -, -, e4, e5⟩ := idx_facts0 t
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array region 0 leaves is the product. -/
theorem final0 (c : Dev nD) : (dat0 (F := Ideal) V c).arrAt 2 cfg0.N = G0 (V c main_arg0) (V c main_arg3) :=
  (dat0 V c).arrAt_eq_of_cover 2 (G0 (V c main_arg0) (V c main_arg3)) (fun t _ => flushed0_eq V c t) cover0

end Cert.KernelIdeal.Fr

end
-- ==== Proof.KI.Val1.lean ====
/- The stats region at the ideal values: the two [1,128] arrays it leaves are the mean and the variance, over all
   100000 rows, of h = x + h_local column by column. The cases' rows as the body's payloads over what the loads found
   (any float interpretation); the payloads read at a column over the extended reals; the two running sums after
   each point, by induction on the point, as sums over the points so far; the blocks read as rows of the arrays; the
   one write-back of each output row, at the last point, covering its array. -/
import proofs.«118182_j89309549953493_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Fr

open Idealize.ShloMosaic Idealize.ShloMosaic.TcCoe Idealize.SL.Sem
open Idealize.ShloMosaic.Pipeline (Dat)
open Cert.KernelIdeal Cert.KernelIdeal.Gen
open Idealize.ShloMosaic.ValueIdx
open scoped BigOperators

section Cases
variable {F : FTy → Type} [FloatOps F]

theorem hz1 : (![0, 0] : Fin 2 → Nat) = fun _ => 0 := funext fun a => by fin_cases a <;> rfl

/-! ## What each case leaves, as the body's payloads

Every store of the body covers its row, and every load reads a whole buffer: so a row after a case is the payload of
its last store, over what the loads found — for a load that follows a store of the same case, that store's payload. -/

theorem sout1_A_0_eq (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) :
    sout1_A_0 c i arg1 harg1 arg2 harg2 arg3 harg3 arg4 harg4 arg5 harg5 arg6 harg6 hc0 hc1 x0 x1 = k1_pay4 x0 x1 (k1_pay1 (F := F)) := by
  unfold sout1_A_0
  rw [View.read_writes_eq_canon _ _ _ (scover1_A_0 c i arg1 harg1 arg2 harg2 arg3 harg3 arg4 harg4 arg5 harg5 arg6 harg6 hc0 hc1 x0 x1)]
  unfold kernelRun1_A
  dsimp only
  sl_unfold_run_names
  rw [View.canon_cons_unit_zero (S := S1x128) hz1, View.readCov_unit_zero (S := S1x128) _ hz1]
  simp only [View.readAt_eq_ld, harg1.read_unread, harg2.read_unread, harg5.read_unread, harg6.read_unread, View.ld_unit_zero (S := S2000x128) hz1, View.ld_unit_zero (S := S1x128) hz1]
theorem sout1_A_1_eq (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i) (x0 : Vec F S2000x128 .f32) (x1 : Vec F S2000x128 .f32) :
    sout1_A_1 c i arg1 harg1 arg2 harg2 arg3 harg3 arg4 harg4 arg5 harg5 arg6 harg6 hc0 hc1 x0 x1 = k1_pay5 x0 x1 (k1_pay2 (F := F)) := by
  unfold sout1_A_1
  rw [View.read_writes_eq_canon _ _ _ (scover1_A_1 c i arg1 harg1 arg2 harg2 arg3 harg3 arg4 harg4 arg5 harg5 arg6 harg6 hc0 hc1 x0 x1)]
  unfold kernelRun1_A
  dsimp only
  sl_unfold_run_names
  rw [View.canon_cons_unit_zero (S := S1x128) hz1, View.readCov_unit_zero (S := S1x128) _ hz1]
  simp only [View.readAt_eq_ld, harg1.read_unread, harg2.read_unread, harg5.read_unread, harg6.read_unread, View.ld_unit_zero (S := S2000x128) hz1, View.ld_unit_zero (S := S1x128) hz1]
theorem sout1_B_0_eq (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) :
    sout1_B_0 c i arg1 harg1 arg2 harg2 arg3 harg3 arg4 harg4 arg5 harg5 arg6 harg6 hc0 hc1 x0 x1 xs0 xs1 = k1_pay4 x0 x1 xs0 := by
  unfold sout1_B_0
  rw [View.read_writes_eq_canon _ _ _ (scover1_B_0 c i arg1 harg1 arg2 harg2 arg3 harg3 arg4 harg4 arg5 harg5 arg6 harg6 hc0 hc1 x0 x1 xs0 xs1)]
  unfold kernelRun1_B
  dsimp only
  rw [View.canon_unit_zero hz1]
  simp only [View.readAt_eq_ld, harg1.read_unread, harg2.read_unread, harg5.read_unread, harg6.read_unread, View.ld_unit_zero (S := S2000x128) hz1, View.ld_unit_zero (S := S1x128) hz1]
theorem sout1_B_1_eq (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i) (x0 : Vec F S2000x128 .f32) (x1 : Vec F S2000x128 .f32) (xs0 : Vec F S1x128 .f32) (xs1 : Vec F S1x128 .f32) :
    sout1_B_1 c i arg1 harg1 arg2 harg2 arg3 harg3 arg4 harg4 arg5 harg5 arg6 harg6 hc0 hc1 x0 x1 xs0 xs1 = k1_pay5 x0 x1 xs1 := by
  unfold sout1_B_1
  rw [View.read_writes_eq_canon _ _ _ (scover1_B_1 c i arg1 harg1 arg2 harg2 arg3 harg3 arg4 harg4 arg5 harg5 arg6 harg6 hc0 hc1 x0 x1 xs0 xs1)]
  unfold kernelRun1_B
  dsimp only
  rw [View.canon_unit_zero hz1]
  simp only [View.readAt_eq_ld, harg1.read_unread, harg2.read_unread, harg5.read_unread, harg6.read_unread, View.ld_unit_zero (S := S2000x128) hz1, View.ld_unit_zero (S := S1x128) hz1]
theorem sout1_C_0_eq (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) :
    sout1_C_0 c i arg1 harg1 arg2 harg2 arg3 harg3 arg4 harg4 arg5 harg5 arg6 harg6 hc0 hc1 x0 x1 xs0 xs1 = k1_pay4 x0 x1 xs0 := by
  unfold sout1_C_0
  rw [View.read_writes_eq_canon _ _ _ (scover1_C_0 c i arg1 harg1 arg2 harg2 arg3 harg3 arg4 harg4 arg5 harg5 arg6 harg6 hc0 hc1 x0 x1 xs0 xs1)]
  unfold kernelRun1_C
  dsimp only
  sl_unfold_run_names
  rw [View.canon_unit_zero hz1]
  simp only [View.readAt_eq_ld, harg1.read_unread, harg2.read_unread, harg5.read_unread, harg6.read_unread, View.ld_unit_zero (S := S2000x128) hz1, View.ld_unit_zero (S := S1x128) hz1]
theorem sout1_C_1_eq (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) :
    sout1_C_1 c i arg1 harg1 arg2 harg2 arg3 harg3 arg4 harg4 arg5 harg5 arg6 harg6 hc0 hc1 x0 x1 xs0 xs1 = k1_pay5 x0 x1 xs1 := by
  unfold sout1_C_1
  rw [View.read_writes_eq_canon _ _ _ (scover1_C_1 c i arg1 harg1 arg2 harg2 arg3 harg3 arg4 harg4 arg5 harg5 arg6 harg6 hc0 hc1 x0 x1 xs0 xs1)]
  unfold kernelRun1_C
  dsimp only
  sl_unfold_run_names
  rw [View.canon_unit_zero hz1]
  simp only [View.readAt_eq_ld, harg1.read_unread, harg2.read_unread, harg5.read_unread, harg6.read_unread, View.ld_unit_zero (S := S2000x128) hz1, View.ld_unit_zero (S := S1x128) hz1]
theorem out1_C_2_eq (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) :
    out1_C_2 c i arg1 harg1 arg2 harg2 arg3 harg3 arg4 harg4 arg5 harg5 arg6 harg6 hc0 hc1 x0 x1 xs0 xs1 = k1_pay6 (k1_pay4 x0 x1 xs0) := by
  unfold out1_C_2
  rw [View.read_writes_eq_canon _ _ _ (cover1_C_2 c i arg1 harg1 arg2 harg2 arg3 harg3 arg4 harg4 arg5 harg5 arg6 harg6 hc0 hc1 x0 x1 xs0 xs1)]
  unfold kernelRun1_C
  dsimp only
  sl_unfold_run_names
  rw [View.canon_unit_zero hz1, View.readCov_unit_zero (S := S1x128) _ hz1]
  simp only [View.readAt_eq_ld, harg1.read_unread, harg2.read_unread, harg5.read_unread, harg6.read_unread, View.ld_unit_zero (S := S2000x128) hz1, View.ld_unit_zero (S := S1x128) hz1]
theorem out1_C_3_eq (c : Dev nD) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i) (x0 : Vec F S2000x128 .f32) (x1 : Vec F S2000x128 .f32) (xs0 : Vec F S1x128 .f32) (xs1 : Vec F S1x128 .f32) :
    out1_C_3 c i arg1 harg1 arg2 harg2 arg3 harg3 arg4 harg4 arg5 harg5 arg6 harg6 hc0 hc1 x0 x1 xs0 xs1 = k1_pay7 (k1_pay4 x0 x1 xs0) (k1_pay5 x0 x1 xs1) := by
  unfold out1_C_3
  rw [View.read_writes_eq_canon _ _ _ (cover1_C_3 c i arg1 harg1 arg2 harg2 arg3 harg3 arg4 harg4 arg5 harg5 arg6 harg6 hc0 hc1 x0 x1 xs0 xs1)]
  unfold kernelRun1_C
  dsimp only
  sl_unfold_run_names
  rw [View.canon_unit_zero hz1, View.readCov_unit_zero (S := S1x128) _ hz1, View.readCov_unit_zero (S := S1x128) _ hz1]
  simp only [View.readAt_eq_ld, harg1.read_unread, harg2.read_unread, harg5.read_unread, harg6.read_unread, View.ld_unit_zero (S := S2000x128) hz1, View.ld_unit_zero (S := S1x128) hz1]

end Cases

/-! ## The windows' blocks, read at an index -/

section Blocks
variable {F : FTy → Type} [FloatOps F]
variable (V : (c : Dev nD) → (b : Ref sig .tc) → Buf (Elt F) ((c : Thread nD τ).loc b))

/-- Both input windows are on row block `t` at point `t` — decided over the grid. -/
theorem idx1_facts : ∀ t : Fin cfg1.N, (win1_0.index t 0 = t.val ∧ win1_0.index t 1 = 0) ∧ (win1_1.index t 0 = t.val ∧ win1_1.index t 1 = 0) :=
  (by decide +kernel : ∀ t : Fin grid1.N, (win1_0.index t 0 = t.val ∧ win1_0.index t 1 = 0) ∧ (win1_1.index t 0 = t.val ∧ win1_1.index t 1 = 0))

/-- Row `r` of block `t` is row `2000 t + r` of the array. -/
abbrev row1 (t : Fin cfg1.N) (r : Fin 2000) : Fin 100000 :=
  ⟨2000 * t.val + r.val, by have := lt_of_lt_of_eq t.isLt (show cfg1.N = 50 from N_1); have := r.isLt; omega⟩

/-- Window 0's block at point `t` is rows `2000 t …` of x as the region finds it. -/
theorem iblk1_0_apply (c : Dev nD) (t : Fin cfg1.N) (r : Fin 2000) (j : Fin 128) :
    (iblk1 V c 0 t : Vec F S2000x128 .f32) (ix2 r j) = (V c main_arg0 : Vec F S100000x128 .f32) (ix2 (row1 t r) j) := by
  have hi := (idx1_facts t).1
  unfold iblk1
  rw [View.read_apply]
  show (V c main_arg0 : Vec F S100000x128 .f32) _ = (V c main_arg0 : Vec F S100000x128 .f32) _
  refine congrArg _ ?_
  funext a
  apply Fin.ext
  match a with
  | ⟨0, _⟩ => show win1_0.index t 0 * 2000 + 1 * r.val = 2000 * t.val + r.val; rw [hi.1]; omega
  | ⟨1, _⟩ => show win1_0.index t 1 * 128 + 1 * j.val = j.val; rw [hi.2]; omega

/-- Window 1's block at point `t` is the same rows of h_local. -/
theorem iblk1_1_apply (c : Dev nD) (t : Fin cfg1.N) (r : Fin 2000) (j : Fin 128) :
    (iblk1 V c 1 t : Vec F S2000x128 .f32) (ix2 r j) = (V c main_v50 : Vec F S100000x128 .f32) (ix2 (row1 t r) j) := by
  have hi := (idx1_facts t).2
  unfold iblk1
  rw [View.read_apply]
  show (V c main_v50 : Vec F S100000x128 .f32) _ = (V c main_v50 : Vec F S100000x128 .f32) _
  refine congrArg _ ?_
  funext a
  apply Fin.ext
  match a with
  | ⟨0, _⟩ => show win1_1.index t 0 * 2000 + 1 * r.val = 2000 * t.val + r.val; rw [hi.1]; omega
  | ⟨1, _⟩ => show win1_1.index t 1 * 128 + 1 * j.val = j.val; rw [hi.2]; omega

/-- At the last point the mean row is the body's quotient of the sum row that point leaves, and the variance row its
    combination of the two sums' rows. -/
theorem mean_row1 (c : Dev nD) (t : Fin cfg1.N) (h0 : ¬t.val = 0) (h49 : t.val = 49) :
    (outsAt1 V c t.val t.isLt).1 = k1_pay6 ((outsAt1 V c t.val t.isLt).2.2.1) := by
  rw [outsAt1_C V c t h0 h49]; dsimp only; rw [out1_C_2_eq, sout1_C_0_eq]

theorem var_row1 (c : Dev nD) (t : Fin cfg1.N) (h0 : ¬t.val = 0) (h49 : t.val = 49) :
    (outsAt1 V c t.val t.isLt).2.1 = k1_pay7 ((outsAt1 V c t.val t.isLt).2.2.1) ((outsAt1 V c t.val t.isLt).2.2.2) := by
  rw [outsAt1_C V c t h0 h49]; dsimp only; rw [out1_C_3_eq, sout1_C_0_eq, sout1_C_1_eq]

end Blocks

/-! ## The payloads at the ideal values, read at a column -/

section IdealPayloads

/-- The sum over the 2000 rows of a block, at column `j`. -/
theorem colsumB_apply (src : FVec Ideal S2000x128 .f32) (hφ : FKind.Formats .f32)
    (hacc : (0x00000000#32 : BitVec 32) = 0x00000000#32) (j : Fin 128) :
    multiReduction (F := Ideal) .add [0] S128 src 0x00000000#32 reduces_S2000x128_S128 hφ hacc (ix1 j)
      = ∑ r : Fin 2000, src (ix2 r j) := by
  refine (Ideal.multiReduction_add_single src 0x00000000#32 reduces_S2000x128_S128 hφ hacc (ix1 j)).trans ?_
  refine Finset.sum_congr rfl fun r _ => congrArg src ?_
  funext a; fin_cases a <;> rfl

theorem payB1_apply (i : S1x128.Idx) : k1_pay1 (F := Ideal) i = 0 := by
  unfold k1_pay1; (try dsimp only); rw [shapeCast_self]
  show Ideal.ofBits .f32 0x00000000#32 = 0
  exact Ideal.ofBits_zero_f32

theorem payB2_apply (i : S1x128.Idx) : k1_pay2 (F := Ideal) i = 0 := by
  unfold k1_pay2; (try dsimp only); rw [shapeCast_self]
  show Ideal.ofBits .f32 0x00000000#32 = 0
  exact Ideal.ofBits_zero_f32

theorem payB3_apply (x0 x1 : Vec Ideal S2000x128 .f32) (i : S2000x128.Idx) : k1_pay3 (F := Ideal) x0 x1 i = x0 i + x1 i := by
  unfold k1_pay3; (try dsimp only); rw [shapeCast_self]; rfl

/-- The sum row after a point: what it held plus the block's column sums of x + h_local. -/
theorem payB4_apply (x0 x1 : Vec Ideal S2000x128 .f32) (s : Vec Ideal S1x128 .f32) (j : Fin 128) :
    k1_pay4 (F := Ideal) x0 x1 s (ix2 0 j) = s (ix2 0 j) + ∑ r : Fin 2000, (x0 (ix2 r j) + x1 (ix2 r j)) := by
  unfold k1_pay4; (try dsimp only); rw [shapeCast_self, addf_apply, shapeCast_a_1a_apply]
  refine congrArg (s (ix2 0 j) + ·) ?_
  refine (colsumB_apply _ _ _ j).trans ?_
  exact Finset.sum_congr rfl fun r _ => payB3_apply x0 x1 _

/-- The sum-of-squares row after a point. -/
theorem payB5_apply (x0 x1 : Vec Ideal S2000x128 .f32) (s : Vec Ideal S1x128 .f32) (j : Fin 128) :
    k1_pay5 (F := Ideal) x0 x1 s (ix2 0 j)
      = s (ix2 0 j) + ∑ r : Fin 2000, (x0 (ix2 r j) + x1 (ix2 r j)) * (x0 (ix2 r j) + x1 (ix2 r j)) := by
  unfold k1_pay5; (try dsimp only); rw [shapeCast_self, addf_apply, shapeCast_a_1a_apply]
  refine congrArg (s (ix2 0 j) + ·) ?_
  refine (colsumB_apply _ _ _ j).trans ?_
  refine Finset.sum_congr rfl fun r _ => ?_
  rw [mulf_apply, payB3_apply]

/-- The mean row: the sum row over the number of rows. -/
theorem payB6_apply (v : Vec Ideal S1x128 .f32) (i : S1x128.Idx) :
    k1_pay6 (F := Ideal) v i = Ideal.div (v i) (Ideal.ofBits .f32 0x47C35000#32) := by
  unfold k1_pay6; rfl

/-- The variance row: the mean of the squares minus the square of the mean. -/
theorem payB7_apply (v w : Vec Ideal S1x128 .f32) (i : S1x128.Idx) :
    k1_pay7 (F := Ideal) v w i
      = Ideal.div (w i) (Ideal.ofBits .f32 0x47C35000#32) - k1_pay6 (F := Ideal) v i * k1_pay6 (F := Ideal) v i := by
  unfold k1_pay7; rfl

end IdealPayloads

/-! ## The two rows the region leaves, at the ideal values -/

section IdealRun
variable (V : (c : Dev nD) → (b : Ref sig .tc) → Buf (Elt Ideal) ((c : Thread nD τ).loc b))

/-- h = x + h_local at row `r` of block `t`, column `j`. -/
abbrev xblk1 (c : Dev nD) (t : Fin cfg1.N) : FVec Ideal S2000x128 .f32 := iblk1 V c 0 t
abbrev lblk1 (c : Dev nD) (t : Fin cfg1.N) : FVec Ideal S2000x128 .f32 := iblk1 V c 1 t
abbrev hblk1 (c : Dev nD) (t : Fin cfg1.N) (r : Fin 2000) (j : Fin 128) : EReal :=
  xblk1 V c t (ix2 r j) + lblk1 V c t (ix2 r j)

theorem xblk1_apply (c : Dev nD) (t : Fin cfg1.N) (r : Fin 2000) (j : Fin 128) :
    xblk1 V c t (ix2 r j) = (V c main_arg0 : FVec Ideal S100000x128 .f32) (ix2 (row1 t r) j) := iblk1_0_apply V c t r j
theorem lblk1_apply (c : Dev nD) (t : Fin cfg1.N) (r : Fin 2000) (j : Fin 128) :
    lblk1 V c t (ix2 r j) = (V c main_v50 : FVec Ideal S100000x128 .f32) (ix2 (row1 t r) j) := iblk1_1_apply V c t r j

/-- The running sum of h at column `j` after point `n`: from zero, one block's column sum per point. -/
def sum1 (c : Dev nD) (j : Fin 128) : (n : ℕ) → n < cfg1.N → EReal
  | 0, h => 0 + ∑ r : Fin 2000, hblk1 V c ⟨0, h⟩ r j
  | n + 1, h => sum1 c j n (Nat.lt_of_succ_lt h) + ∑ r : Fin 2000, hblk1 V c ⟨n + 1, h⟩ r j

/-- The running sum of h * h. -/
def sq1 (c : Dev nD) (j : Fin 128) : (n : ℕ) → n < cfg1.N → EReal
  | 0, h => 0 + ∑ r : Fin 2000, hblk1 V c ⟨0, h⟩ r j * hblk1 V c ⟨0, h⟩ r j
  | n + 1, h => sq1 c j n (Nat.lt_of_succ_lt h) + ∑ r : Fin 2000, hblk1 V c ⟨n + 1, h⟩ r j * hblk1 V c ⟨n + 1, h⟩ r j

/-- What the two scratch rows hold after point `n` are the running sums — by induction on the point. -/
theorem acc1_apply (c : Dev nD) (j : Fin 128) : ∀ (n : ℕ) (h : n < cfg1.N),
    (outsAt1 V c n h).2.2.1 (ix2 0 j) = sum1 V c j n h ∧ (outsAt1 V c n h).2.2.2 (ix2 0 j) = sq1 V c j n h
  | 0, h => by
    rw [outsAt1_A V c ⟨0, h⟩ rfl (by show ¬(0 : ℕ) = 49; decide)]
    dsimp only
    rw [sout1_A_0_eq, sout1_A_1_eq, payB4_apply, payB5_apply, payB1_apply, payB2_apply]
    exact ⟨rfl, rfl⟩
  | n + 1, h => by
    obtain ⟨ih0, ih1⟩ := acc1_apply c j n (Nat.lt_of_succ_lt h)
    by_cases h49 : n + 1 = 49
    · rw [outsAt1_C V c ⟨n + 1, h⟩ (Nat.succ_ne_zero n) h49]
      dsimp only
      rw [sout1_C_0_eq, sout1_C_1_eq, payB4_apply, payB5_apply]
      show (outsAt1 V c n _).2.2.1 (ix2 0 j) + _ = _ ∧ (outsAt1 V c n _).2.2.2 (ix2 0 j) + _ = _
      rw [ih0, ih1]; exact ⟨rfl, rfl⟩
    · rw [outsAt1_B V c ⟨n + 1, h⟩ (Nat.succ_ne_zero n) h49]
      dsimp only
      rw [sout1_B_0_eq, sout1_B_1_eq, payB4_apply, payB5_apply]
      show (outsAt1 V c n _).2.2.1 (ix2 0 j) + _ = _ ∧ (outsAt1 V c n _).2.2.2 (ix2 0 j) + _ = _
      rw [ih0, ih1]; exact ⟨rfl, rfl⟩

/-- The running sums as sums over the points so far. -/
theorem sum1_eq (c : Dev nD) (j : Fin 128) : ∀ (n : ℕ) (h : n < cfg1.N),
    sum1 V c j n h = ∑ t : Fin (n + 1), ∑ r : Fin 2000, hblk1 V c ⟨t.val, Nat.lt_of_lt_of_le t.isLt h⟩ r j
  | 0, h => by
    rw [show sum1 V c j 0 h = 0 + ∑ r : Fin 2000, hblk1 V c ⟨0, h⟩ r j from rfl, zero_add, Fin.sum_univ_one]; rfl
  | n + 1, h => by
    rw [show sum1 V c j (n + 1) h = sum1 V c j n (Nat.lt_of_succ_lt h) + ∑ r : Fin 2000, hblk1 V c ⟨n + 1, h⟩ r j from rfl,
      sum1_eq c j n, Fin.sum_univ_castSucc (n := n + 1)]; rfl

theorem sq1_eq (c : Dev nD) (j : Fin 128) : ∀ (n : ℕ) (h : n < cfg1.N),
    sq1 V c j n h = ∑ t : Fin (n + 1), ∑ r : Fin 2000, hblk1 V c ⟨t.val, Nat.lt_of_lt_of_le t.isLt h⟩ r j * hblk1 V c ⟨t.val, Nat.lt_of_lt_of_le t.isLt h⟩ r j
  | 0, h => by
    rw [show sq1 V c j 0 h = 0 + ∑ r : Fin 2000, hblk1 V c ⟨0, h⟩ r j * hblk1 V c ⟨0, h⟩ r j from rfl, zero_add, Fin.sum_univ_one]; rfl
  | n + 1, h => by
    rw [show sq1 V c j (n + 1) h = sq1 V c j n (Nat.lt_of_succ_lt h) + ∑ r : Fin 2000, hblk1 V c ⟨n + 1, h⟩ r j * hblk1 V c ⟨n + 1, h⟩ r j from rfl,
      sq1_eq c j n, Fin.sum_univ_castSucc (n := n + 1)]; rfl

end IdealRun

/-- Row `r` of row block `t` of a [100000, 128] array. -/
abbrev rowOf (t : Fin 50) (r : Fin 2000) : Fin 100000 := ⟨2000 * t.val + r.val, by have := t.isLt; have := r.isLt; omega⟩

/-- The column sums of h = x + h_local over all 100000 rows, block by block; -/
def Gsum (x hl : FVec Ideal S100000x128 .f32) (j : Fin 128) : EReal :=
  ∑ t : Fin 50, ∑ r : Fin 2000, (x (ix2 (rowOf t r) j) + hl (ix2 (rowOf t r) j))
/-- of h * h; -/
def Gsq (x hl : FVec Ideal S100000x128 .f32) (j : Fin 128) : EReal :=
  ∑ t : Fin 50, ∑ r : Fin 2000, (x (ix2 (rowOf t r) j) + hl (ix2 (rowOf t r) j)) * (x (ix2 (rowOf t r) j) + hl (ix2 (rowOf t r) j))
/-- the mean row: the column sums over the number of rows; -/
def Gmean (x hl : FVec Ideal S100000x128 .f32) : S1x128.Idx → Ideal .f32 :=
  fun i => Ideal.div (Gsum x hl (i 1)) (Ideal.ofBits .f32 0x47C35000#32)
/-- the variance row: the mean of the squares minus the square of the mean. -/
def Gvar (x hl : FVec Ideal S100000x128 .f32) : S1x128.Idx → Ideal .f32 :=
  fun i => Ideal.div (Gsq x hl (i 1)) (Ideal.ofBits .f32 0x47C35000#32) - Gmean x hl i * Gmean x hl i

theorem Gmean_apply (x hl : FVec Ideal S100000x128 .f32) (j : Fin 128) :
    Gmean x hl (ix2 0 j) = Ideal.div (∑ t : Fin 50, ∑ r : Fin 2000, (x (ix2 (rowOf t r) j) + hl (ix2 (rowOf t r) j))) (Ideal.ofBits .f32 0x47C35000#32) := rfl

theorem Gvar_apply (x hl : FVec Ideal S100000x128 .f32) (j : Fin 128) :
    Gvar x hl (ix2 0 j) = Ideal.div (∑ t : Fin 50, ∑ r : Fin 2000, (x (ix2 (rowOf t r) j) + hl (ix2 (rowOf t r) j)) * (x (ix2 (rowOf t r) j) + hl (ix2 (rowOf t r) j))) (Ideal.ofBits .f32 0x47C35000#32)
      - Gmean x hl (ix2 0 j) * Gmean x hl (ix2 0 j) := rfl

section IdealFinal
variable (V : (c : Dev nD) → (b : Ref sig .tc) → Buf (Elt Ideal) ((c : Thread nD τ).loc b))

/-- After the last point the running sums are the sums over the whole arrays. -/
theorem sum1_last (c : Dev nD) (j : Fin 128) (h : 49 < cfg1.N) :
    sum1 V c j 49 h = Gsum (V c main_arg0) (V c main_v50) j := by
  rw [sum1_eq]
  unfold Gsum
  refine Finset.sum_congr rfl fun t _ => Finset.sum_congr rfl fun r _ => ?_
  show xblk1 V c _ (ix2 r j) + lblk1 V c _ (ix2 r j) = _
  rw [xblk1_apply, lblk1_apply]

theorem sq1_last (c : Dev nD) (j : Fin 128) (h : 49 < cfg1.N) :
    sq1 V c j 49 h = Gsq (V c main_arg0) (V c main_v50) j := by
  rw [sq1_eq]
  unfold Gsq
  refine Finset.sum_congr rfl fun t _ => Finset.sum_congr rfl fun r _ => ?_
  show (xblk1 V c _ (ix2 r j) + lblk1 V c _ (ix2 r j)) * (xblk1 V c _ (ix2 r j) + lblk1 V c _ (ix2 r j)) = _
  rw [xblk1_apply, lblk1_apply]

/-- The last point. -/
def t49_1 : Fin cfg1.N := ⟨49, by rw [show cfg1.N = 50 from N_1]; decide⟩

/-- What the last point leaves in the mean row's buffer, -/
theorem mean_last (c : Dev nD) (t : Fin cfg1.N) (h49 : t.val = 49) :
    (outsAt1 V c t.val t.isLt).1 = Gmean (V c main_arg0) (V c main_v50) := by
  obtain ⟨n, hn⟩ := t
  dsimp only at h49; subst h49
  rw [mean_row1 V c ⟨49, hn⟩ (by show ¬(49 : ℕ) = 0; decide) rfl]
  funext i
  obtain ⟨p, q, rfl⟩ : ∃ (p : Fin 1) (q : Fin 128), i = ix2 p q := ⟨i 0, i 1, eq_ix2 i⟩
  obtain rfl : p = 0 := Subsingleton.elim _ _
  rw [payB6_apply, (acc1_apply V c q 49 hn).1, sum1_last]
  rfl

/-- and in the variance row's. -/
theorem var_last (c : Dev nD) (t : Fin cfg1.N) (h49 : t.val = 49) :
    (outsAt1 V c t.val t.isLt).2.1 = Gvar (V c main_arg0) (V c main_v50) := by
  obtain ⟨n, hn⟩ := t
  dsimp only at h49; subst h49
  rw [var_row1 V c ⟨49, hn⟩ (by show ¬(49 : ℕ) = 0; decide) rfl]
  funext i
  obtain ⟨p, q, rfl⟩ : ∃ (p : Fin 1) (q : Fin 128), i = ix2 p q := ⟨i 0, i 1, eq_ix2 i⟩
  obtain rfl : p = 0 := Subsingleton.elim _ _
  rw [payB7_apply, payB6_apply, (acc1_apply V c q 49 hn).1, (acc1_apply V c q 49 hn).2, sum1_last, sq1_last]
  rfl

/-- The one write-back of the mean row, at the last point, writes it: the [1,128] block read through zero offsets is the array. -/
theorem flushed1_2_eq (c : Dev nD) (t : Fin cfg1.N) (hf : (cfg1.win 2).flush t = true) :
    (dat1 V c).flushed 2 t = ((cfg1.win 2).blk t).view.read (Elt Ideal) (Gmean (V c main_arg0) (V c main_v50)) := by
  have hN : cfg1.N = 50 := N_1
  have h49 : t.val = 49 := by have := (flush1_2 t).mp hf; have := t.isLt; omega
  obtain rfl : t = t49_1 := Fin.ext h49
  show (cfg1.win 2).cut (grid1.coords t49_1) ((dat1 V c).after 2 t49_1) = _
  rw [after1_2, mean_last V c t49_1 rfl]
  have hz' : (fun a => win1_2.index t49_1 a * main_v51_0.ty.shape.size a) = fun _ => 0 := funext fun a => by fin_cases a <;> decide
  exact (Memref.read_access_unit_zero (Elt Ideal) main_v51_0 hz' (fun a => by rw [congrFun hz' a]; simp) (Gmean (V c main_arg0) (V c main_v50))).symm

theorem flushed1_3_eq (c : Dev nD) (t : Fin cfg1.N) (hf : (cfg1.win 3).flush t = true) :
    (dat1 V c).flushed 3 t = ((cfg1.win 3).blk t).view.read (Elt Ideal) (Gvar (V c main_arg0) (V c main_v50)) := by
  have hN : cfg1.N = 50 := N_1
  have h49 : t.val = 49 := by have := (flush1_3 t).mp hf; have := t.isLt; omega
  obtain rfl : t = t49_1 := Fin.ext h49
  show (cfg1.win 3).cut (grid1.coords t49_1) ((dat1 V c).after 3 t49_1) = _
  rw [after1_3, var_last V c t49_1 rfl]
  have hz' : (fun a => win1_3.index t49_1 a * main_v51_1.ty.shape.size a) = fun _ => 0 := funext fun a => by fin_cases a <;> decide
  exact (Memref.read_access_unit_zero (Elt Ideal) main_v51_1 hz' (fun a => by rw [congrFun hz' a]; simp) (Gvar (V c main_arg0) (V c main_v50))).symm

/-- So the mean array ends holding the mean row, -/
theorem final1_2 (c : Dev nD) : (dat1 (F := Ideal) V c).arrAt 2 cfg1.N = Gmean (V c main_arg0) (V c main_v50) :=
  (dat1 V c).arrAt_eq_of_cover 2 (Gmean (V c main_arg0) (V c main_v50)) (flushed1_2_eq V c) fun i =>
    ⟨t49_1, (flush1_2 t49_1).mpr (by decide), by
      show i ∈ ((View.whole main_v51_0).slice (win1_2.rect t49_1)).set
      rw [View.set_slice_whole, Rect.mem_set_unit]
      intro a
      have h0 : (i 0 : Nat) < 1 := (i 0).isLt
      have h1 : (i 1 : Nat) < 128 := (i 1).isLt
      match a with
      | ⟨0, _⟩ => show win1_2.index t49_1 0 * win1_2.size 0 ≤ (i 0 : Nat) ∧ (i 0 : Nat) < win1_2.index t49_1 0 * win1_2.size 0 + win1_2.xsize (grid1.coords t49_1) 0
                  rw [show win1_2.index t49_1 0 * win1_2.size 0 = 0 from by decide +kernel, show win1_2.xsize (grid1.coords t49_1) 0 = 1 from by decide +kernel]; omega
      | ⟨1, _⟩ => show win1_2.index t49_1 1 * win1_2.size 1 ≤ (i 1 : Nat) ∧ (i 1 : Nat) < win1_2.index t49_1 1 * win1_2.size 1 + win1_2.xsize (grid1.coords t49_1) 1
                  rw [show win1_2.index t49_1 1 * win1_2.size 1 = 0 from by decide +kernel, show win1_2.xsize (grid1.coords t49_1) 1 = 128 from by decide +kernel]; omega⟩

/-- and the variance array the variance row. -/
theorem final1_3 (c : Dev nD) : (dat1 (F := Ideal) V c).arrAt 3 cfg1.N = Gvar (V c main_arg0) (V c main_v50) :=
  (dat1 V c).arrAt_eq_of_cover 3 (Gvar (V c main_arg0) (V c main_v50)) (flushed1_3_eq V c) fun i =>
    ⟨t49_1, (flush1_3 t49_1).mpr (by decide), by
      show i ∈ ((View.whole main_v51_1).slice (win1_3.rect t49_1)).set
      rw [View.set_slice_whole, Rect.mem_set_unit]
      intro a
      have h0 : (i 0 : Nat) < 1 := (i 0).isLt
      have h1 : (i 1 : Nat) < 128 := (i 1).isLt
      match a with
      | ⟨0, _⟩ => show win1_3.index t49_1 0 * win1_3.size 0 ≤ (i 0 : Nat) ∧ (i 0 : Nat) < win1_3.index t49_1 0 * win1_3.size 0 + win1_3.xsize (grid1.coords t49_1) 0
                  rw [show win1_3.index t49_1 0 * win1_3.size 0 = 0 from by decide +kernel, show win1_3.xsize (grid1.coords t49_1) 0 = 1 from by decide +kernel]; omega
      | ⟨1, _⟩ => show win1_3.index t49_1 1 * win1_3.size 1 ≤ (i 1 : Nat) ∧ (i 1 : Nat) < win1_3.index t49_1 1 * win1_3.size 1 + win1_3.xsize (grid1.coords t49_1) 1
                  rw [show win1_3.index t49_1 1 * win1_3.size 1 = 0 from by decide +kernel, show win1_3.xsize (grid1.coords t49_1) 1 = 128 from by decide +kernel]; omega⟩

end IdealFinal

end Cert.KernelIdeal.Fr

end
-- ==== Proof.KI.Pay2.lean ====
/- The feed-forward body's arithmetic at the ideal values, read index by index: the normalised block, the hidden layer's
   activations, the stored block, and the column sums carried from point to point. -/
import proofs.«118182_j89309549953493_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Idealize.ShloMosaic Idealize.SL.Sem
open Idealize.ShloMosaic.ValueIdx
open Cert.KernelIdeal Cert.KernelIdeal.Gen

/-! ## The normalised block -/

/-- Entry (p, q) of the normalised, scaled and shifted block: (x0 + x1 − mean) · rsqrt(variance + eps) · scale + shift, the
    four rows read at column q. -/
def H1 (x0 x1 : FVec Ideal S2000x128 .f32) (x2 x3 x4 x5 : FVec Ideal S1x128 .f32) (p : Fin 2000) (q : Fin 128) : EReal :=
  (x0 (ix2 p q) + x1 (ix2 p q) - x2 (ix2 (0 : Fin 1) q)) * Ideal.rsqrt (x3 (ix2 (0 : Fin 1) q) + Ideal.ofBits .f32 0x3727C5AC#32)
    * x4 (ix2 (0 : Fin 1) q) + x5 (ix2 (0 : Fin 1) q)

/-- The body's first value at (p, q): same-shape casts are identities, a row laid over the 2000 rows reads its entry at q, and
    the arithmetic is pointwise. The body's argument order is: block, block, variance, mean, scale, shift. -/
theorem payC8_apply (x0 x1 : FVec Ideal S2000x128 .f32) (x2 x3 x4 x5 : FVec Ideal S1x128 .f32) (p : Fin 2000) (q : Fin 128) :
    k2_pay8 (F := Ideal) x0 x1 x3 x2 x4 x5 (ix2 p q) = H1 x0 x1 x2 x3 x4 x5 p q := by
  have s1 := shapeCast_self x1 shapeCasts_S2000x128_S2000x128
  have s2 := shapeCast_self x2 shapeCasts_S1x128_S1x128
  have s3 := shapeCast_self x3 shapeCasts_S1x128_S1x128
  have s4 := shapeCast_self x4 shapeCasts_S1x128_S1x128
  have s5 := shapeCast_self x5 shapeCasts_S1x128_S1x128
  unfold k2_pay8 H1
  show ((x0 (ix2 p q) + shapeCast S2000x128 x1 shapeCasts_S2000x128_S2000x128 (ix2 p q)
          - broadcastTo S2000x128 (shapeCast S1x128 x2 shapeCasts_S1x128_S1x128) broadcasts_S1x128_S2000x128 (ix2 p q))
        * broadcastTo S2000x128 (rsqrt (addf (shapeCast S1x128 x3 shapeCasts_S1x128_S1x128)
            (broadcast S1x128 (Scalar.ofBits .f32 0x3727C5AC#32 : Ideal .f32)))) broadcasts_S1x128_S2000x128 (ix2 p q))
        * broadcastTo S2000x128 (shapeCast S1x128 x4 shapeCasts_S1x128_S1x128) broadcasts_S1x128_S2000x128 (ix2 p q)
      + broadcastTo S2000x128 (shapeCast S1x128 x5 shapeCasts_S1x128_S1x128) broadcasts_S1x128_S2000x128 (ix2 p q) = _
  rw [s1, s2, s3, s4, s5]
  rw [broadcastTo_1b_ab_apply (a := 2000) (b := 128) x2 broadcasts_S1x128_S2000x128 p q,
    broadcastTo_1b_ab_apply (a := 2000) (b := 128) x4 broadcasts_S1x128_S2000x128 p q,
    broadcastTo_1b_ab_apply (a := 2000) (b := 128) x5 broadcasts_S1x128_S2000x128 p q,
    broadcastTo_1b_ab_apply (a := 2000) (b := 128) (rsqrt (addf x3 (broadcast S1x128 (Scalar.ofBits .f32 0x3727C5AC#32 : Ideal .f32)))) broadcasts_S1x128_S2000x128 p q]
  rfl

/-! ## The two matrix products -/

/-- The product's dimension numbers: the left operand's axis 1 against the right operand's axis 0. -/
abbrev D2a : DotDims S2000x128 S128x256 S2000x256 := dot_S2000x128_S128x256_S2000x256_1_0_0_1_n_n

theorem D2a_l0 (i : S2000x256.Idx) (q : D2a.contr.Idx) : (D2a.lhsIdx i q 0).val = (i 0).val := by
  unfold DotDims.lhsIdx
  rw [dif_neg (show ¬(0 : Fin S2000x128.rank) ∈ D2a.lhsBatch by decide), dif_pos (show (0 : Fin S2000x128.rank) ∈ D2a.lhsNonContracting by decide)]
  rfl
theorem D2a_l1 (i : S2000x256.Idx) (q : D2a.contr.Idx) : (D2a.lhsIdx i q 1).val = (q ⟨0, by decide⟩).val :=
  D2a.lhsIdx_val_of_single rfl i q
theorem D2a_r0 (i : S2000x256.Idx) (q : D2a.contr.Idx) : (D2a.rhsIdx i q 0).val = (q ⟨0, by decide⟩).val :=
  D2a.rhsIdx_val_of_single rfl i q
theorem D2a_r1 (i : S2000x256.Idx) (q : D2a.contr.Idx) : (D2a.rhsIdx i q 1).val = (i 1).val := by
  unfold DotDims.rhsIdx
  rw [dif_neg (show ¬(1 : Fin S128x256.rank) ∈ D2a.rhsBatch by decide), dif_pos (show (1 : Fin S128x256.rank) ∈ D2a.rhsNonContracting by decide)]
  rfl

/-- The product accumulated into the zero splat, at (p, q): the sum over the contraction index of the operands' products. -/
theorem D2a_apply {φ₁ φ₂ : FTy} (x : FVec Ideal S2000x128 φ₁) (y : FVec Ideal S128x256 φ₂) (p : Fin 2000) (q : Fin 256) :
    matmul D2a none x y (constant S2000x256 .f32 0x00000000#32) (ix2 p q) = ∑ k : Fin 128, x (ix2 p k) * y (ix2 k q) := by
  refine (Ideal.matmul_constant_zero_apply D2a none _ _ (ix2 p q)).trans ?_
  rw [← Equiv.sum_comp (contrEquiv1 D2a 128 rfl rfl).symm]
  refine Finset.sum_congr rfl fun k _ => ?_
  have hk := contrEquiv1_symm_val D2a 128 rfl rfl k
  have el : D2a.lhsIdx (ix2 p q) ((contrEquiv1 D2a 128 rfl rfl).symm k) = ix2 p k := funext fun a => Fin.ext (by
    match a with
    | ⟨0, _⟩ => exact D2a_l0 _ _
    | ⟨1, _⟩ => exact (D2a_l1 _ _).trans hk)
  have er : D2a.rhsIdx (ix2 p q) ((contrEquiv1 D2a 128 rfl rfl).symm k) = ix2 k q := funext fun a => Fin.ext (by
    match a with
    | ⟨0, _⟩ => exact (D2a_r0 _ _).trans hk
    | ⟨1, _⟩ => exact D2a_r1 _ _)
  exact congrArg₂ (fun a b : EReal => a * b) (congrArg x el) (congrArg y er)

/-- The product's dimension numbers: the left operand's axis 1 against the right operand's axis 0. -/
abbrev D2b : DotDims S2000x256 S256x128 S2000x128 := dot_S2000x256_S256x128_S2000x128_1_0_0_1_n_n

theorem D2b_l0 (i : S2000x128.Idx) (q : D2b.contr.Idx) : (D2b.lhsIdx i q 0).val = (i 0).val := by
  unfold DotDims.lhsIdx
  rw [dif_neg (show ¬(0 : Fin S2000x256.rank) ∈ D2b.lhsBatch by decide), dif_pos (show (0 : Fin S2000x256.rank) ∈ D2b.lhsNonContracting by decide)]
  rfl
theorem D2b_l1 (i : S2000x128.Idx) (q : D2b.contr.Idx) : (D2b.lhsIdx i q 1).val = (q ⟨0, by decide⟩).val :=
  D2b.lhsIdx_val_of_single rfl i q
theorem D2b_r0 (i : S2000x128.Idx) (q : D2b.contr.Idx) : (D2b.rhsIdx i q 0).val = (q ⟨0, by decide⟩).val :=
  D2b.rhsIdx_val_of_single rfl i q
theorem D2b_r1 (i : S2000x128.Idx) (q : D2b.contr.Idx) : (D2b.rhsIdx i q 1).val = (i 1).val := by
  unfold DotDims.rhsIdx
  rw [dif_neg (show ¬(1 : Fin S256x128.rank) ∈ D2b.rhsBatch by decide), dif_pos (show (1 : Fin S256x128.rank) ∈ D2b.rhsNonContracting by decide)]
  rfl

/-- The product accumulated into the zero splat, at (p, q): the sum over the contraction index of the operands' products. -/
theorem D2b_apply {φ₁ φ₂ : FTy} (x : FVec Ideal S2000x256 φ₁) (y : FVec Ideal S256x128 φ₂) (p : Fin 2000) (q : Fin 128) :
    matmul D2b none x y (constant S2000x128 .f32 0x00000000#32) (ix2 p q) = ∑ k : Fin 256, x (ix2 p k) * y (ix2 k q) := by
  refine (Ideal.matmul_constant_zero_apply D2b none _ _ (ix2 p q)).trans ?_
  rw [← Equiv.sum_comp (contrEquiv1 D2b 256 rfl rfl).symm]
  refine Finset.sum_congr rfl fun k _ => ?_
  have hk := contrEquiv1_symm_val D2b 256 rfl rfl k
  have el : D2b.lhsIdx (ix2 p q) ((contrEquiv1 D2b 256 rfl rfl).symm k) = ix2 p k := funext fun a => Fin.ext (by
    match a with
    | ⟨0, _⟩ => exact D2b_l0 _ _
    | ⟨1, _⟩ => exact (D2b_l1 _ _).trans hk)
  have er : D2b.rhsIdx (ix2 p q) ((contrEquiv1 D2b 256 rfl rfl).symm k) = ix2 k q := funext fun a => Fin.ext (by
    match a with
    | ⟨0, _⟩ => exact (D2b_r0 _ _).trans hk
    | ⟨1, _⟩ => exact D2b_r1 _ _)
  exact congrArg₂ (fun a b : EReal => a * b) (congrArg x el) (congrArg y er)

/-! ## The hidden layer's activations -/

/-- Entry (p, k) of the activations: the positive part of the normalised row p against column k of the first matrix, plus the
    first bias at k. Narrowing the operands changes nothing at the ideal values. -/
def A1 (x0 x1 : FVec Ideal S2000x128 .f32) (x2 x3 x4 x5 : FVec Ideal S1x128 .f32) (x6 : FVec Ideal S128x256 .f32) (x7 : FVec Ideal S1x256 .f32)
    (p : Fin 2000) (k : Fin 256) : EReal :=
  max ((∑ l : Fin 128, H1 x0 x1 x2 x3 x4 x5 p l * x6 (ix2 l k)) + x7 (ix2 (0 : Fin 1) k)) (Ideal.ofBits .f32 0x00000000#32)

theorem payC9_apply (x0 x1 : FVec Ideal S2000x128 .f32) (x2 x3 x4 x5 : FVec Ideal S1x128 .f32) (x6 : FVec Ideal S128x256 .f32) (x7 : FVec Ideal S1x256 .f32)
    (p : Fin 2000) (k : Fin 256) :
    k2_pay9 (F := Ideal) x0 x1 x3 x2 x4 x5 x6 x7 (ix2 p k) = A1 x0 x1 x2 x3 x4 x5 x6 x7 p k := by
  have s7 := shapeCast_self x7 shapeCasts_S1x256_S1x256
  unfold k2_pay9 A1
  show max (matmul D2a none (truncf .bf16 (k2_pay8 (F := Ideal) x0 x1 x3 x2 x4 x5) bitsLt_bf16_f32) (truncf .bf16 x6 bitsLt_bf16_f32) (constant S2000x256 .f32 0x00000000#32) (ix2 p k)
        + broadcastTo S2000x256 (shapeCast S1x256 x7 shapeCasts_S1x256_S1x256) broadcasts_S1x256_S2000x256 (ix2 p k))
      (Ideal.ofBits .f32 0x00000000#32) = _
  rw [s7, broadcastTo_1b_ab_apply (a := 2000) (b := 256) x7 broadcasts_S1x256_S2000x256 p k]
  refine congrArg (fun s : EReal => max (s + x7 (ix2 (0 : Fin 1) k)) (Ideal.ofBits .f32 0x00000000#32)) ?_
  refine (D2a_apply _ _ p k).trans ?_
  refine Finset.sum_congr rfl fun l _ => ?_
  exact congrArg (fun a : EReal => a * x6 (ix2 l k)) (payC8_apply x0 x1 x2 x3 x4 x5 p l)

/-! ## The stored block and the sums -/

/-- The stored value at (p, q), over the body's first value `u` and the activations `a`: u plus the row of activations against
    column q of the second matrix plus the second bias at q. -/
theorem payC1_apply (u : FVec Ideal S2000x128 .f32) (a : FVec Ideal S2000x256 .bf16) (x8 : FVec Ideal S256x128 .f32) (x9 : FVec Ideal S1x128 .f32)
    (p : Fin 2000) (q : Fin 128) :
    k2_pay1 (F := Ideal) u a x8 x9 (ix2 p q) = u (ix2 p q) + ((∑ k : Fin 256, a (ix2 p k) * x8 (ix2 k q)) + x9 (ix2 (0 : Fin 1) q)) := by
  have s9 := shapeCast_self x9 shapeCasts_S1x128_S1x128
  unfold k2_pay1
  show u (ix2 p q) + (matmul D2b none a (truncf .bf16 x8 bitsLt_bf16_f32) (constant S2000x128 .f32 0x00000000#32) (ix2 p q)
        + broadcastTo S2000x128 (shapeCast S1x128 x9 shapeCasts_S1x128_S1x128) broadcasts_S1x128_S2000x128 (ix2 p q)) = _
  rw [s9, broadcastTo_1b_ab_apply (a := 2000) (b := 128) x9 broadcasts_S1x128_S2000x128 p q]
  refine congrArg (fun s : EReal => u (ix2 p q) + (s + x9 (ix2 (0 : Fin 1) q))) ?_
  exact D2b_apply a (truncf .bf16 x8 bitsLt_bf16_f32) p q

/-- A column of a [2000,128] block summed over its rows, laid out as a [1,128] row. -/
theorem colsumC_apply (w : FVec Ideal S2000x128 .f32) (z : Fin 1) (q : Fin 128) :
    shapeCast S1x128 (multiReduction .add [0] S128 w 0x00000000#32 reduces_S2000x128_S128 (.inl rfl) rfl) shapeCasts_S128_S1x128 (ix2 z q)
      = ∑ r : Fin 2000, w (ix2 r q) := by
  refine (shapeCast_addUnit_apply (n := 1) ![128] _ shapeCasts_S128_S1x128 (ix2 z q)).trans ?_
  refine (Ideal.multiReduction_add_single w _ reduces_S2000x128_S128 _ _ _).trans ?_
  refine Finset.sum_congr rfl fun r _ => ?_
  refine congrArg w (funext fun a => Fin.ext ?_)
  match a with
  | ⟨0, _⟩ => rfl
  | ⟨1, _⟩ => rfl

/-- The column sums after a point: the sums before it plus this block's column sums. -/
theorem payC2_apply (u : FVec Ideal S2000x128 .f32) (a : FVec Ideal S2000x256 .bf16) (x8 : FVec Ideal S256x128 .f32) (x9 s : FVec Ideal S1x128 .f32)
    (z : Fin 1) (q : Fin 128) :
    k2_pay2 (F := Ideal) u a x8 x9 s (ix2 z q) = s (ix2 z q) + ∑ r : Fin 2000, k2_pay1 (F := Ideal) u a x8 x9 (ix2 r q) := by
  unfold k2_pay2
  show shapeCast S1x128 (addf s (shapeCast S1x128 (multiReduction .add [0] S128 (k2_pay1 (F := Ideal) u a x8 x9) 0x00000000#32 reduces_S2000x128_S128 (.inl rfl) rfl) shapeCasts_S128_S1x128)) shapeCasts_S1x128_S1x128 (ix2 z q) = _
  rw [shapeCast_self]
  exact congrArg (fun t : EReal => s (ix2 z q) + t) (colsumC_apply (k2_pay1 (F := Ideal) u a x8 x9) z q)

/-- The column sums of squares after a point. -/
theorem payC3_apply (u : FVec Ideal S2000x128 .f32) (a : FVec Ideal S2000x256 .bf16) (x8 : FVec Ideal S256x128 .f32) (x9 s : FVec Ideal S1x128 .f32)
    (z : Fin 1) (q : Fin 128) :
    k2_pay3 (F := Ideal) u a x8 x9 s (ix2 z q)
      = s (ix2 z q) + ∑ r : Fin 2000, k2_pay1 (F := Ideal) u a x8 x9 (ix2 r q) * k2_pay1 (F := Ideal) u a x8 x9 (ix2 r q) := by
  unfold k2_pay3
  show shapeCast S1x128 (addf s (shapeCast S1x128 (multiReduction .add [0] S128 (mulf (k2_pay1 (F := Ideal) u a x8 x9) (k2_pay1 (F := Ideal) u a x8 x9)) 0x00000000#32 reduces_S2000x128_S128 (.inl rfl) rfl) shapeCasts_S128_S1x128)) shapeCasts_S1x128_S1x128 (ix2 z q) = _
  rw [shapeCast_self]
  exact congrArg (fun t : EReal => s (ix2 z q) + t) (colsumC_apply (mulf (k2_pay1 (F := Ideal) u a x8 x9) (k2_pay1 (F := Ideal) u a x8 x9)) z q)

/-- The zero rows the sums start from. -/
theorem payC6_apply (z : Fin 1) (q : Fin 128) : k2_pay6 (F := Ideal) (ix2 z q) = 0 := by
  unfold k2_pay6
  show shapeCast S1x128 (broadcast S1x128 (Scalar.ofBits .f32 0x00000000#32 : Ideal .f32)) shapeCasts_S1x128_S1x128 (ix2 z q) = 0
  rw [shapeCast_self]
  exact Ideal.ofBits_zero_f32
theorem payC7_apply (z : Fin 1) (q : Fin 128) : k2_pay7 (F := Ideal) (ix2 z q) = 0 := by
  unfold k2_pay7
  show shapeCast S1x128 (broadcast S1x128 (Scalar.ofBits .f32 0x00000000#32 : Ideal .f32)) shapeCasts_S1x128_S1x128 (ix2 z q) = 0
  rw [shapeCast_self]
  exact Ideal.ofBits_zero_f32

/-- The mean row: the column sums over the number of rows, a literal. -/
theorem payC4_apply (s0 : FVec Ideal S1x128 .f32) (z : Fin 1) (q : Fin 128) :
    k2_pay4 (F := Ideal) s0 (ix2 z q) = Ideal.div (s0 (ix2 z q)) (Ideal.ofBits .f32 0x47C35000#32) := rfl
/-- The variance row: the mean of squares less the square of the mean. -/
theorem payC5_apply (s0 s1 : FVec Ideal S1x128 .f32) (z : Fin 1) (q : Fin 128) :
    k2_pay5 (F := Ideal) s0 s1 (ix2 z q)
      = Ideal.div (s1 (ix2 z q)) (Ideal.ofBits .f32 0x47C35000#32)
        - Ideal.div (s0 (ix2 z q)) (Ideal.ofBits .f32 0x47C35000#32) * Ideal.div (s0 (ix2 z q)) (Ideal.ofBits .f32 0x47C35000#32) := rfl

end Cert.KernelIdeal.Fr

end
-- ==== Proof.KI.Val2.lean ====
/- The arrays region 2 leaves, at the ideal values: the [100000,128] result of the normalisation and the two-layer
   feed-forward with its residual, and the [1,128] mean and variance rows of that result's columns. Each grid point t writes
   rows 2000t … 2000t+1999 of the result; the 50 row blocks tile it; the two rows are written once, at the last point, from
   the column sums accumulated over the points. -/
import proofs.«118182_j89309549953493_1_alg».proof.Proof.KI.Reg2
import proofs.«118182_j89309549953493_1_alg».proof.Proof.KI.Pay2

set_option maxRecDepth 16384

noncomputable section

open scoped BigOperators

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered, at the ideal values
variable (V : (c : Dev nD) → (b : Ref sig .tc) → Buf (Elt Ideal) ((c : Thread nD τ).loc b))

/-! ## The specification -/

/-- Row r of block t. -/
abbrev row2 (t : Fin 50) (r : Fin 2000) : Fin 100000 := ⟨2000 * t.val + r.val, by have := t.isLt; have := r.isLt; omega⟩

/-- Entry (r, j) of the normalised input: (x + hl − mu(0, j)) · rsqrt(va(0, j) + eps) · g1(0, j) + b1(0, j). -/
def Gh1 (x hl : FVec Ideal S100000x128 .f32) (mu va g1 b1 : FVec Ideal S1x128 .f32) (r : Fin 100000) (j : Fin 128) : EReal :=
  (x (ix2 r j) + hl (ix2 r j) - mu (ix2 (0 : Fin 1) j)) * Ideal.rsqrt (va (ix2 (0 : Fin 1) j) + Ideal.ofBits .f32 0x3727C5AC#32)
    * g1 (ix2 (0 : Fin 1) j) + b1 (ix2 (0 : Fin 1) j)

/-- Entry (r, k) of the hidden layer: the positive part of row r of the normalised input against column k of W1, plus bf1(0, k). -/
def Ga1 (x hl : FVec Ideal S100000x128 .f32) (mu va g1 b1 : FVec Ideal S1x128 .f32) (W1 : FVec Ideal S128x256 .f32) (bf1 : FVec Ideal S1x256 .f32)
    (r : Fin 100000) (k : Fin 256) : EReal :=
  max ((∑ l : Fin 128, Gh1 x hl mu va g1 b1 r l * W1 (ix2 l k)) + bf1 (ix2 (0 : Fin 1) k)) (Ideal.ofBits .f32 0x00000000#32)

/-- The result: the normalised input plus the hidden layer against W2 plus bf2. -/
def Gh2 (x hl : FVec Ideal S100000x128 .f32) (mu va g1 b1 : FVec Ideal S1x128 .f32) (W1 : FVec Ideal S128x256 .f32) (bf1 : FVec Ideal S1x256 .f32) (W2 : FVec Ideal S256x128 .f32) (bf2 : FVec Ideal S1x128 .f32) : FVec Ideal S100000x128 .f32 :=
  fun i => Gh1 x hl mu va g1 b1 (i 0) (i 1)
    + ((∑ k : Fin 256, Ga1 x hl mu va g1 b1 W1 bf1 (i 0) k * W2 (ix2 k (i 1))) + bf2 (ix2 (0 : Fin 1) (i 1)))

theorem Gh2_apply (x hl : FVec Ideal S100000x128 .f32) (mu va g1 b1 : FVec Ideal S1x128 .f32) (W1 : FVec Ideal S128x256 .f32) (bf1 : FVec Ideal S1x256 .f32) (W2 : FVec Ideal S256x128 .f32) (bf2 : FVec Ideal S1x128 .f32) (r : Fin 100000) (j : Fin 128) :
    Gh2 x hl mu va g1 b1 W1 bf1 W2 bf2 (ix2 r j) = Gh1 x hl mu va g1 b1 r j
      + ((∑ k : Fin 256, Ga1 x hl mu va g1 b1 W1 bf1 r k * W2 (ix2 k j)) + bf2 (ix2 (0 : Fin 1) j)) := rfl

/-- The mean row of an array's columns: the sum over the 50 blocks of the blocks' column sums, over the number of rows. -/
def Gmean2 (y : FVec Ideal S100000x128 .f32) : FVec Ideal S1x128 .f32 :=
  fun i => Ideal.div (∑ t : Fin 50, ∑ r : Fin 2000, y (ix2 (row2 t r) (i 1))) (Ideal.ofBits .f32 0x47C35000#32)

/-- The variance row: the mean of the squares less the square of the mean. -/
def Gvar2 (y : FVec Ideal S100000x128 .f32) : FVec Ideal S1x128 .f32 :=
  fun i => Ideal.div (∑ t : Fin 50, ∑ r : Fin 2000, y (ix2 (row2 t r) (i 1)) * y (ix2 (row2 t r) (i 1))) (Ideal.ofBits .f32 0x47C35000#32)
    - Gmean2 y i * Gmean2 y i

/-! ## The body's values over its input blocks -/

theorem out2_10_apply (x0 x1 : FVec Ideal S2000x128 .f32) (x2 x3 x4 x5 : FVec Ideal S1x128 .f32) (x6 : FVec Ideal S128x256 .f32) (x7 : FVec Ideal S1x256 .f32) (x8 : FVec Ideal S256x128 .f32) (x9 : FVec Ideal S1x128 .f32) (p : Fin 2000) (q : Fin 128) :
    out2_10 (F := Ideal) x0 x1 x2 x3 x4 x5 x6 x7 x8 x9 (ix2 p q)
      = H1 x0 x1 x2 x3 x4 x5 p q + ((∑ k : Fin 256, A1 x0 x1 x2 x3 x4 x5 x6 x7 p k * x8 (ix2 k q)) + x9 (ix2 (0 : Fin 1) q)) := by
  unfold out2_10 h1blk actblk
  refine (payC1_apply _ _ x8 x9 p q).trans ?_
  exact congrArg₂ (fun a b : EReal => a + b) (payC8_apply x0 x1 x2 x3 x4 x5 p q)
    (congrArg (fun s : EReal => s + x9 (ix2 (0 : Fin 1) q)) (Finset.sum_congr rfl fun k _ =>
      congrArg (fun a : EReal => a * x8 (ix2 k q)) (payC9_apply x0 x1 x2 x3 x4 x5 x6 x7 p k)))

theorem step2_0_apply (x0 x1 : FVec Ideal S2000x128 .f32) (x2 x3 x4 x5 : FVec Ideal S1x128 .f32) (x6 : FVec Ideal S128x256 .f32) (x7 : FVec Ideal S1x256 .f32) (x8 : FVec Ideal S256x128 .f32) (x9 : FVec Ideal S1x128 .f32) (s : FVec Ideal S1x128 .f32) (z : Fin 1) (q : Fin 128) :
    step2_0 (F := Ideal) x0 x1 x2 x3 x4 x5 x6 x7 x8 x9 s (ix2 z q)
      = s (ix2 z q) + ∑ r : Fin 2000, out2_10 (F := Ideal) x0 x1 x2 x3 x4 x5 x6 x7 x8 x9 (ix2 r q) := by
  unfold step2_0 out2_10
  exact payC2_apply _ _ x8 x9 s z q

theorem step2_1_apply (x0 x1 : FVec Ideal S2000x128 .f32) (x2 x3 x4 x5 : FVec Ideal S1x128 .f32) (x6 : FVec Ideal S128x256 .f32) (x7 : FVec Ideal S1x256 .f32) (x8 : FVec Ideal S256x128 .f32) (x9 : FVec Ideal S1x128 .f32) (s : FVec Ideal S1x128 .f32) (z : Fin 1) (q : Fin 128) :
    step2_1 (F := Ideal) x0 x1 x2 x3 x4 x5 x6 x7 x8 x9 s (ix2 z q)
      = s (ix2 z q) + ∑ r : Fin 2000, out2_10 (F := Ideal) x0 x1 x2 x3 x4 x5 x6 x7 x8 x9 (ix2 r q) * out2_10 (F := Ideal) x0 x1 x2 x3 x4 x5 x6 x7 x8 x9 (ix2 r q) := by
  unfold step2_1 out2_10
  exact payC3_apply _ _ x8 x9 s z q

/-! ## The windows' blocks in their arrays -/

/-- The index maps over the grid: windows 0, 1 and 10 are at row block `t`, the others stay at their one block. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_10 : ∀ t : Fin cfg2.N, win2_10.index t (0 : Fin 2) = t.val ∧ win2_10.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_11 : ∀ t : Fin cfg2.N, win2_11.index t (0 : Fin 2) = 0 ∧ win2_11.index t (1 : Fin 2) = 0 :=
  (by decide +kernel : ∀ t : Fin grid2.N, _)
theorem idx2_12 : ∀ t : Fin cfg2.N, win2_12.index t (0 : Fin 2) = 0 ∧ win2_12.index t (1 : Fin 2) = 0 :=
  (by decide +kernel : ∀ t : Fin grid2.N, _)

/-- Windows 0 and 1's blocks at point `t` are rows 2000t … 2000t+1999 of their arrays. -/
theorem iblk2_0_apply (c : Dev nD) (t : Fin cfg2.N) (p : Fin 2000) (q : Fin 128) (r : Fin 100000) (hr : r.val = t.val * 2000 + p.val) :
    (iblk2 V c 0 t : FVec Ideal S2000x128 .f32) (ix2 p q) = (V c main_arg0 : S100000x128.Idx → Elt Ideal .f32) (ix2 r q) := by
  obtain ⟨ea, eb⟩ := idx2_0 t
  show V c main_arg0 (((cfg2.win 0).blk t).view.emb (ix2 p q)) = V c main_arg0 (ix2 r q)
  refine congrArg (V c main_arg0) (funext fun a => Fin.ext ?_)
  match a with
  | ⟨0, _⟩ => show win2_0.index t (0 : Fin 2) * 2000 + 1 * p.val = r.val; omega
  | ⟨1, _⟩ => show win2_0.index t (1 : Fin 2) * 128 + 1 * q.val = q.val; omega
theorem iblk2_1_apply (c : Dev nD) (t : Fin cfg2.N) (p : Fin 2000) (q : Fin 128) (r : Fin 100000) (hr : r.val = t.val * 2000 + p.val) :
    (iblk2 V c 1 t : FVec Ideal S2000x128 .f32) (ix2 p q) = (V c main_v50 : S100000x128.Idx → Elt Ideal .f32) (ix2 r q) := by
  obtain ⟨ea, eb⟩ := idx2_1 t
  show V c main_v50 (((cfg2.win 1).blk t).view.emb (ix2 p q)) = V c main_v50 (ix2 r q)
  refine congrArg (V c main_v50) (funext fun a => Fin.ext ?_)
  match a with
  | ⟨0, _⟩ => show win2_1.index t (0 : Fin 2) * 2000 + 1 * p.val = r.val; omega
  | ⟨1, _⟩ => show win2_1.index t (1 : Fin 2) * 128 + 1 * q.val = q.val; omega
/-- Windows 2 to 9's blocks at every point are their whole arrays. -/
theorem iblk2_2_apply (c : Dev nD) (t : Fin cfg2.N) (z : Fin 1) (q : Fin 128) :
    (iblk2 V c 2 t : FVec Ideal S1x128 .f32) (ix2 z q) = (V c main_v51_0 : S1x128.Idx → Elt Ideal .f32) (ix2 z q) := by
  obtain ⟨ea, eb⟩ := idx2_2 t
  show V c main_v51_0 (((cfg2.win 2).blk t).view.emb (ix2 z q)) = V c main_v51_0 (ix2 z q)
  refine congrArg (V c main_v51_0) (funext fun a => Fin.ext ?_)
  match a with
  | ⟨0, _⟩ => show win2_2.index t (0 : Fin 2) * 1 + 1 * z.val = z.val; omega
  | ⟨1, _⟩ => show win2_2.index t (1 : Fin 2) * 128 + 1 * q.val = q.val; omega
theorem iblk2_3_apply (c : Dev nD) (t : Fin cfg2.N) (z : Fin 1) (q : Fin 128) :
    (iblk2 V c 3 t : FVec Ideal S1x128 .f32) (ix2 z q) = (V c main_v51_1 : S1x128.Idx → Elt Ideal .f32) (ix2 z q) := by
  obtain ⟨ea, eb⟩ := idx2_3 t
  show V c main_v51_1 (((cfg2.win 3).blk t).view.emb (ix2 z q)) = V c main_v51_1 (ix2 z q)
  refine congrArg (V c main_v51_1) (funext fun a => Fin.ext ?_)
  match a with
  | ⟨0, _⟩ => show win2_3.index t (0 : Fin 2) * 1 + 1 * z.val = z.val; omega
  | ⟨1, _⟩ => show win2_3.index t (1 : Fin 2) * 128 + 1 * q.val = q.val; omega
theorem iblk2_4_apply (c : Dev nD) (t : Fin cfg2.N) (z : Fin 1) (q : Fin 128) :
    (iblk2 V c 4 t : FVec Ideal S1x128 .f32) (ix2 z q) = (V c main_v52 : S1x128.Idx → Elt Ideal .f32) (ix2 z q) := by
  obtain ⟨ea, eb⟩ := idx2_4 t
  show V c main_v52 (((cfg2.win 4).blk t).view.emb (ix2 z q)) = V c main_v52 (ix2 z q)
  refine congrArg (V c main_v52) (funext fun a => Fin.ext ?_)
  match a with
  | ⟨0, _⟩ => show win2_4.index t (0 : Fin 2) * 1 + 1 * z.val = z.val; omega
  | ⟨1, _⟩ => show win2_4.index t (1 : Fin 2) * 128 + 1 * q.val = q.val; omega
theorem iblk2_5_apply (c : Dev nD) (t : Fin cfg2.N) (z : Fin 1) (q : Fin 128) :
    (iblk2 V c 5 t : FVec Ideal S1x128 .f32) (ix2 z q) = (V c main_v53 : S1x128.Idx → Elt Ideal .f32) (ix2 z q) := by
  obtain ⟨ea, eb⟩ := idx2_5 t
  show V c main_v53 (((cfg2.win 5).blk t).view.emb (ix2 z q)) = V c main_v53 (ix2 z q)
  refine congrArg (V c main_v53) (funext fun a => Fin.ext ?_)
  match a with
  | ⟨0, _⟩ => show win2_5.index t (0 : Fin 2) * 1 + 1 * z.val = z.val; omega
  | ⟨1, _⟩ => show win2_5.index t (1 : Fin 2) * 128 + 1 * q.val = q.val; omega
theorem iblk2_6_apply (c : Dev nD) (t : Fin cfg2.N) (z : Fin 128) (q : Fin 256) :
    (iblk2 V c 6 t : FVec Ideal S128x256 .f32) (ix2 z q) = (V c main_arg7 : S128x256.Idx → Elt Ideal .f32) (ix2 z q) := by
  obtain ⟨ea, eb⟩ := idx2_6 t
  show V c main_arg7 (((cfg2.win 6).blk t).view.emb (ix2 z q)) = V c main_arg7 (ix2 z q)
  refine congrArg (V c main_arg7) (funext fun a => Fin.ext ?_)
  match a with
  | ⟨0, _⟩ => show win2_6.index t (0 : Fin 2) * 128 + 1 * z.val = z.val; omega
  | ⟨1, _⟩ => show win2_6.index t (1 : Fin 2) * 256 + 1 * q.val = q.val; omega
theorem iblk2_7_apply (c : Dev nD) (t : Fin cfg2.N) (z : Fin 1) (q : Fin 256) :
    (iblk2 V c 7 t : FVec Ideal S1x256 .f32) (ix2 z q) = (V c main_v54 : S1x256.Idx → Elt Ideal .f32) (ix2 z q) := by
  obtain ⟨ea, eb⟩ := idx2_7 t
  show V c main_v54 (((cfg2.win 7).blk t).view.emb (ix2 z q)) = V c main_v54 (ix2 z q)
  refine congrArg (V c main_v54) (funext fun a => Fin.ext ?_)
  match a with
  | ⟨0, _⟩ => show win2_7.index t (0 : Fin 2) * 1 + 1 * z.val = z.val; omega
  | ⟨1, _⟩ => show win2_7.index t (1 : Fin 2) * 256 + 1 * q.val = q.val; omega
theorem iblk2_8_apply (c : Dev nD) (t : Fin cfg2.N) (z : Fin 256) (q : Fin 128) :
    (iblk2 V c 8 t : FVec Ideal S256x128 .f32) (ix2 z q) = (V c main_arg9 : S256x128.Idx → Elt Ideal .f32) (ix2 z q) := by
  obtain ⟨ea, eb⟩ := idx2_8 t
  show V c main_arg9 (((cfg2.win 8).blk t).view.emb (ix2 z q)) = V c main_arg9 (ix2 z q)
  refine congrArg (V c main_arg9) (funext fun a => Fin.ext ?_)
  match a with
  | ⟨0, _⟩ => show win2_8.index t (0 : Fin 2) * 256 + 1 * z.val = z.val; omega
  | ⟨1, _⟩ => show win2_8.index t (1 : Fin 2) * 128 + 1 * q.val = q.val; omega
theorem iblk2_9_apply (c : Dev nD) (t : Fin cfg2.N) (z : Fin 1) (q : Fin 128) :
    (iblk2 V c 9 t : FVec Ideal S1x128 .f32) (ix2 z q) = (V c main_v55 : S1x128.Idx → Elt Ideal .f32) (ix2 z q) := by
  obtain ⟨ea, eb⟩ := idx2_9 t
  show V c main_v55 (((cfg2.win 9).blk t).view.emb (ix2 z q)) = V c main_v55 (ix2 z q)
  refine congrArg (V c main_v55) (funext fun a => Fin.ext ?_)
  match a with
  | ⟨0, _⟩ => show win2_9.index t (0 : Fin 2) * 1 + 1 * z.val = z.val; omega
  | ⟨1, _⟩ => show win2_9.index t (1 : Fin 2) * 128 + 1 * q.val = q.val; omega

/-- An element (p, q) of window 10's block at point `t` sits in the array at row 2000t + p, column q. -/
theorem emb2_10 (t : Fin cfg2.N) (p : Fin 2000) (q : Fin 128) (r : Fin 100000) (hr : r.val = t.val * 2000 + p.val) :
    ((cfg2.win 10).blk t).view.emb (ix2 p q) = (ix2 r q : S100000x128.Idx) := by
  obtain ⟨ea, eb⟩ := idx2_10 t
  refine funext fun a => Fin.ext ?_
  match a with
  | ⟨0, _⟩ => show win2_10.index t (0 : Fin 2) * 2000 + 1 * p.val = r.val; omega
  | ⟨1, _⟩ => show win2_10.index t (1 : Fin 2) * 128 + 1 * q.val = q.val; omega
theorem emb2_11 (t : Fin cfg2.N) (z : Fin 1) (q : Fin 128) :
    ((cfg2.win 11).blk t).view.emb (ix2 z q) = (ix2 z q : S1x128.Idx) := by
  obtain ⟨ea, eb⟩ := idx2_11 t
  refine funext fun a => Fin.ext ?_
  match a with
  | ⟨0, _⟩ => show win2_11.index t (0 : Fin 2) * 1 + 1 * z.val = z.val; omega
  | ⟨1, _⟩ => show win2_11.index t (1 : Fin 2) * 128 + 1 * q.val = q.val; omega
theorem emb2_12 (t : Fin cfg2.N) (z : Fin 1) (q : Fin 128) :
    ((cfg2.win 12).blk t).view.emb (ix2 z q) = (ix2 z q : S1x128.Idx) := by
  obtain ⟨ea, eb⟩ := idx2_12 t
  refine funext fun a => Fin.ext ?_
  match a with
  | ⟨0, _⟩ => show win2_12.index t (0 : Fin 2) * 1 + 1 * z.val = z.val; omega
  | ⟨1, _⟩ => show win2_12.index t (1 : Fin 2) * 128 + 1 * q.val = q.val; omega

/-! ## The stored block is the result's block -/

theorem H1_congr {a0 a1 a2 a3 a4 a5 b0 b1 b2 b3 b4 b5 : EReal} (h0 : a0 = b0) (h1 : a1 = b1) (h2 : a2 = b2) (h3 : a3 = b3) (h4 : a4 = b4) (h5 : a5 = b5) :
    (a0 + a1 - a2) * Ideal.rsqrt (a3 + Ideal.ofBits .f32 0x3727C5AC#32) * a4 + a5 = (b0 + b1 - b2) * Ideal.rsqrt (b3 + Ideal.ofBits .f32 0x3727C5AC#32) * b4 + b5 := by
  subst h0 h1 h2 h3 h4 h5; rfl

theorem H1_blk (c : Dev nD) (t : Fin cfg2.N) (p : Fin 2000) (q : Fin 128) (r : Fin 100000) (hr : r.val = t.val * 2000 + p.val) :
    H1 (iblk2 V c 0 t) (iblk2 V c 1 t) (iblk2 V c 2 t) (iblk2 V c 3 t) (iblk2 V c 4 t) (iblk2 V c 5 t) p q = Gh1 (V c main_arg0) (V c main_v50) (V c main_v51_0) (V c main_v51_1) (V c main_v52) (V c main_v53) r q := by
  unfold H1 Gh1
  exact H1_congr (iblk2_0_apply V c t p q r hr) (iblk2_1_apply V c t p q r hr) (iblk2_2_apply V c t (0 : Fin 1) q) (iblk2_3_apply V c t (0 : Fin 1) q)
    (iblk2_4_apply V c t (0 : Fin 1) q) (iblk2_5_apply V c t (0 : Fin 1) q)

theorem A1_blk (c : Dev nD) (t : Fin cfg2.N) (p : Fin 2000) (k : Fin 256) (r : Fin 100000) (hr : r.val = t.val * 2000 + p.val) :
    A1 (iblk2 V c 0 t) (iblk2 V c 1 t) (iblk2 V c 2 t) (iblk2 V c 3 t) (iblk2 V c 4 t) (iblk2 V c 5 t) (iblk2 V c 6 t) (iblk2 V c 7 t) p k = Ga1 (V c main_arg0) (V c main_v50) (V c main_v51_0) (V c main_v51_1) (V c main_v52) (V c main_v53) (V c main_arg7) (V c main_v54) r k := by
  unfold A1 Ga1
  exact congrArg₂ (fun s b : EReal => max (s + b) (Ideal.ofBits .f32 0x00000000#32))
    (Finset.sum_congr rfl fun l _ => congrArg₂ (fun a b : EReal => a * b) (H1_blk V c t p l r hr) (iblk2_6_apply V c t l k))
    (iblk2_7_apply V c t (0 : Fin 1) k)

/-- Entry (p, q) of the block stored at point `t` is the result's entry at row 2000t + p, column q. -/
theorem out_blk (c : Dev nD) (t : Fin cfg2.N) (p : Fin 2000) (q : Fin 128) (r : Fin 100000) (hr : r.val = t.val * 2000 + p.val) :
    out2_10 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 p q) = Gh2 (V c main_arg0) (V c main_v50) (V c main_v51_0) (V c main_v51_1) (V c main_v52) (V c main_v53) (V c main_arg7) (V c main_v54) (V c main_arg9) (V c main_v55) (ix2 r q) := by
  refine (out2_10_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) p q).trans ?_
  refine Eq.trans ?_ (Gh2_apply (V c main_arg0) (V c main_v50) (V c main_v51_0) (V c main_v51_1) (V c main_v52) (V c main_v53) (V c main_arg7) (V c main_v54) (V c main_arg9) (V c main_v55) r q).symm
  exact congrArg₂ (fun a b : EReal => a + b) (H1_blk V c t p q r hr)
    (congrArg₂ (fun a b : EReal => a + b)
      (Finset.sum_congr rfl fun k _ => congrArg₂ (fun a b : EReal => a * b) (A1_blk V c t p k r hr) (iblk2_8_apply V c t k q))
      (iblk2_9_apply V c t (0 : Fin 1) q))

/-- What point `t` writes back through window 10 is block `t` of the result. -/
theorem flushed2_10_eq (c : Dev nD) (t : Fin cfg2.N) :
    (dat2 V c).flushed 10 t = ((cfg2.win 10).blk t).view.read (Elt Ideal) (Gh2 (V c main_arg0) (V c main_v50) (V c main_v51_0) (V c main_v51_1) (V c main_v52) (V c main_v53) (V c main_arg7) (V c main_v54) (V c main_arg9) (V c main_v55)) := by
  show (cfg2.win 10).cut (grid2.coords t) ((dat2 V c).after 10 t) = _
  rw [after2_10]
  funext y
  obtain ⟨p, q, rfl⟩ : ∃ (p : Fin 2000) (q : Fin 128), y = ix2 p q := ⟨y 0, y 1, eq_ix2 y⟩
  have ht : t.val < 50 := lt_of_lt_of_eq t.isLt N_2
  have hp : p.val < 2000 := p.isLt
  obtain ⟨r, hr⟩ : ∃ r : Fin 100000, r.val = t.val * 2000 + p.val := ⟨⟨t.val * 2000 + p.val, by omega⟩, rfl⟩
  show out2_10 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 p q) = (Gh2 (V c main_arg0) (V c main_v50) (V c main_v51_0) (V c main_v51_1) (V c main_v52) (V c main_v53) (V c main_arg7) (V c main_v54) (V c main_arg9) (V c main_v55)) (((cfg2.win 10).blk t).view.emb (ix2 p q))
  refine (out_blk V c t p q r hr).trans ?_
  exact (congrArg (Gh2 (V c main_arg0) (V c main_v50) (V c main_v51_0) (V c main_v51_1) (V c main_v52) (V c main_v53) (V c main_arg7) (V c main_v54) (V c main_arg9) (V c main_v55)) (emb2_10 t p q r hr)).symm

theorem mem_blk2_10 (t : Fin cfg2.N) (i : S100000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v56_0).slice (win2_10.rect t)).set ↔ _
  rw [View.set_slice_whole, Rect.mem_set_unit]
  exact Iff.rfl

/-- The 50 row blocks tile the result: row r is in the block of point r / 2000. -/
theorem cover2_10 (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 50) N_2.symm⟩, rfl⟩
  refine ⟨t, flush2_10 t, ?_⟩
  rw [mem_blk2_10]
  obtain ⟨ea, eb⟩ := idx2_10 t
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 128 ≤ (i 1).val ∧ (i 1).val < win2_10.index t (1 : Fin 2) * 128 + 128; omega

/-- The [100000,128] array region 2 leaves is the result. -/
theorem final2_10 (c : Dev nD) : (dat2 (F := Ideal) V c).arrAt 10 cfg2.N = (Gh2 (V c main_arg0) (V c main_v50) (V c main_v51_0) (V c main_v51_1) (V c main_v52) (V c main_v53) (V c main_arg7) (V c main_v54) (V c main_arg9) (V c main_v55)) :=
  (dat2 V c).arrAt_eq_of_cover 10 (Gh2 (V c main_arg0) (V c main_v50) (V c main_v51_0) (V c main_v51_1) (V c main_v52) (V c main_v53) (V c main_arg7) (V c main_v54) (V c main_arg9) (V c main_v55)) (fun t _ => flushed2_10_eq V c t) cover2_10

/-! ## The sums carried over the points -/

/-- Block `i`'s column sums of the array `y` at column q (zero past the last block), and of its squares. -/
def cs0 (y : FVec Ideal S100000x128 .f32) (q : Fin 128) (i : ℕ) : EReal :=
  if h : i < 50 then ∑ r : Fin 2000, y (ix2 (row2 ⟨i, h⟩ r) q) else 0
def cs1 (y : FVec Ideal S100000x128 .f32) (q : Fin 128) (i : ℕ) : EReal :=
  if h : i < 50 then ∑ r : Fin 2000, y (ix2 (row2 ⟨i, h⟩ r) q) * y (ix2 (row2 ⟨i, h⟩ r) q) else 0

theorem blk_cs0 (c : Dev nD) (t : Fin cfg2.N) (q : Fin 128) (h : t.val < 50) :
    ∑ r : Fin 2000, out2_10 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 r q) = cs0 (Gh2 (V c main_arg0) (V c main_v50) (V c main_v51_0) (V c main_v51_1) (V c main_v52) (V c main_v53) (V c main_arg7) (V c main_v54) (V c main_arg9) (V c main_v55)) q t.val := by
  unfold cs0; rw [dif_pos h]
  exact Finset.sum_congr rfl fun r _ => out_blk V c t r q (row2 ⟨t.val, h⟩ r) (by show 2000 * t.val + r.val = t.val * 2000 + r.val; omega)

theorem blk_cs1 (c : Dev nD) (t : Fin cfg2.N) (q : Fin 128) (h : t.val < 50) :
    ∑ r : Fin 2000, out2_10 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 r q) * out2_10 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 r q) = cs1 (Gh2 (V c main_arg0) (V c main_v50) (V c main_v51_0) (V c main_v51_1) (V c main_v52) (V c main_v53) (V c main_arg7) (V c main_v54) (V c main_arg9) (V c main_v55)) q t.val := by
  unfold cs1; rw [dif_pos h]
  exact Finset.sum_congr rfl fun r _ => congrArg₂ (fun a b : EReal => a * b)
    (out_blk V c t r q (row2 ⟨t.val, h⟩ r) (by show 2000 * t.val + r.val = t.val * 2000 + r.val; omega))
    (out_blk V c t r q (row2 ⟨t.val, h⟩ r) (by show 2000 * t.val + r.val = t.val * 2000 + r.val; omega))

/-- After position n the scratch rows hold the column sums, and the column sums of squares, of blocks 0 … n of the result. -/
theorem acc2_sum (c : Dev nD) (z : Fin 1) (q : Fin 128) : ∀ (n : ℕ) (hn : n < cfg2.N),
    (acc2 V c n hn).1 (ix2 z q) = ∑ i ∈ Finset.range (n + 1), cs0 (Gh2 (V c main_arg0) (V c main_v50) (V c main_v51_0) (V c main_v51_1) (V c main_v52) (V c main_v53) (V c main_arg7) (V c main_v54) (V c main_arg9) (V c main_v55)) q i
      ∧ (acc2 V c n hn).2 (ix2 z q) = ∑ i ∈ Finset.range (n + 1), cs1 (Gh2 (V c main_arg0) (V c main_v50) (V c main_v51_0) (V c main_v51_1) (V c main_v52) (V c main_v53) (V c main_arg7) (V c main_v54) (V c main_arg9) (V c main_v55)) q i
  | 0, hn => by
    have h50 : (0 : ℕ) < 50 := by omega
    constructor
    · show step2_0 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (zero2_0 (F := Ideal)) (ix2 z q) = _
      rw [Finset.sum_range_one]
      refine (step2_0_apply (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (zero2_0 (F := Ideal)) z q).trans ?_
      refine Eq.trans (congrArg (fun a : EReal => a + _) (payC6_apply z q)) ?_
      rw [zero_add]
      exact blk_cs0 V c ⟨0, hn⟩ q h50
    · show step2_1 (F := Ideal) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (zero2_1 (F := Ideal)) (ix2 z q) = _
      rw [Finset.sum_range_one]
      refine (step2_1_apply (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (zero2_1 (F := Ideal)) z q).trans ?_
      refine Eq.trans (congrArg (fun a : EReal => a + _) (payC7_apply z q)) ?_
      rw [zero_add]
      exact blk_cs1 V c ⟨0, hn⟩ q h50
  | n + 1, hn => by
    obtain ⟨ih0, ih1⟩ := acc2_sum c z q n (Nat.lt_of_succ_lt hn)
    have h50 : n + 1 < 50 := lt_of_lt_of_eq hn N_2
    constructor
    · show step2_0 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (acc2 V c n (Nat.lt_of_succ_lt hn)).1 (ix2 z q) = _
      rw [Finset.sum_range_succ]
      refine (step2_0_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (acc2 V c n (Nat.lt_of_succ_lt hn)).1 z q).trans ?_
      exact congrArg₂ (fun a b : EReal => a + b) ih0 (blk_cs0 V c ⟨n + 1, hn⟩ q h50)
    · show step2_1 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (acc2 V c n (Nat.lt_of_succ_lt hn)).2 (ix2 z q) = _
      rw [Finset.sum_range_succ]
      refine (step2_1_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (acc2 V c n (Nat.lt_of_succ_lt hn)).2 z q).trans ?_
      exact congrArg₂ (fun a b : EReal => a + b) ih1 (blk_cs1 V c ⟨n + 1, hn⟩ q h50)

/-- The sums over all 50 blocks. -/
theorem total_cs0 (y : FVec Ideal S100000x128 .f32) (q : Fin 128) :
    ∑ i ∈ Finset.range 50, cs0 y q i = ∑ t : Fin 50, ∑ r : Fin 2000, y (ix2 (row2 t r) q) := by
  rw [← Fin.sum_univ_eq_sum_range (fun i => cs0 y q i) 50]
  exact Finset.sum_congr rfl fun t _ => by unfold cs0; rw [dif_pos t.isLt]
theorem total_cs1 (y : FVec Ideal S100000x128 .f32) (q : Fin 128) :
    ∑ i ∈ Finset.range 50, cs1 y q i = ∑ t : Fin 50, ∑ r : Fin 2000, y (ix2 (row2 t r) q) * y (ix2 (row2 t r) q) := by
  rw [← Fin.sum_univ_eq_sum_range (fun i => cs1 y q i) 50]
  exact Finset.sum_congr rfl fun t _ => by unfold cs1; rw [dif_pos t.isLt]

theorem acc2_last (c : Dev nD) (t : Fin cfg2.N) (ht : t.val = 49) (z : Fin 1) (q : Fin 128) :
    (acc2 V c t.val t.isLt).1 (ix2 z q) = ∑ t' : Fin 50, ∑ r : Fin 2000, (Gh2 (V c main_arg0) (V c main_v50) (V c main_v51_0) (V c main_v51_1) (V c main_v52) (V c main_v53) (V c main_arg7) (V c main_v54) (V c main_arg9) (V c main_v55)) (ix2 (row2 t' r) q)
      ∧ (acc2 V c t.val t.isLt).2 (ix2 z q) = ∑ t' : Fin 50, ∑ r : Fin 2000, (Gh2 (V c main_arg0) (V c main_v50) (V c main_v51_0) (V c main_v51_1) (V c main_v52) (V c main_v53) (V c main_arg7) (V c main_v54) (V c main_arg9) (V c main_v55)) (ix2 (row2 t' r) q) * (Gh2 (V c main_arg0) (V c main_v50) (V c main_v51_0) (V c main_v51_1) (V c main_v52) (V c main_v53) (V c main_arg7) (V c main_v54) (V c main_arg9) (V c main_v55)) (ix2 (row2 t' r) q) := by
  obtain ⟨h0, h1⟩ := acc2_sum V c z q t.val t.isLt
  have e : t.val + 1 = 50 := by omega
  exact ⟨h0.trans (by rw [e]; exact total_cs0 _ q), h1.trans (by rw [e]; exact total_cs1 _ q)⟩

/-! ## The mean and variance rows -/

theorem flushed2_11_eq (c : Dev nD) (t : Fin cfg2.N) (hf : (cfg2.win 11).flush t = true) :
    (dat2 V c).flushed 11 t = ((cfg2.win 11).blk t).view.read (Elt Ideal) (Gmean2 (Gh2 (V c main_arg0) (V c main_v50) (V c main_v51_0) (V c main_v51_1) (V c main_v52) (V c main_v53) (V c main_arg7) (V c main_v54) (V c main_arg9) (V c main_v55))) := by
  have ht : t.val = 49 := by have h1 := (flush2_11 t).mp hf; have h2 : t.val < 50 := lt_of_lt_of_eq t.isLt N_2; omega
  show (cfg2.win 11).cut (grid2.coords t) ((dat2 V c).after 11 t) = _
  rw [after2_11]
  funext y
  obtain ⟨z, q, rfl⟩ : ∃ (z : Fin 1) (q : Fin 128), y = ix2 z q := ⟨y 0, y 1, eq_ix2 y⟩
  show mean2 (F := Ideal) (acc2 V c t.val t.isLt).1 (ix2 z q) = Gmean2 (Gh2 (V c main_arg0) (V c main_v50) (V c main_v51_0) (V c main_v51_1) (V c main_v52) (V c main_v53) (V c main_arg7) (V c main_v54) (V c main_arg9) (V c main_v55)) (((cfg2.win 11).blk t).view.emb (ix2 z q))
  refine Eq.trans ?_ (congrArg (Gmean2 (Gh2 (V c main_arg0) (V c main_v50) (V c main_v51_0) (V c main_v51_1) (V c main_v52) (V c main_v53) (V c main_arg7) (V c main_v54) (V c main_arg9) (V c main_v55))) (emb2_11 t z q)).symm
  show Ideal.div ((acc2 V c t.val t.isLt).1 (ix2 z q)) (Ideal.ofBits .f32 0x47C35000#32) = Ideal.div (∑ t' : Fin 50, ∑ r : Fin 2000, (Gh2 (V c main_arg0) (V c main_v50) (V c main_v51_0) (V c main_v51_1) (V c main_v52) (V c main_v53) (V c main_arg7) (V c main_v54) (V c main_arg9) (V c main_v55)) (ix2 (row2 t' r) q)) (Ideal.ofBits .f32 0x47C35000#32)
  exact congrArg (fun s : EReal => Ideal.div s (Ideal.ofBits .f32 0x47C35000#32)) (acc2_last V c t ht z q).1

theorem flushed2_12_eq (c : Dev nD) (t : Fin cfg2.N) (hf : (cfg2.win 12).flush t = true) :
    (dat2 V c).flushed 12 t = ((cfg2.win 12).blk t).view.read (Elt Ideal) (Gvar2 (Gh2 (V c main_arg0) (V c main_v50) (V c main_v51_0) (V c main_v51_1) (V c main_v52) (V c main_v53) (V c main_arg7) (V c main_v54) (V c main_arg9) (V c main_v55))) := by
  have ht : t.val = 49 := by have h1 := (flush2_12 t).mp hf; have h2 : t.val < 50 := lt_of_lt_of_eq t.isLt N_2; omega
  show (cfg2.win 12).cut (grid2.coords t) ((dat2 V c).after 12 t) = _
  rw [after2_12]
  funext y
  obtain ⟨z, q, rfl⟩ : ∃ (z : Fin 1) (q : Fin 128), y = ix2 z q := ⟨y 0, y 1, eq_ix2 y⟩
  show var2 (F := Ideal) (acc2 V c t.val t.isLt).1 (acc2 V c t.val t.isLt).2 (ix2 z q) = Gvar2 (Gh2 (V c main_arg0) (V c main_v50) (V c main_v51_0) (V c main_v51_1) (V c main_v52) (V c main_v53) (V c main_arg7) (V c main_v54) (V c main_arg9) (V c main_v55)) (((cfg2.win 12).blk t).view.emb (ix2 z q))
  refine Eq.trans ?_ (congrArg (Gvar2 (Gh2 (V c main_arg0) (V c main_v50) (V c main_v51_0) (V c main_v51_1) (V c main_v52) (V c main_v53) (V c main_arg7) (V c main_v54) (V c main_arg9) (V c main_v55))) (emb2_12 t z q)).symm
  show Ideal.div ((acc2 V c t.val t.isLt).2 (ix2 z q)) (Ideal.ofBits .f32 0x47C35000#32)
      - Ideal.div ((acc2 V c t.val t.isLt).1 (ix2 z q)) (Ideal.ofBits .f32 0x47C35000#32) * Ideal.div ((acc2 V c t.val t.isLt).1 (ix2 z q)) (Ideal.ofBits .f32 0x47C35000#32)
    = Ideal.div (∑ t' : Fin 50, ∑ r : Fin 2000, (Gh2 (V c main_arg0) (V c main_v50) (V c main_v51_0) (V c main_v51_1) (V c main_v52) (V c main_v53) (V c main_arg7) (V c main_v54) (V c main_arg9) (V c main_v55)) (ix2 (row2 t' r) q) * (Gh2 (V c main_arg0) (V c main_v50) (V c main_v51_0) (V c main_v51_1) (V c main_v52) (V c main_v53) (V c main_arg7) (V c main_v54) (V c main_arg9) (V c main_v55)) (ix2 (row2 t' r) q)) (Ideal.ofBits .f32 0x47C35000#32)
      - Ideal.div (∑ t' : Fin 50, ∑ r : Fin 2000, (Gh2 (V c main_arg0) (V c main_v50) (V c main_v51_0) (V c main_v51_1) (V c main_v52) (V c main_v53) (V c main_arg7) (V c main_v54) (V c main_arg9) (V c main_v55)) (ix2 (row2 t' r) q)) (Ideal.ofBits .f32 0x47C35000#32) * Ideal.div (∑ t' : Fin 50, ∑ r : Fin 2000, (Gh2 (V c main_arg0) (V c main_v50) (V c main_v51_0) (V c main_v51_1) (V c main_v52) (V c main_v53) (V c main_arg7) (V c main_v54) (V c main_arg9) (V c main_v55)) (ix2 (row2 t' r) q)) (Ideal.ofBits .f32 0x47C35000#32)
  obtain ⟨h0, h1⟩ := acc2_last V c t ht z q
  rw [h0, h1]

theorem mem_blk2_11 (t : Fin cfg2.N) (i : S1x128.Idx) :
    i ∈ ((cfg2.win 11).blk t).view.set ↔ ∀ a : Fin 2, win2_11.index t a * S1x128.size a ≤ (i a).val ∧ (i a).val < win2_11.index t a * S1x128.size a + S1x128.size a := by
  show i ∈ ((View.whole main_v56_1).slice (win2_11.rect t)).set ↔ _
  rw [View.set_slice_whole, Rect.mem_set_unit]
  exact Iff.rfl

/-- The one block of window 11, written back at the last point, is the whole row. -/
theorem cover2_11 (i : S1x128.Idx) :
    ∃ t : Fin cfg2.N, (cfg2.win 11).flush t = true ∧ i ∈ ((cfg2.win 11).blk t).view.set := by
  have hi0 : (i 0).val < 1 := (i 0).isLt
  have hi1 : (i 1).val < 128 := (i 1).isLt
  obtain ⟨t, ht⟩ : ∃ t : Fin cfg2.N, t.val = 49 := ⟨⟨49, lt_of_lt_of_eq (by omega : 49 < 50) N_2.symm⟩, rfl⟩
  refine ⟨t, (flush2_11 t).mpr (by omega), ?_⟩
  rw [mem_blk2_11]
  obtain ⟨ea, eb⟩ := idx2_11 t
  intro a
  match a with
  | ⟨0, _⟩ => show win2_11.index t (0 : Fin 2) * 1 ≤ (i 0).val ∧ (i 0).val < win2_11.index t (0 : Fin 2) * 1 + 1; omega
  | ⟨1, _⟩ => show win2_11.index t (1 : Fin 2) * 128 ≤ (i 1).val ∧ (i 1).val < win2_11.index t (1 : Fin 2) * 128 + 128; omega

theorem mem_blk2_12 (t : Fin cfg2.N) (i : S1x128.Idx) :
    i ∈ ((cfg2.win 12).blk t).view.set ↔ ∀ a : Fin 2, win2_12.index t a * S1x128.size a ≤ (i a).val ∧ (i a).val < win2_12.index t a * S1x128.size a + S1x128.size a := by
  show i ∈ ((View.whole main_v56_2).slice (win2_12.rect t)).set ↔ _
  rw [View.set_slice_whole, Rect.mem_set_unit]
  exact Iff.rfl

/-- The one block of window 12, written back at the last point, is the whole row. -/
theorem cover2_12 (i : S1x128.Idx) :
    ∃ t : Fin cfg2.N, (cfg2.win 12).flush t = true ∧ i ∈ ((cfg2.win 12).blk t).view.set := by
  have hi0 : (i 0).val < 1 := (i 0).isLt
  have hi1 : (i 1).val < 128 := (i 1).isLt
  obtain ⟨t, ht⟩ : ∃ t : Fin cfg2.N, t.val = 49 := ⟨⟨49, lt_of_lt_of_eq (by omega : 49 < 50) N_2.symm⟩, rfl⟩
  refine ⟨t, (flush2_12 t).mpr (by omega), ?_⟩
  rw [mem_blk2_12]
  obtain ⟨ea, eb⟩ := idx2_12 t
  intro a
  match a with
  | ⟨0, _⟩ => show win2_12.index t (0 : Fin 2) * 1 ≤ (i 0).val ∧ (i 0).val < win2_12.index t (0 : Fin 2) * 1 + 1; omega
  | ⟨1, _⟩ => show win2_12.index t (1 : Fin 2) * 128 ≤ (i 1).val ∧ (i 1).val < win2_12.index t (1 : Fin 2) * 128 + 128; omega

/-- The two [1,128] rows region 2 leaves are the mean and the variance of the result's columns. -/
theorem final2_11 (c : Dev nD) : (dat2 (F := Ideal) V c).arrAt 11 cfg2.N = Gmean2 (Gh2 (V c main_arg0) (V c main_v50) (V c main_v51_0) (V c main_v51_1) (V c main_v52) (V c main_v53) (V c main_arg7) (V c main_v54) (V c main_arg9) (V c main_v55)) :=
  (dat2 V c).arrAt_eq_of_cover 11 (Gmean2 (Gh2 (V c main_arg0) (V c main_v50) (V c main_v51_0) (V c main_v51_1) (V c main_v52) (V c main_v53) (V c main_arg7) (V c main_v54) (V c main_arg9) (V c main_v55))) (fun t hf => flushed2_11_eq V c t hf) cover2_11
theorem final2_12 (c : Dev nD) : (dat2 (F := Ideal) V c).arrAt 12 cfg2.N = Gvar2 (Gh2 (V c main_arg0) (V c main_v50) (V c main_v51_0) (V c main_v51_1) (V c main_v52) (V c main_v53) (V c main_arg7) (V c main_v54) (V c main_arg9) (V c main_v55)) :=
  (dat2 V c).arrAt_eq_of_cover 12 (Gvar2 (Gh2 (V c main_arg0) (V c main_v50) (V c main_v51_0) (V c main_v51_1) (V c main_v52) (V c main_v53) (V c main_arg7) (V c main_v54) (V c main_arg9) (V c main_v55))) (fun t hf => flushed2_12_eq V c t hf) cover2_12

end Cert.KernelIdeal.Fr

end
-- ==== Proof.KI.Val3.lean ====
/- The array region 3 leaves, at the ideal values: every entry of the [100000,128] input normalised by its column's mean and variance, scaled and shifted. Each grid point t writes rows 2000t … 2000t+1999; the 50 row blocks tile the array; the four rows [1,128] are read whole at every point. -/
import proofs.«118182_j89309549953493_1_alg».proof.Proof.KI.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered, at the ideal values
variable (V : (c : Dev nD) → (b : Ref sig .tc) → Buf (Elt Ideal) ((c : Thread nD τ).loc b))

/-! ## The specification -/

/-- Entry (r, j): (h(r, j) − mu(0, j)) · rsqrt(va(0, j) + eps) · g(0, j) + b(0, j), eps the body's literal. -/
def G3 (h : FVec Ideal S100000x128 .f32) (mu va g b : FVec Ideal S1x128 .f32) : FVec Ideal S100000x128 .f32 :=
  fun i => (h i - mu (ix2 (0 : Fin 1) (n1 := 128) (i 1))) * Ideal.rsqrt (va (ix2 (0 : Fin 1) (n1 := 128) (i 1)) + Ideal.ofBits .f32 0x3727C5AC#32)
    * g (ix2 (0 : Fin 1) (n1 := 128) (i 1)) + b (ix2 (0 : Fin 1) (n1 := 128) (i 1))

theorem G3_apply (h : FVec Ideal S100000x128 .f32) (mu va g b : FVec Ideal S1x128 .f32) (r : Fin 100000) (j : Fin 128) :
    G3 h mu va g b (ix2 r j) = (h (ix2 r j) - mu (ix2 (0 : Fin 1) j)) * Ideal.rsqrt (va (ix2 (0 : Fin 1) j) + Ideal.ofBits .f32 0x3727C5AC#32)
      * g (ix2 (0 : Fin 1) j) + b (ix2 (0 : Fin 1) j) := rfl

/-! ## The body's stored value at an index -/

/-- At (p, q): the casts to the same shape are identities, a row laid over the 2000 rows reads its entry at q, and
    the arithmetic is pointwise. The arguments are in the body's order: variance, input block, mean, scale, shift. -/
theorem pay3_apply (x2 : FVec Ideal S1x128 .f32) (x0 : FVec Ideal S2000x128 .f32) (x1 x3 x4 : FVec Ideal S1x128 .f32)
    (p : Fin 2000) (q : Fin 128) :
    k3_pay1 (F := Ideal) x2 x0 x1 x3 x4 (ix2 p q)
      = (x0 (ix2 p q) - x1 (ix2 (0 : Fin 1) q)) * Ideal.rsqrt (x2 (ix2 (0 : Fin 1) q) + Ideal.ofBits .f32 0x3727C5AC#32)
        * x3 (ix2 (0 : Fin 1) q) + x4 (ix2 (0 : Fin 1) q) := by
  have s0 := shapeCast_self x0 shapeCasts_S2000x128_S2000x128
  have s1 := shapeCast_self x1 shapeCasts_S1x128_S1x128
  have s2 := shapeCast_self x2 shapeCasts_S1x128_S1x128
  have s3 := shapeCast_self x3 shapeCasts_S1x128_S1x128
  have s4 := shapeCast_self x4 shapeCasts_S1x128_S1x128
  unfold k3_pay1
  show (shapeCast S2000x128 x0 shapeCasts_S2000x128_S2000x128 (ix2 p q)
        - broadcastTo S2000x128 (shapeCast S1x128 x1 shapeCasts_S1x128_S1x128) broadcasts_S1x128_S2000x128 (ix2 p q))
      * broadcastTo S2000x128 (rsqrt (addf (shapeCast S1x128 x2 shapeCasts_S1x128_S1x128)
          (broadcast S1x128 (Scalar.ofBits .f32 0x3727C5AC#32 : Ideal .f32)))) broadcasts_S1x128_S2000x128 (ix2 p q)
      * broadcastTo S2000x128 (shapeCast S1x128 x3 shapeCasts_S1x128_S1x128) broadcasts_S1x128_S2000x128 (ix2 p q)
      + broadcastTo S2000x128 (shapeCast S1x128 x4 shapeCasts_S1x128_S1x128) broadcasts_S1x128_S2000x128 (ix2 p q) = _
  rw [s0, s1, s2, s3, s4]
  rw [broadcastTo_1b_ab_apply (a := 2000) (b := 128) x1 broadcasts_S1x128_S2000x128 p q,
    broadcastTo_1b_ab_apply (a := 2000) (b := 128) x3 broadcasts_S1x128_S2000x128 p q,
    broadcastTo_1b_ab_apply (a := 2000) (b := 128) x4 broadcasts_S1x128_S2000x128 p q,
    broadcastTo_1b_ab_apply (a := 2000) (b := 128) (rsqrt (addf x2 (broadcast S1x128 (Scalar.ofBits .f32 0x3727C5AC#32 : Ideal .f32)))) broadcasts_S1x128_S2000x128 p q]
  rfl

/-! ## From blocks to the array -/

theorem hz3 : (![0, 0] : Fin 2 → Nat) = fun _ => 0 := funext fun a => by fin_cases a <;> rfl

/-- The index maps over the grid: windows 0 and 5 are at row block `t`, windows 1 to 4 stay at their one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point `t` is rows 2000t … 2000t+1999 of the input. -/
theorem iblk3_0_apply (c : Dev nD) (t : Fin cfg3.N) (p : Fin 2000) (q : Fin 128) (r : Fin 100000)
    (hr : r.val = t.val * 2000 + p.val) :
    (iblk3 V c 0 t : FVec Ideal S2000x128 .f32) (ix2 p q) = (V c main_v56_0 : S100000x128.Idx → Elt Ideal .f32) (ix2 r q) := by
  obtain ⟨e0, e1, -⟩ := idx_facts3 t
  show V c main_v56_0 (((cfg3.win 0).blk t).view.emb (ix2 p q)) = V c main_v56_0 (ix2 r q)
  refine congrArg (V c main_v56_0) (funext fun a => Fin.ext ?_)
  match a with
  | ⟨0, _⟩ => show win3_0.index t (0 : Fin 2) * 2000 + 1 * p.val = r.val; omega
  | ⟨1, _⟩ => show win3_0.index t (1 : Fin 2) * 128 + 1 * q.val = q.val; omega

/-- Windows 1 to 4's blocks at every point are their whole rows. -/
theorem iblk3_1_apply (c : Dev nD) (t : Fin cfg3.N) (z : Fin 1) (q : Fin 128) :
    (iblk3 V c 1 t : FVec Ideal S1x128 .f32) (ix2 z q) = (V c main_v56_1 : S1x128.Idx → Elt Ideal .f32) (ix2 z q) := by
  have hf := idx_facts3 t
  have ea : win3_1.index t (0 : Fin 2) = 0 := hf.2.2.1
  have eb : win3_1.index t (1 : Fin 2) = 0 := hf.2.2.2.1
  show V c main_v56_1 (((cfg3.win 1).blk t).view.emb (ix2 z q)) = V c main_v56_1 (ix2 z q)
  refine congrArg (V c main_v56_1) (funext fun a => Fin.ext ?_)
  match a with
  | ⟨0, _⟩ => show win3_1.index t (0 : Fin 2) * 1 + 1 * z.val = z.val; omega
  | ⟨1, _⟩ => show win3_1.index t (1 : Fin 2) * 128 + 1 * q.val = q.val; omega

theorem iblk3_2_apply (c : Dev nD) (t : Fin cfg3.N) (z : Fin 1) (q : Fin 128) :
    (iblk3 V c 2 t : FVec Ideal S1x128 .f32) (ix2 z q) = (V c main_v56_2 : S1x128.Idx → Elt Ideal .f32) (ix2 z q) := by
  have hf := idx_facts3 t
  have ea : win3_2.index t (0 : Fin 2) = 0 := hf.2.2.2.2.1
  have eb : win3_2.index t (1 : Fin 2) = 0 := hf.2.2.2.2.2.1
  show V c main_v56_2 (((cfg3.win 2).blk t).view.emb (ix2 z q)) = V c main_v56_2 (ix2 z q)
  refine congrArg (V c main_v56_2) (funext fun a => Fin.ext ?_)
  match a with
  | ⟨0, _⟩ => show win3_2.index t (0 : Fin 2) * 1 + 1 * z.val = z.val; omega
  | ⟨1, _⟩ => show win3_2.index t (1 : Fin 2) * 128 + 1 * q.val = q.val; omega

theorem iblk3_3_apply (c : Dev nD) (t : Fin cfg3.N) (z : Fin 1) (q : Fin 128) :
    (iblk3 V c 3 t : FVec Ideal S1x128 .f32) (ix2 z q) = (V c main_v57 : S1x128.Idx → Elt Ideal .f32) (ix2 z q) := by
  have hf := idx_facts3 t
  have ea : win3_3.index t (0 : Fin 2) = 0 := hf.2.2.2.2.2.2.1
  have eb : win3_3.index t (1 : Fin 2) = 0 := hf.2.2.2.2.2.2.2.1
  show V c main_v57 (((cfg3.win 3).blk t).view.emb (ix2 z q)) = V c main_v57 (ix2 z q)
  refine congrArg (V c main_v57) (funext fun a => Fin.ext ?_)
  match a with
  | ⟨0, _⟩ => show win3_3.index t (0 : Fin 2) * 1 + 1 * z.val = z.val; omega
  | ⟨1, _⟩ => show win3_3.index t (1 : Fin 2) * 128 + 1 * q.val = q.val; omega

theorem iblk3_4_apply (c : Dev nD) (t : Fin cfg3.N) (z : Fin 1) (q : Fin 128) :
    (iblk3 V c 4 t : FVec Ideal S1x128 .f32) (ix2 z q) = (V c main_v58 : S1x128.Idx → Elt Ideal .f32) (ix2 z q) := by
  have hf := idx_facts3 t
  have ea : win3_4.index t (0 : Fin 2) = 0 := hf.2.2.2.2.2.2.2.2.1
  have eb : win3_4.index t (1 : Fin 2) = 0 := hf.2.2.2.2.2.2.2.2.2.1
  show V c main_v58 (((cfg3.win 4).blk t).view.emb (ix2 z q)) = V c main_v58 (ix2 z q)
  refine congrArg (V c main_v58) (funext fun a => Fin.ext ?_)
  match a with
  | ⟨0, _⟩ => show win3_4.index t (0 : Fin 2) * 1 + 1 * z.val = z.val; omega
  | ⟨1, _⟩ => show win3_4.index t (1 : Fin 2) * 128 + 1 * q.val = q.val; omega

/-- An element (p, q) of the output's block at point `t` sits in the array at row 2000t + p, column q. -/
theorem emb3_5 (t : Fin cfg3.N) (p : Fin 2000) (q : Fin 128) (r : Fin 100000) (hr : r.val = t.val * 2000 + p.val) :
    ((cfg3.win 5).blk t).view.emb (ix2 p q) = (ix2 r q : S100000x128.Idx) := by
  have hf := idx_facts3 t
  have e10 : win3_5.index t (0 : Fin 2) = t.val := hf.2.2.2.2.2.2.2.2.2.2.1
  have e11 : win3_5.index t (1 : Fin 2) = 0 := hf.2.2.2.2.2.2.2.2.2.2.2
  refine funext fun a => Fin.ext ?_
  match a with
  | ⟨0, _⟩ => show win3_5.index t (0 : Fin 2) * 2000 + 1 * p.val = r.val; omega
  | ⟨1, _⟩ => show win3_5.index t (1 : Fin 2) * 128 + 1 * q.val = q.val; omega

/-- What point `t` writes back is block `t` of `G3` of the five arrays as the region finds them. -/
theorem flushed3_eq (c : Dev nD) (t : Fin cfg3.N) :
    (dat3 V c).flushed 5 t = ((cfg3.win 5).blk t).view.read (Elt Ideal)
      (G3 (V c main_v56_0) (V c main_v56_1) (V c main_v56_2) (V c main_v57) (V c main_v58)) := by
  show (cfg3.win 5).cut (grid3.coords t) ((dat3 V c).after 5 t) = _
  rw [after3_5]
  unfold out3_5
  rw [View.canon_unit_zero hz3]
  simp only [View.ld_unit_zero (S := S2000x128) hz3, View.ld_unit_zero (S := S1x128) hz3]
  funext y
  obtain ⟨p, q, rfl⟩ : ∃ (p : Fin 2000) (q : Fin 128), y = ix2 p q := ⟨y 0, y 1, eq_ix2 y⟩
  have ht : t.val < 50 := lt_of_lt_of_eq t.isLt N_3
  have hp : p.val < 2000 := p.isLt
  obtain ⟨r, hr⟩ : ∃ r : Fin 100000, r.val = t.val * 2000 + p.val := ⟨⟨t.val * 2000 + p.val, by omega⟩, rfl⟩
  show k3_pay1 (F := Ideal) (iblk3 V c 2 t) (iblk3 V c 0 t) (iblk3 V c 1 t) (iblk3 V c 3 t) (iblk3 V c 4 t) (ix2 p q)
    = G3 (V c main_v56_0) (V c main_v56_1) (V c main_v56_2) (V c main_v57) (V c main_v58) (((cfg3.win 5).blk t).view.emb (ix2 p q))
  refine (pay3_apply (iblk3 V c 2 t) (iblk3 V c 0 t) (iblk3 V c 1 t) (iblk3 V c 3 t) (iblk3 V c 4 t) p q).trans ?_
  refine Eq.trans ?_ (congrArg (G3 (V c main_v56_0) (V c main_v56_1) (V c main_v56_2) (V c main_v57) (V c main_v58)) (emb3_5 t p q r hr)).symm
  refine Eq.trans ?_ (G3_apply (V c main_v56_0) (V c main_v56_1) (V c main_v56_2) (V c main_v57) (V c main_v58) r q).symm
  rw [iblk3_0_apply V c t p q r hr, iblk3_1_apply V c t 0 q, iblk3_2_apply V c t 0 q, iblk3_3_apply V c t 0 q, iblk3_4_apply V c t 0 q]

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v59).slice (win3_5.rect t)).set ↔ _
  rw [View.set_slice_whole, Rect.mem_set_unit]
  exact Iff.rfl

/-- The 50 row blocks tile the array: row r is in the block of point r / 2000. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, lt_of_lt_of_eq (by omega : (i 0).val / 2000 < 50) N_3.symm⟩, rfl⟩
  refine ⟨t, flush3_5 t, ?_⟩
  rw [mem_blk3]
  have hf := idx_facts3 t
  have e10 : win3_5.index t (0 : Fin 2) = t.val := hf.2.2.2.2.2.2.2.2.2.2.1
  have e11 : win3_5.index t (1 : Fin 2) = 0 := hf.2.2.2.2.2.2.2.2.2.2.2
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The array region 3 leaves is `G3` of the five arrays as the region finds them. -/
theorem final3 (c : Dev nD) : (dat3 (F := Ideal) V c).arrAt 5 cfg3.N
    = G3 (V c main_v56_0) (V c main_v56_1) (V c main_v56_2) (V c main_v57) (V c main_v58) :=
  (dat3 V c).arrAt_eq_of_cover 5 (G3 (V c main_v56_0) (V c main_v56_1) (V c main_v56_2) (V c main_v57) (V c main_v58))
    (fun t _ => flushed3_eq V c t) cover3

end Cert.KernelIdeal.Fr

end
-- ==== Proof.RefDefs.lean ====
import proofs.«118182_j89309549953493_1_alg».proof.Defs
import proofs.«118182_j89309549953493_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The reference's stages, as pure functions of the argument arrays

Each definition below is the value one statement of the reference computes, written over explicit
arrays; `out` is their composition, the value the program returns. -/

/-- Edge sources (row 0 of the edge index) followed by the self loops `0 … 99999`: the value of %3. -/
def srcIdx (a1 : IVec S2x1600000 32) : IVec S1700000 32 :=
  concatenate S1700000 0
    [⟨S1600000, shapeCast S1600000 (extractStridedSlice S1x1600000 ![0, 0] a1 slices_S2x1600000_S1x1600000_0_0) shapeCasts_S1x1600000_S1600000⟩,
     ⟨S100000, iotaInDim S100000 32 0⟩] concatenates_S1600000_S100000_S1700000_d0

/-- Edge targets (row 1 of the edge index) followed by the self loops: the value of %6. -/
def dstIdx (a1 : IVec S2x1600000 32) : IVec S1700000 32 :=
  concatenate S1700000 0
    [⟨S1600000, shapeCast S1600000 (extractStridedSlice S1x1600000 ![1, 0] a1 slices_S2x1600000_S1x1600000_1_0) shapeCasts_S1x1600000_S1600000⟩,
     ⟨S100000, iotaInDim S100000 32 0⟩] concatenates_S1600000_S100000_S1700000_d0

/-- Edge weights followed by weight one for every self loop: the value of %8. -/
def ew (a2 : FVec F S1600000 .f32) : FVec F S1700000 .f32 :=
  concatenate S1700000 0
    [⟨S1600000, a2⟩, ⟨S100000, broadcastInDim S100000 ![] bcast_S_S100000 (constant (F := F) S_ .f32 0x3F800000#32)⟩]
    concatenates_S1600000_S100000_S1700000_d0

/-- Weighted in-degree of every node: the edge weights summed at their targets (the value of %11). -/
def deg (a1 : IVec S2x1600000 32) (a2 : FVec F S1600000 .f32) : FVec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (dstIdx a1)) (ew a2)

/-- `deg ^ (-1/2)` where the degree is positive, zero elsewhere (the value of %17). -/
def dinv (a1 : IVec S2x1600000 32) (a2 : FVec F S1600000 .f32) : FVec F S100000 .f32 :=
  select (cmpf .ogt (deg a1 a2) (broadcastInDim S100000 ![] bcast_S_S100000 (constant (F := F) S_ .f32 0x00000000#32)))
    (Host.rsqrt (maximumf (deg a1 a2) (broadcastInDim S100000 ![] bcast_S_S100000 (constant (F := F) S_ .f32 0x2B8CBCCC#32))))
    (broadcastInDim S100000 ![] bcast_S_S100000 (constant (F := F) S_ .f32 0x00000000#32))

/-- A negative index counted from the end of an axis of length 100000 (the pattern of %19 … %22). -/
def wrap (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- A gather's index column from an index vector, negative indices wrapped. -/
def rowOf (s : IVec S1700000 32) : IVec S1700000x1 32 :=
  broadcastInDim S1700000x1 ![0] bcast_S1700000_S1700000x1_0 (wrap s)

/-- A scatter's index column from an index vector. -/
def colOf (d : IVec S1700000 32) : IVec S1700000x1 32 :=
  broadcastInDim S1700000x1 ![0] bcast_S1700000_S1700000x1_0 d

/-- The per-edge normalisation `dinv[src] * w * dinv[dst]`: the value of %33. -/
def normE (a1 : IVec S2x1600000 32) (a2 : FVec F S1600000 .f32) : FVec F S1700000 .f32 :=
  mulf (mulf (Host.gather gather_S100000_S1700000x1_S1700000_n_0_n_n_0_1_1 (dinv a1 a2) (rowOf (srcIdx a1))) (ew a2))
    (Host.gather gather_S100000_S1700000x1_S1700000_n_0_n_n_0_1_1 (dinv a1 a2) (rowOf (dstIdx a1)))

/-- The gather's index column for the messages: the value of %41. -/
def rowIdx (a1 : IVec S2x1600000 32) : IVec S1700000x1 32 := rowOf (srcIdx a1)

/-- The scatter's index column for the aggregation: the value of %46. -/
def colIdx (a1 : IVec S2x1600000 32) : IVec S1700000x1 32 := colOf (dstIdx a1)

/-- The node features times the convolution's weight: the value of %34. -/
def xw (a0 : FVec F S100000x128 .f32) (a3 : FVec F S128x128 .f32) : FVec F S100000x128 .f32 :=
  Host.dotGeneral dot_S100000x128_S128x128_S100000x128_1_0_0_1_n_n none a0 a3

/-- The rows of `y` at `row`, scaled edge by edge by `ne`, summed at `col`: the value of %47 from those of
    %34, %33, %41 and %46. -/
def scat (y : FVec F S100000x128 .f32) (ne : FVec F S1700000 .f32) (row col : IVec S1700000x1 32) : FVec F S100000x128 .f32 :=
  Host.scatterAdd scatter_S100000x128_S1700000x1_S1700000x128_1_0_0_1
    (broadcastInDim S100000x128 ![] bcast_S_S100000x128 (constant (F := F) S_ .f32 0x00000000#32)) col
    (mulf (broadcastInDim S1700000x128 ![0, 1] bcast_S1700000x1_S1700000x128_0_1
            (broadcastInDim S1700000x1 ![0] bcast_S1700000_S1700000x1_0 ne))
      (Host.gather gather_S100000x128_S1700000x1_S1700000x128_1_0_n_n_0_1_1128 y row))

/-- A vector of 128 features repeated on every node. -/
def rowBcast (v : FVec F S128 .f32) : FVec F S100000x128 .f32 :=
  broadcastInDim S100000x128 ![0, 1] bcast_S1x128_S100000x128_0_1 (broadcastInDim S1x128 ![1] bcast_S128_S1x128_1 v)

/-- The aggregated messages plus the bias: the value of %50, as a function of any `y` in place of %34. -/
def aggOf (y : FVec F S100000x128 .f32) (a1 : IVec S2x1600000 32) (a2 : FVec F S1600000 .f32) (a4 : FVec F S128 .f32) :
    FVec F S100000x128 .f32 :=
  addf (scat y (normE a1 a2) (rowIdx a1) (colIdx a1)) (rowBcast a4)

/-- The residual sum: the value of %51. -/
def hOf (a0 agg : FVec F S100000x128 .f32) : FVec F S100000x128 .f32 := addf a0 agg

/-- The mean over the nodes of each feature: the value of %54 (of %83) from that of %51 (of %80). -/
def mean (h : FVec F S100000x128 .f32) : FVec F S128 .f32 :=
  Host.divf (Host.reduceAdd h (constant (F := F) S_ .f32 0x00000000#32) reducesTo_S100000x128_S128_d0 h_S_)
    (broadcastInDim S128 ![] bcast_S_S128 (constant (F := F) S_ .f32 0x47C35000#32))

/-- The variance's divisor: the node count less the (zero) degrees of freedom removed. -/
def ddof : FVec F S_ .f32 :=
  subf (constant (F := F) S_ .f32 0x47C35000#32) (sitofp .f32 (constantI S_ 32 0#32))

/-- `h` less its per-feature mean, as the variance computes it. -/
def centered (h : FVec F S100000x128 .f32) : FVec F S100000x128 .f32 :=
  subf h (broadcastInDim S100000x128 ![0, 1] bcast_S1x128_S100000x128_0_1
    (Host.divf (broadcastInDim S1x128 ![1] bcast_S128_S1x128_1
        (Host.reduceAdd h (constant (F := F) S_ .f32 0x00000000#32) reducesTo_S100000x128_S128_d0 h_S_))
      (broadcastInDim S1x128 ![] bcast_S_S1x128 (constant (F := F) S_ .f32 0x47C35000#32))))

/-- The variance over the nodes of each feature, not-a-number where the divisor is not positive: the value of
    %55 (of %84) from that of %51 (of %80). -/
def var (h : FVec F S100000x128 .f32) : FVec F S128 .f32 :=
  select (broadcastInDim S128 ![] bcast_S_S128 (cmpf .ogt (ddof (F := F)) (constant (F := F) S_ .f32 0x00000000#32)))
    (Host.divf (Host.reduceAdd (mulf (centered h) (centered h)) (constant (F := F) S_ .f32 0x00000000#32) reducesTo_S100000x128_S128_d0 h_S_)
      (broadcastInDim S128 ![] bcast_S_S128 (ddof (F := F))))
    (broadcastInDim S128 ![] bcast_S_S128 (constant (F := F) S_ .f32 0x7FC00000#32))

/-- Batch normalisation of `h` with mean `mu`, variance `va`, scale `g` and shift `b`: the value of %70 from those of
    %51, %54, %55 and arguments 5 and 6 (of %99 from those of %80, %83, %84 and arguments 11 and 12). -/
def bn (h : FVec F S100000x128 .f32) (mu va g b : FVec F S128 .f32) : FVec F S100000x128 .f32 :=
  addf (mulf (mulf (subf h (rowBcast mu))
        (rowBcast (Host.rsqrt (addf va (broadcastInDim S128 ![] bcast_S_S128 (constant (F := F) S_ .f32 0x3727C5AC#32))))))
      (rowBcast g))
    (rowBcast b)

/-- The feed-forward block with its residual sum: the value of %80 from that of %70. -/
def ffn (h1 : FVec F S100000x128 .f32) (a7 : FVec F S128x256 .f32) (a8 : FVec F S256 .f32) (a9 : FVec F S256x128 .f32)
    (a10 : FVec F S128 .f32) : FVec F S100000x128 .f32 :=
  addf h1 (addf (Host.dotGeneral dot_S100000x256_S256x128_S100000x128_1_0_0_1_n_n none
      (maximumf (addf (Host.dotGeneral dot_S100000x128_S128x256_S100000x256_1_0_0_1_n_n none h1 a7)
          (broadcastInDim S100000x256 ![0, 1] bcast_S1x256_S100000x256_0_1 (broadcastInDim S1x256 ![1] bcast_S256_S1x256_1 a8)))
        (broadcastInDim S100000x256 ![] bcast_S_S100000x256 (constant (F := F) S_ .f32 0x00000000#32))) a9)
    (rowBcast a10))

/-- Batch normalisation of `h` by its own mean and variance. -/
def bnOf (h : FVec F S100000x128 .f32) (g b : FVec F S128 .f32) : FVec F S100000x128 .f32 :=
  bn h (mean h) (var h) g b

/-- What the reference returns (the value of %99), from its thirteen arguments. -/
def out (a0 : FVec F S100000x128 .f32) (a1 : IVec S2x1600000 32) (a2 : FVec F S1600000 .f32) (a3 : FVec F S128x128 .f32)
    (a4 a5 a6 : FVec F S128 .f32) (a7 : FVec F S128x256 .f32) (a8 : FVec F S256 .f32) (a9 : FVec F S256x128 .f32)
    (a10 a11 a12 : FVec F S128 .f32) : FVec F S100000x128 .f32 :=
  bnOf (ffn (bnOf (hOf a0 (aggOf (xw a0 a3) a1 a2 a4)) a5 a6) a7 a8 a9 a10) a11 a12

end Cert.ReferenceIdeal.RefValue

end
-- ==== Proof.KI.OutK.lean ====
import proofs.«118182_j89309549953493_1_alg».proof.Proof.KI.Val0
import proofs.«118182_j89309549953493_1_alg».proof.Proof.KI.Val1
import proofs.«118182_j89309549953493_1_alg».proof.Proof.KI.Val2
import proofs.«118182_j89309549953493_1_alg».proof.Proof.KI.Val3
import proofs.«118182_j89309549953493_1_alg».proof.Proof.RefDefs

/-!
# What the kernel's program returns, as one function of its arguments

The result is region 3's normalisation of what region 2 leaves (the feed-forward block's output and its column means and
variances); region 2 works on the arguments, the aggregated messages of the host stretch before region 1 and region 1's
column means and variances; the aggregation is taken over region 0's product of the features with the convolution's weight.
-/

noncomputable section

namespace Cert.KernelIdeal.Fr

open Idealize.ShloMosaic
open Cert.KernelIdeal Cert.KernelIdeal.Gen
open Cert.ReferenceIdeal.RefValue (srcIdx dstIdx normE scat)

/-- The aggregated messages plus the bias, over any product `y` of the features with the convolution's weight: what the
    host stretch before region 1 computes (the bias reshaped to a row and repeated on every node). -/
def aggK (y : FVec Ideal S100000x128 .f32) (a1 : IVec S2x1600000 32) (a2 : FVec Ideal S1600000 .f32) (a4 : FVec Ideal S128 .f32) :
    FVec Ideal S100000x128 .f32 :=
  addf (scat y (normE a1 a2) (Cert.ReferenceIdeal.RefValue.rowOf (srcIdx a1)) (Cert.ReferenceIdeal.RefValue.colOf (dstIdx a1)))
    (broadcastInDim S100000x128 ![0, 1] bcast_S1x128_S100000x128_0_1 (shapeCast S1x128 a4 shapeCasts_S128_S1x128))

/-- The feed-forward block's output as region 2 computes it from the arguments. -/
def h2K (a0 : FVec Ideal S100000x128 .f32) (a1 : IVec S2x1600000 32) (a2 : FVec Ideal S1600000 .f32) (a3 : FVec Ideal S128x128 .f32)
    (a4 a5 a6 : FVec Ideal S128 .f32) (a7 : FVec Ideal S128x256 .f32) (a8 : FVec Ideal S256 .f32) (a9 : FVec Ideal S256x128 .f32)
    (a10 : FVec Ideal S128 .f32) : FVec Ideal S100000x128 .f32 :=
  Gh2 a0 (aggK (G0 a0 a3) a1 a2 a4) (Gmean a0 (aggK (G0 a0 a3) a1 a2 a4)) (Gvar a0 (aggK (G0 a0 a3) a1 a2 a4))
    (shapeCast S1x128 a5 shapeCasts_S128_S1x128) (shapeCast S1x128 a6 shapeCasts_S128_S1x128) a7
    (shapeCast S1x256 a8 shapeCasts_S256_S1x256) a9 (shapeCast S1x128 a10 shapeCasts_S128_S1x128)
/-- Its column means, -/
def mu2K (a0 : FVec Ideal S100000x128 .f32) (a1 : IVec S2x1600000 32) (a2 : FVec Ideal S1600000 .f32) (a3 : FVec Ideal S128x128 .f32)
    (a4 a5 a6 : FVec Ideal S128 .f32) (a7 : FVec Ideal S128x256 .f32) (a8 : FVec Ideal S256 .f32) (a9 : FVec Ideal S256x128 .f32)
    (a10 : FVec Ideal S128 .f32) : FVec Ideal S1x128 .f32 :=
  Gmean2 (h2K a0 a1 a2 a3 a4 a5 a6 a7 a8 a9 a10)
/-- and its column variances. -/
def va2K (a0 : FVec Ideal S100000x128 .f32) (a1 : IVec S2x1600000 32) (a2 : FVec Ideal S1600000 .f32) (a3 : FVec Ideal S128x128 .f32)
    (a4 a5 a6 : FVec Ideal S128 .f32) (a7 : FVec Ideal S128x256 .f32) (a8 : FVec Ideal S256 .f32) (a9 : FVec Ideal S256x128 .f32)
    (a10 : FVec Ideal S128 .f32) : FVec Ideal S1x128 .f32 :=
  Gvar2 (h2K a0 a1 a2 a3 a4 a5 a6 a7 a8 a9 a10)

/-- WHAT THE KERNEL'S PROGRAM RETURNS, from its thirteen arguments. -/
def outK (a0 : FVec Ideal S100000x128 .f32) (a1 : IVec S2x1600000 32) (a2 : FVec Ideal S1600000 .f32) (a3 : FVec Ideal S128x128 .f32)
    (a4 a5 a6 : FVec Ideal S128 .f32) (a7 : FVec Ideal S128x256 .f32) (a8 : FVec Ideal S256 .f32) (a9 : FVec Ideal S256x128 .f32)
    (a10 a11 a12 : FVec Ideal S128 .f32) : FVec Ideal S100000x128 .f32 :=
  G3 (h2K a0 a1 a2 a3 a4 a5 a6 a7 a8 a9 a10) (mu2K a0 a1 a2 a3 a4 a5 a6 a7 a8 a9 a10) (va2K a0 a1 a2 a3 a4 a5 a6 a7 a8 a9 a10)
    (shapeCast S1x128 a11 shapeCasts_S128_S1x128) (shapeCast S1x128 a12 shapeCasts_S128_S1x128)

end Cert.KernelIdeal.Fr

end
-- ==== Proof.HostVal.lean ====
import proofs.«118182_j89309549953493_1_alg».proof.Proof.Gen.KernelIdeal.Launch
import proofs.«118182_j89309549953493_1_alg».proof.Proof.RefDefs
import Idealize.ShloMosaic.Lib.StableHlo.Run

/-!
# The host operations of the kernel's program, read as values

Between its four regions the kernel's program runs the same host operations as the reference: the weighted degree and its
inverse square root, the per-edge normalisation, the aggregation of the messages over the edges with the bias added, and
the reshapes of the per-feature parameters to rows. Each lemma reads one result buffer after a stretch of host operations
as the reference's stage function of the contents the stretch was entered with.
-/

noncomputable section

namespace Cert.KernelIdeal.HostVal

open Cert.KernelIdeal Cert.KernelIdeal.Gen Idealize.ShloMosaic Idealize.ShloMosaic.TcCoe Idealize.SL.Sem Idealize.ShloMosaic.StableHlo
open Cert.ReferenceIdeal.RefValue (srcIdx dstIdx ew deg dinv wrap rowOf colOf normE rowIdx colIdx scat rowBcast)

variable {F : FTy → Type} [FloatOps F]

/-- After the first three stretches: the edge sources with the self loops appended, -/
theorem v3_eq (W : Valuation τ sig (Elt F)) :
    (StableHlo.after hostOps0_2 (StableHlo.after hostOps0_1 (StableHlo.after hostOps0 W)) (Proc.devRef .tc main_v3) : IVec S1700000 32)
      = srcIdx (W (Proc.devRef .tc main_arg1)) := by
  after_results_simp
  rfl

/-- the edge targets with the self loops appended, -/
theorem v6_eq (W : Valuation τ sig (Elt F)) :
    (StableHlo.after hostOps0_2 (StableHlo.after hostOps0_1 (StableHlo.after hostOps0 W)) (Proc.devRef .tc main_v6) : IVec S1700000 32)
      = dstIdx (W (Proc.devRef .tc main_arg1)) := by
  after_results_simp
  rfl

/-- and the per-edge normalisation. -/
theorem v33_eq (W : Valuation τ sig (Elt F)) :
    (StableHlo.after hostOps0_2 (StableHlo.after hostOps0_1 (StableHlo.after hostOps0 W)) (Proc.devRef .tc main_v33) : FVec F S1700000 .f32)
      = normE (W (Proc.devRef .tc main_arg1)) (W (Proc.devRef .tc main_arg2)) := by
  after_results_simp
  rfl

/-- After the fourth stretch: the messages aggregated over the edges, plus the bias as a row. -/
theorem v50_eq (W : Valuation τ sig (Elt F)) :
    (StableHlo.after hostOps1 W (Proc.devRef .tc main_v50) : FVec F S100000x128 .f32)
      = addf (scat (W (Proc.devRef .tc main_v34)) (W (Proc.devRef .tc main_v33)) (rowOf (W (Proc.devRef .tc main_v3)))
            (colOf (W (Proc.devRef .tc main_v6))))
          (broadcastInDim S100000x128 ![0, 1] bcast_S1x128_S100000x128_0_1
            (shapeCast S1x128 (W (Proc.devRef .tc main_arg4)) shapeCasts_S128_S1x128)) := by
  after_results_simp
  rfl

/-- The reshapes before region 2: each per-feature parameter as a row. -/
theorem v52_eq (W : Valuation τ sig (Elt F)) :
    (StableHlo.after hostOps2 W (Proc.devRef .tc main_v52) : FVec F S1x128 .f32)
      = shapeCast S1x128 (W (Proc.devRef .tc main_arg5)) shapeCasts_S128_S1x128 := by
  after_results_simp
  rfl
theorem v53_eq (W : Valuation τ sig (Elt F)) :
    (StableHlo.after hostOps2 W (Proc.devRef .tc main_v53) : FVec F S1x128 .f32)
      = shapeCast S1x128 (W (Proc.devRef .tc main_arg6)) shapeCasts_S128_S1x128 := by
  after_results_simp
  rfl
theorem v54_eq (W : Valuation τ sig (Elt F)) :
    (StableHlo.after hostOps2 W (Proc.devRef .tc main_v54) : FVec F S1x256 .f32)
      = shapeCast S1x256 (W (Proc.devRef .tc main_arg8)) shapeCasts_S256_S1x256 := by
  after_results_simp
  rfl
theorem v55_eq (W : Valuation τ sig (Elt F)) :
    (StableHlo.after hostOps2 W (Proc.devRef .tc main_v55) : FVec F S1x128 .f32)
      = shapeCast S1x128 (W (Proc.devRef .tc main_arg10)) shapeCasts_S128_S1x128 := by
  after_results_simp
  rfl

/-- The reshapes before region 3. -/
theorem v57_eq (W : Valuation τ sig (Elt F)) :
    (StableHlo.after hostOps3 W (Proc.devRef .tc main_v57) : FVec F S1x128 .f32)
      = shapeCast S1x128 (W (Proc.devRef .tc main_arg11)) shapeCasts_S128_S1x128 := by
  after_results_simp
  rfl
theorem v58_eq (W : Valuation τ sig (Elt F)) :
    (StableHlo.after hostOps3 W (Proc.devRef .tc main_v58) : FVec F S1x128 .f32)
      = shapeCast S1x128 (W (Proc.devRef .tc main_arg12)) shapeCasts_S128_S1x128 := by
  after_results_simp
  rfl

end Cert.KernelIdeal.HostVal

end
-- ==== Proof.KI.Chain.lean ====
import proofs.«118182_j89309549953493_1_alg».proof.Proof.KI.Run
import proofs.«118182_j89309549953493_1_alg».proof.Proof.KI.OutK
import proofs.«118182_j89309549953493_1_alg».proof.Proof.HostVal

/-!
# The kernel's run returns `outK` of the arguments

The run's boundary contents read back from the last region to the launch: each region's output arrays are its value
module's functions of the contents it was entered with; those contents are the launch's (a buffer nothing has written yet),
an earlier region's outputs, or a host stretch's results.
-/

set_option maxRecDepth 16384

noncomputable section

namespace Cert.KernelIdeal.Fr

open Idealize.ShloMosaic Idealize.ShloMosaic.TcCoe Idealize.SL.Sem
open Cert.KernelIdeal Cert.KernelIdeal.Gen
open Cert.ReferenceIdeal.RefValue (srcIdx dstIdx normE scat)

variable (m : (ℓ : Loc nD τ sig) → Buf (Elt Ideal) ℓ) (ρ : Dev nD → PrngReg)

/-- Region 0 leaves the product of the features with the convolution's weight. -/
theorem W4_v34 (c : Dev nD) :
    (W4 m ρ c (Proc.devRef .tc main_v34) : FVec Ideal S100000x128 .f32)
      = G0 (m ((c : Thread nD τ).loc main_arg0)) (m ((c : Thread nD τ).loc main_arg3)) := by
  refine (W4_arr m ρ c 2).trans ((final0 (V3 m ρ) c).trans ?_)
  show G0 (W3 m ρ c (Proc.devRef .tc main_arg0)) (W3 m ρ c (Proc.devRef .tc main_arg3)) = _
  rw [W3_of m ρ c main_arg0 (by decide) (by decide) (by decide), W3_of m ρ c main_arg3 (by decide) (by decide) (by decide)]

/-- Region 1 is entered with the aggregated messages plus the bias. -/
theorem W5_v50 (c : Dev nD) :
    (W5 m ρ c (Proc.devRef .tc main_v50) : FVec Ideal S100000x128 .f32)
      = aggK (G0 (m ((c : Thread nD τ).loc main_arg0)) (m ((c : Thread nD τ).loc main_arg3)))
          (m ((c : Thread nD τ).loc main_arg1)) (m ((c : Thread nD τ).loc main_arg2)) (m ((c : Thread nD τ).loc main_arg4)) := by
  refine (HostVal.v50_eq (W4 m ρ c)).trans ?_
  rw [W4_v34 m ρ c, W4_of m ρ c main_arg4 (by decide) (by decide) (by decide) (by decide),
    W4_keep m ρ c main_v33 (by decide), W4_keep m ρ c main_v3 (by decide), W4_keep m ρ c main_v6 (by decide)]
  rw [show W3 m ρ c (Proc.devRef .tc main_v33) = _ from HostVal.v33_eq (W0 m ρ c),
    show W3 m ρ c (Proc.devRef .tc main_v3) = _ from HostVal.v3_eq (W0 m ρ c),
    show W3 m ρ c (Proc.devRef .tc main_v6) = _ from HostVal.v6_eq (W0 m ρ c)]
  rfl

/-- Region 1 leaves the column means and variances of the residual sum. -/
theorem W6_v51_0 (c : Dev nD) :
    (W6 m ρ c (Proc.devRef .tc main_v51_0) : FVec Ideal S1x128 .f32) = Gmean (m ((c : Thread nD τ).loc main_arg0)) (aggK (G0 (m ((c : Thread nD τ).loc main_arg0)) (m ((c : Thread nD τ).loc main_arg3))) (m ((c : Thread nD τ).loc main_arg1)) (m ((c : Thread nD τ).loc main_arg2)) (m ((c : Thread nD τ).loc main_arg4))) := by
  refine (W6_arr m ρ c 2).trans ((final1_2 (V5 m ρ) c).trans ?_)
  show Gmean (W5 m ρ c (Proc.devRef .tc main_arg0)) (W5 m ρ c (Proc.devRef .tc main_v50)) = _
  rw [W5_of m ρ c main_arg0 (by decide) (by decide) (by decide) (by decide) (by decide), W5_v50 m ρ c]
theorem W6_v51_1 (c : Dev nD) :
    (W6 m ρ c (Proc.devRef .tc main_v51_1) : FVec Ideal S1x128 .f32) = Gvar (m ((c : Thread nD τ).loc main_arg0)) (aggK (G0 (m ((c : Thread nD τ).loc main_arg0)) (m ((c : Thread nD τ).loc main_arg3))) (m ((c : Thread nD τ).loc main_arg1)) (m ((c : Thread nD τ).loc main_arg2)) (m ((c : Thread nD τ).loc main_arg4))) := by
  refine (W6_arr m ρ c 3).trans ((final1_3 (V5 m ρ) c).trans ?_)
  show Gvar (W5 m ρ c (Proc.devRef .tc main_arg0)) (W5 m ρ c (Proc.devRef .tc main_v50)) = _
  rw [W5_of m ρ c main_arg0 (by decide) (by decide) (by decide) (by decide) (by decide), W5_v50 m ρ c]

/-! Region 2's entry contents. -/

theorem W7_v50 (c : Dev nD) : (W7 m ρ c (Proc.devRef .tc main_v50) : FVec Ideal S100000x128 .f32) = (aggK (G0 (m ((c : Thread nD τ).loc main_arg0)) (m ((c : Thread nD τ).loc main_arg3))) (m ((c : Thread nD τ).loc main_arg1)) (m ((c : Thread nD τ).loc main_arg2)) (m ((c : Thread nD τ).loc main_arg4))) :=
  (StableHlo.after_of_writes_sub hostOps2 _ hostOps2_writes (by decide)).trans <|
    (W6_keep m ρ c main_v50 (by decide)).trans (W5_v50 m ρ c)
theorem W7_v51_0 (c : Dev nD) : (W7 m ρ c (Proc.devRef .tc main_v51_0) : FVec Ideal S1x128 .f32) = Gmean (m ((c : Thread nD τ).loc main_arg0)) (aggK (G0 (m ((c : Thread nD τ).loc main_arg0)) (m ((c : Thread nD τ).loc main_arg3))) (m ((c : Thread nD τ).loc main_arg1)) (m ((c : Thread nD τ).loc main_arg2)) (m ((c : Thread nD τ).loc main_arg4))) :=
  (StableHlo.after_of_writes_sub hostOps2 _ hostOps2_writes (by decide)).trans (W6_v51_0 m ρ c)
theorem W7_v51_1 (c : Dev nD) : (W7 m ρ c (Proc.devRef .tc main_v51_1) : FVec Ideal S1x128 .f32) = Gvar (m ((c : Thread nD τ).loc main_arg0)) (aggK (G0 (m ((c : Thread nD τ).loc main_arg0)) (m ((c : Thread nD τ).loc main_arg3))) (m ((c : Thread nD τ).loc main_arg1)) (m ((c : Thread nD τ).loc main_arg2)) (m ((c : Thread nD τ).loc main_arg4))) :=
  (StableHlo.after_of_writes_sub hostOps2 _ hostOps2_writes (by decide)).trans (W6_v51_1 m ρ c)
theorem W7_v52 (c : Dev nD) : (W7 m ρ c (Proc.devRef .tc main_v52) : FVec Ideal S1x128 .f32)
    = shapeCast S1x128 (m ((c : Thread nD τ).loc main_arg5)) shapeCasts_S128_S1x128 := by
  refine (HostVal.v52_eq (W6 m ρ c)).trans ?_
  rw [W6_of m ρ c main_arg5 (by decide) (by decide) (by decide) (by decide) (by decide) (by decide)]
theorem W7_v53 (c : Dev nD) : (W7 m ρ c (Proc.devRef .tc main_v53) : FVec Ideal S1x128 .f32)
    = shapeCast S1x128 (m ((c : Thread nD τ).loc main_arg6)) shapeCasts_S128_S1x128 := by
  refine (HostVal.v53_eq (W6 m ρ c)).trans ?_
  rw [W6_of m ρ c main_arg6 (by decide) (by decide) (by decide) (by decide) (by decide) (by decide)]
theorem W7_v54 (c : Dev nD) : (W7 m ρ c (Proc.devRef .tc main_v54) : FVec Ideal S1x256 .f32)
    = shapeCast S1x256 (m ((c : Thread nD τ).loc main_arg8)) shapeCasts_S256_S1x256 := by
  refine (HostVal.v54_eq (W6 m ρ c)).trans ?_
  rw [W6_of m ρ c main_arg8 (by decide) (by decide) (by decide) (by decide) (by decide) (by decide)]
theorem W7_v55 (c : Dev nD) : (W7 m ρ c (Proc.devRef .tc main_v55) : FVec Ideal S1x128 .f32)
    = shapeCast S1x128 (m ((c : Thread nD τ).loc main_arg10)) shapeCasts_S128_S1x128 := by
  refine (HostVal.v55_eq (W6 m ρ c)).trans ?_
  rw [W6_of m ρ c main_arg10 (by decide) (by decide) (by decide) (by decide) (by decide) (by decide)]

/-- Region 2 leaves the feed-forward block's output, -/
theorem W8_v56_0 (c : Dev nD) : (W8 m ρ c (Proc.devRef .tc main_v56_0) : FVec Ideal S100000x128 .f32)
    = h2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 10).trans ((final2_10 (V7 m ρ) c).trans ?_)
  show Gh2 (W7 m ρ c (Proc.devRef .tc main_arg0)) (W7 m ρ c (Proc.devRef .tc main_v50)) (W7 m ρ c (Proc.devRef .tc main_v51_0))
    (W7 m ρ c (Proc.devRef .tc main_v51_1)) (W7 m ρ c (Proc.devRef .tc main_v52)) (W7 m ρ c (Proc.devRef .tc main_v53))
    (W7 m ρ c (Proc.devRef .tc main_arg7)) (W7 m ρ c (Proc.devRef .tc main_v54)) (W7 m ρ c (Proc.devRef .tc main_arg9))
    (W7 m ρ c (Proc.devRef .tc main_v55)) = _
  rw [W7_of m ρ c main_arg0 (by decide) (by decide) (by decide) (by decide) (by decide) (by decide) (by decide), W7_of m ρ c main_arg7 (by decide) (by decide) (by decide) (by decide) (by decide) (by decide) (by decide), W7_of m ρ c main_arg9 (by decide) (by decide) (by decide) (by decide) (by decide) (by decide) (by decide),
    W7_v50 m ρ c, W7_v51_0 m ρ c, W7_v51_1 m ρ c, W7_v52 m ρ c, W7_v53 m ρ c, W7_v54 m ρ c, W7_v55 m ρ c]
  rfl
/-- its column means, -/
theorem W8_v56_1 (c : Dev nD) : (W8 m ρ c (Proc.devRef .tc main_v56_1) : FVec Ideal S1x128 .f32)
    = mu2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 11).trans ((final2_11 (V7 m ρ) c).trans ?_)
  show Gmean2 (Gh2 (W7 m ρ c (Proc.devRef .tc main_arg0)) (W7 m ρ c (Proc.devRef .tc main_v50)) (W7 m ρ c (Proc.devRef .tc main_v51_0))
    (W7 m ρ c (Proc.devRef .tc main_v51_1)) (W7 m ρ c (Proc.devRef .tc main_v52)) (W7 m ρ c (Proc.devRef .tc main_v53))
    (W7 m ρ c (Proc.devRef .tc main_arg7)) (W7 m ρ c (Proc.devRef .tc main_v54)) (W7 m ρ c (Proc.devRef .tc main_arg9))
    (W7 m ρ c (Proc.devRef .tc main_v55))) = _
  rw [W7_of m ρ c main_arg0 (by decide) (by decide) (by decide) (by decide) (by decide) (by decide) (by decide), W7_of m ρ c main_arg7 (by decide) (by decide) (by decide) (by decide) (by decide) (by decide) (by decide), W7_of m ρ c main_arg9 (by decide) (by decide) (by decide) (by decide) (by decide) (by decide) (by decide),
    W7_v50 m ρ c, W7_v51_0 m ρ c, W7_v51_1 m ρ c, W7_v52 m ρ c, W7_v53 m ρ c, W7_v54 m ρ c, W7_v55 m ρ c]
  rfl
/-- and its column variances. -/
theorem W8_v56_2 (c : Dev nD) : (W8 m ρ c (Proc.devRef .tc main_v56_2) : FVec Ideal S1x128 .f32)
    = va2K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 12).trans ((final2_12 (V7 m ρ) c).trans ?_)
  show Gvar2 (Gh2 (W7 m ρ c (Proc.devRef .tc main_arg0)) (W7 m ρ c (Proc.devRef .tc main_v50)) (W7 m ρ c (Proc.devRef .tc main_v51_0))
    (W7 m ρ c (Proc.devRef .tc main_v51_1)) (W7 m ρ c (Proc.devRef .tc main_v52)) (W7 m ρ c (Proc.devRef .tc main_v53))
    (W7 m ρ c (Proc.devRef .tc main_arg7)) (W7 m ρ c (Proc.devRef .tc main_v54)) (W7 m ρ c (Proc.devRef .tc main_arg9))
    (W7 m ρ c (Proc.devRef .tc main_v55))) = _
  rw [W7_of m ρ c main_arg0 (by decide) (by decide) (by decide) (by decide) (by decide) (by decide) (by decide), W7_of m ρ c main_arg7 (by decide) (by decide) (by decide) (by decide) (by decide) (by decide) (by decide), W7_of m ρ c main_arg9 (by decide) (by decide) (by decide) (by decide) (by decide) (by decide) (by decide),
    W7_v50 m ρ c, W7_v51_0 m ρ c, W7_v51_1 m ρ c, W7_v52 m ρ c, W7_v53 m ρ c, W7_v54 m ρ c, W7_v55 m ρ c]
  rfl

/-- THE KERNEL'S RESULT: region 3's write-backs leave `outK` of the arguments. -/
theorem kernel_value (c : Dev nD) :
    ((dat3 (V9 m ρ) c).arrAt 5 cfg3.N : FVec Ideal S100000x128 .f32)
      = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (final3 (V9 m ρ) c).trans ?_
  show G3 (W9 m ρ c (Proc.devRef .tc main_v56_0)) (W9 m ρ c (Proc.devRef .tc main_v56_1)) (W9 m ρ c (Proc.devRef .tc main_v56_2))
    (W9 m ρ c (Proc.devRef .tc main_v57)) (W9 m ρ c (Proc.devRef .tc main_v58)) = _
  rw [show W9 m ρ c (Proc.devRef .tc main_v56_0) = W8 m ρ c (Proc.devRef .tc main_v56_0) from
      StableHlo.after_of_writes_sub hostOps3 _ hostOps3_writes (by decide),
    show W9 m ρ c (Proc.devRef .tc main_v56_1) = W8 m ρ c (Proc.devRef .tc main_v56_1) from
      StableHlo.after_of_writes_sub hostOps3 _ hostOps3_writes (by decide),
    show W9 m ρ c (Proc.devRef .tc main_v56_2) = W8 m ρ c (Proc.devRef .tc main_v56_2) from
      StableHlo.after_of_writes_sub hostOps3 _ hostOps3_writes (by decide),
    show (W9 m ρ c (Proc.devRef .tc main_v57) : FVec Ideal S1x128 .f32) = _ from HostVal.v57_eq (W8 m ρ c),
    show (W9 m ρ c (Proc.devRef .tc main_v58) : FVec Ideal S1x128 .f32) = _ from HostVal.v58_eq (W8 m ρ c),
    W8_of m ρ c main_arg11 (by decide) (by decide) (by decide) (by decide) (by decide) (by decide) (by decide) (by decide), W8_of m ρ c main_arg12 (by decide) (by decide) (by decide) (by decide) (by decide) (by decide) (by decide) (by decide),
    W8_v56_0 m ρ c, W8_v56_1 m ρ c, W8_v56_2 m ρ c]
  rfl

end Cert.KernelIdeal.Fr

end
-- ==== Proof.RefRun.lean ====
/-
  The reference's run, by hand. The reference is a host program of 121 statements with four calls of outlined functions; here it is
  written as the list of its 166 host operations (the calls unfolded over their buffer records), the program is shown equal to
  that list run in order, and the contents of the result buffer after the list are computed stage by stage: they are `out`
  (RefDefs.lean) of the thirteen arguments' launch contents, the arguments themselves unchanged.
-/
import proofs.«118182_j89309549953493_1_alg».proof.Defs
import proofs.«118182_j89309549953493_1_alg».proof.Proof.Gen.ReferenceIdeal
import proofs.«118182_j89309549953493_1_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The program as lists of host operations

@main's 166 operations in order, the four calls unfolded at their sites over the calls' buffer records, in eight
consecutive stretches: each stretch computes one stage of the reference from the stages before it. -/

/-- Statements %0 … %33: the index vectors, the degrees and the per-edge normalisation (the call of `_where` unfolded). -/
abbrev opsA : List (HloOp τ sig (Elt F)) :=
  [ nullary main_v0 (iotaInDim S100000 32 0),
    unary main_arg1 main_v1 (extractStridedSlice S1x1600000 ![0, 0] · slices_S2x1600000_S1x1600000_0_0),
    reshape main_v1 main_v2 rfl shapeCasts_S1x1600000_S1600000,
    binary main_v2 main_v0 main_v3 (fun a b => concatenate S1700000 0 [⟨S1600000, a⟩, ⟨S100000, b⟩] concatenates_S1600000_S100000_S1700000_d0),
    unary main_arg1 main_v4 (extractStridedSlice S1x1600000 ![1, 0] · slices_S2x1600000_S1x1600000_1_0),
    reshape main_v4 main_v5 rfl shapeCasts_S1x1600000_S1600000,
    binary main_v5 main_v0 main_v6 (fun a b => concatenate S1700000 0 [⟨S1600000, a⟩, ⟨S100000, b⟩] concatenates_S1600000_S100000_S1700000_d0),
    nullary main_cst (constant S_ .f32 0x3F800000#32),
    unary main_cst main_v7 (broadcastInDim S100000 ![] bcast_S_S100000),
    binary main_arg2 main_v7 main_v8 (fun a b => concatenate S1700000 0 [⟨S1600000, a⟩, ⟨S100000, b⟩] concatenates_S1600000_S100000_S1700000_d0),
    nullary main_cst_0 (constant S_ .f32 0x00000000#32),
    unary main_cst_0 main_v9 (broadcastInDim S100000 ![] bcast_S_S100000),
    unary main_v6 main_v10 (broadcastInDim S1700000x1 ![0] bcast_S1700000_S1700000x1_0),
    ternary main_v9 main_v10 main_v8 main_v11 (fun x i u => Host.scatterAdd scatter_S100000_S1700000x1_S1700000_n_0_0_1 x i u),
    nullary main_cst_1 (constant S_ .f32 0x00000000#32),
    unary main_cst_1 main_v12 (broadcastInDim S100000 ![] bcast_S_S100000),
    binary main_v11 main_v12 main_v13 (cmpf .ogt),
    nullary main_cst_2 (constant S_ .f32 0x2B8CBCCC#32),
    unary main_cst_2 main_v14 (broadcastInDim S100000 ![] bcast_S_S100000),
    binary main_v11 main_v14 main_v15 maximumf,
    unary main_v15 main_v16 Host.rsqrt,
    nullary main_cst_3 (constant S_ .f32 0x00000000#32),
    TRef.unary (.of main_cst_3 : TRef sig ⟨S_, .f32⟩) main_call0.v0 id,
    TRef.unary main_call0.v0 main_call0.v1 (broadcastInDim S100000 ![] bcast_S_S100000),
    TRef.ternary (.of main_v13 : TRef sig ⟨S100000, .i1⟩) (.of main_v16 : TRef sig ⟨S100000, .f32⟩) main_call0.v1 main_call0.v2 select,
    nullary main_c (constantI S_ 32 0#32),
    unary main_c main_v18 (broadcastInDim S1700000 ![] bcast_S_S1700000),
    binary main_v3 main_v18 main_v19 (cmpi .slt),
    nullary main_c_4 (constantI S_ 32 100000#32),
    unary main_c_4 main_v20 (broadcastInDim S1700000 ![] bcast_S_S1700000),
    binary main_v3 main_v20 main_v21 addi,
    ternary main_v19 main_v21 main_v3 main_v22 select,
    unary main_v22 main_v23 (broadcastInDim S1700000x1 ![0] bcast_S1700000_S1700000x1_0),
    binary main_v17 main_v23 main_v24 (fun x i => Host.gather gather_S100000_S1700000x1_S1700000_n_0_n_n_0_1_1 x i),
    binary main_v24 main_v8 main_v25 mulf,
    nullary main_c_5 (constantI S_ 32 0#32),
    unary main_c_5 main_v26 (broadcastInDim S1700000 ![] bcast_S_S1700000),
    binary main_v6 main_v26 main_v27 (cmpi .slt),
    nullary main_c_6 (constantI S_ 32 100000#32),
    unary main_c_6 main_v28 (broadcastInDim S1700000 ![] bcast_S_S1700000),
    binary main_v6 main_v28 main_v29 addi,
    ternary main_v27 main_v29 main_v6 main_v30 select,
    unary main_v30 main_v31 (broadcastInDim S1700000x1 ![0] bcast_S1700000_S1700000x1_0),
    binary main_v17 main_v31 main_v32 (fun x i => Host.gather gather_S100000_S1700000x1_S1700000_n_0_n_n_0_1_1 x i),
    binary main_v25 main_v32 main_v33 mulf ]

/-- Statements %34 … %47: the feature product, the messages and their sum at the targets. -/
abbrev opsB : List (HloOp τ sig (Elt F)) :=
  [ binary main_arg0 main_arg3 main_v34 (fun l r => Host.dotGeneral dot_S100000x128_S128x128_S100000x128_1_0_0_1_n_n none l r),
    unary main_v33 main_v35 (broadcastInDim S1700000x1 ![0] bcast_S1700000_S1700000x1_0),
    nullary main_c_7 (constantI S_ 32 0#32),
    unary main_c_7 main_v36 (broadcastInDim S1700000 ![] bcast_S_S1700000),
    binary main_v3 main_v36 main_v37 (cmpi .slt),
    nullary main_c_8 (constantI S_ 32 100000#32),
    unary main_c_8 main_v38 (broadcastInDim S1700000 ![] bcast_S_S1700000),
    binary main_v3 main_v38 main_v39 addi,
    ternary main_v37 main_v39 main_v3 main_v40 select,
    unary main_v40 main_v41 (broadcastInDim S1700000x1 ![0] bcast_S1700000_S1700000x1_0),
    binary main_v34 main_v41 main_v42 (fun x i => Host.gather gather_S100000x128_S1700000x1_S1700000x128_1_0_n_n_0_1_1128 x i),
    unary main_v35 main_v43 (broadcastInDim S1700000x128 ![0, 1] bcast_S1700000x1_S1700000x128_0_1),
    binary main_v43 main_v42 main_v44 mulf,
    nullary main_cst_9 (constant S_ .f32 0x00000000#32),
    unary main_cst_9 main_v45 (broadcastInDim S100000x128 ![] bcast_S_S100000x128),
    unary main_v6 main_v46 (broadcastInDim S1700000x1 ![0] bcast_S1700000_S1700000x1_0),
    ternary main_v45 main_v46 main_v44 main_v47 (fun x i u => Host.scatterAdd scatter_S100000x128_S1700000x1_S1700000x128_1_0_0_1 x i u) ]

/-- Statements %48 … %51: the bias and the residual sum. -/
abbrev opsC1 : List (HloOp τ sig (Elt F)) :=
  [ unary main_arg4 main_v48 (broadcastInDim S1x128 ![1] bcast_S128_S1x128_1),
    unary main_v48 main_v49 (broadcastInDim S100000x128 ![0, 1] bcast_S1x128_S100000x128_0_1),
    binary main_v47 main_v49 main_v50 addf,
    binary main_arg0 main_v50 main_v51 addf ]

/-- Statements %52 … %55: the mean and the variance of %51 (the call of `_var` and, in it, of `_where_0` unfolded). -/
abbrev opsC2 : List (HloOp τ sig (Elt F)) :=
  [ nullary main_cst_10 (constant S_ .f32 0x00000000#32),
    binary main_v51 main_cst_10 main_v52 (fun x v => Host.reduceAdd x v reducesTo_S100000x128_S128_d0 h_S_),
    nullary main_cst_11 (constant S_ .f32 0x47C35000#32),
    unary main_cst_11 main_v53 (broadcastInDim S128 ![] bcast_S_S128),
    binary main_v52 main_v53 main_v54 Host.divf,
    nullary main_c_12 (constantI S_ 32 0#32),
    TRef.nullary main_call1.cst (constant S_ .f32 0x00000000#32),
    TRef.binary (.of main_v51 : TRef sig ⟨S100000x128, .f32⟩) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v51 : TRef sig ⟨S100000x128, .f32⟩) main_call1.v4 main_call1.v5 subf,
    TRef.binary main_call1.v5 main_call1.v5 main_call1.v6 mulf,
    TRef.unary (.of main_c_12 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- Statements %56 … %70: the first batch normalisation. -/
abbrev opsD : List (HloOp τ sig (Elt F)) :=
  [
    unary main_v54 main_v56 (broadcastInDim S1x128 ![1] bcast_S128_S1x128_1),
    unary main_v56 main_v57 (broadcastInDim S100000x128 ![0, 1] bcast_S1x128_S100000x128_0_1),
    binary main_v51 main_v57 main_v58 subf,
    nullary main_cst_13 (constant S_ .f32 0x3727C5AC#32),
    unary main_cst_13 main_v59 (broadcastInDim S128 ![] bcast_S_S128),
    binary main_v55 main_v59 main_v60 addf,
    unary main_v60 main_v61 Host.rsqrt,
    unary main_v61 main_v62 (broadcastInDim S1x128 ![1] bcast_S128_S1x128_1),
    unary main_v62 main_v63 (broadcastInDim S100000x128 ![0, 1] bcast_S1x128_S100000x128_0_1),
    binary main_v58 main_v63 main_v64 mulf,
    unary main_arg5 main_v65 (broadcastInDim S1x128 ![1] bcast_S128_S1x128_1),
    unary main_v65 main_v66 (broadcastInDim S100000x128 ![0, 1] bcast_S1x128_S100000x128_0_1),
    binary main_v64 main_v66 main_v67 mulf,
    unary main_arg6 main_v68 (broadcastInDim S1x128 ![1] bcast_S128_S1x128_1),
    unary main_v68 main_v69 (broadcastInDim S100000x128 ![0, 1] bcast_S1x128_S100000x128_0_1),
    binary main_v67 main_v69 main_v70 addf ]

/-- Statements %71 … %80: the feed-forward block (the call of `relu` unfolded) and its residual sum. -/
abbrev opsE : List (HloOp τ sig (Elt F)) :=
  [ binary main_v70 main_arg7 main_v71 (fun l r => Host.dotGeneral dot_S100000x128_S128x256_S100000x256_1_0_0_1_n_n none l r),
    unary main_arg8 main_v72 (broadcastInDim S1x256 ![1] bcast_S256_S1x256_1),
    unary main_v72 main_v73 (broadcastInDim S100000x256 ![0, 1] bcast_S1x256_S100000x256_0_1),
    binary main_v71 main_v73 main_v74 addf,
    TRef.nullary main_call2.cst (constant S_ .f32 0x00000000#32),
    TRef.unary main_call2.cst main_call2.v0 (broadcastInDim S100000x256 ![] bcast_S_S100000x256),
    TRef.binary (.of main_v74 : TRef sig ⟨S100000x256, .f32⟩) main_call2.v0 main_call2.v1 maximumf,
    binary main_v75 main_arg9 main_v76 (fun l r => Host.dotGeneral dot_S100000x256_S256x128_S100000x128_1_0_0_1_n_n none l r),
    unary main_arg10 main_v77 (broadcastInDim S1x128 ![1] bcast_S128_S1x128_1),
    unary main_v77 main_v78 (broadcastInDim S100000x128 ![0, 1] bcast_S1x128_S100000x128_0_1),
    binary main_v76 main_v78 main_v79 addf,
    binary main_v70 main_v79 main_v80 addf ]

/-- Statements %81 … %84: the mean and the variance of %80 (the second call of `_var` unfolded). -/
abbrev opsF : List (HloOp τ sig (Elt F)) :=
  [ nullary main_cst_14 (constant S_ .f32 0x00000000#32),
    binary main_v80 main_cst_14 main_v81 (fun x v => Host.reduceAdd x v reducesTo_S100000x128_S128_d0 h_S_),
    nullary main_cst_15 (constant S_ .f32 0x47C35000#32),
    unary main_cst_15 main_v82 (broadcastInDim S128 ![] bcast_S_S128),
    binary main_v81 main_v82 main_v83 Host.divf,
    nullary main_c_16 (constantI S_ 32 0#32),
    TRef.nullary main_call3.cst (constant S_ .f32 0x00000000#32),
    TRef.binary (.of main_v80 : TRef sig ⟨S100000x128, .f32⟩) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v80 : TRef sig ⟨S100000x128, .f32⟩) main_call3.v4 main_call3.v5 subf,
    TRef.binary main_call3.v5 main_call3.v5 main_call3.v6 mulf,
    TRef.unary (.of main_c_16 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b) ]

/-- Statements %85 … %99: the second batch normalisation. -/
abbrev opsG : List (HloOp τ sig (Elt F)) :=
  [
    unary main_v83 main_v85 (broadcastInDim S1x128 ![1] bcast_S128_S1x128_1),
    unary main_v85 main_v86 (broadcastInDim S100000x128 ![0, 1] bcast_S1x128_S100000x128_0_1),
    binary main_v80 main_v86 main_v87 subf,
    nullary main_cst_17 (constant S_ .f32 0x3727C5AC#32),
    unary main_cst_17 main_v88 (broadcastInDim S128 ![] bcast_S_S128),
    binary main_v84 main_v88 main_v89 addf,
    unary main_v89 main_v90 Host.rsqrt,
    unary main_v90 main_v91 (broadcastInDim S1x128 ![1] bcast_S128_S1x128_1),
    unary main_v91 main_v92 (broadcastInDim S100000x128 ![0, 1] bcast_S1x128_S100000x128_0_1),
    binary main_v87 main_v92 main_v93 mulf,
    unary main_arg11 main_v94 (broadcastInDim S1x128 ![1] bcast_S128_S1x128_1),
    unary main_v94 main_v95 (broadcastInDim S100000x128 ![0, 1] bcast_S1x128_S100000x128_0_1),
    binary main_v93 main_v95 main_v96 mulf,
    unary main_arg12 main_v97 (broadcastInDim S1x128 ![1] bcast_S128_S1x128_1),
    unary main_v97 main_v98 (broadcastInDim S100000x128 ![0, 1] bcast_S1x128_S100000x128_0_1),
    binary main_v96 main_v98 main_v99 addf ]

/-- @main's first window. -/
abbrev ops0 : List (HloOp τ sig (Elt F)) := opsA ++ opsB
/-- @main's second window. -/
abbrev ops1 : List (HloOp τ sig (Elt F)) := opsC1 ++ (opsC2 ++ (opsD ++ (opsE ++ (opsF ++ opsG))))
/-- @main's third window: the return alone. -/
abbrev ops2 : List (HloOp τ sig (Elt F)) := []
/-- @main's 166 operations, in order. -/
abbrev ops : List (HloOp τ sig (Elt F)) := ops0 ++ (ops1 ++ ops2)

/-! ## The program is its operations, run in order -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

theorem main_part2_eq (c : Dev nD) : main_part2 (F := F) c = seq ops2 := rfl

theorem main_eq (c : Dev nD) : main (F := F) c = seq ops := by
  show _ = seq (ops0 ++ (ops1 ++ ops2))
  rw [seq_append ops0 (ops1 ++ ops2), seq_append ops1 ops2, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## What each stretch writes, and leaves alone -/

/-- The buffers that statements %0 … %33 write. -/
abbrev opsA_W : List (Ref sig .tc) :=
  [main_v0, main_v1, main_v2, main_v3, main_v4, main_v5, main_v6, main_cst, main_v7, main_v8, main_cst_0, main_v9, main_v10, main_v11, main_cst_1, main_v12, main_v13, main_cst_2, main_v14, main_v15, main_v16, main_cst_3, main_call0_v0, main_call0_v1, main_v17, main_c, main_v18, main_v19, main_c_4, main_v20, main_v21, main_v22, main_v23, main_v24, main_v25, main_c_5, main_v26, main_v27, main_c_6, main_v28, main_v29, main_v30, main_v31, main_v32, main_v33]
set_option maxRecDepth 8192 in
theorem opsA_writes : (opsA : List (HloOp τ sig (Elt F))).Forall fun op =>
    op.writes ⊆ (opsA_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))
/-- A buffer that statements %0 … %33 do not write keeps its contents through them. -/
theorem keepA (V : Valuation τ sig (Elt F)) (r : Ref sig .tc) (h : r ∉ opsA_W) :
    after opsA V (no_index (Proc.devRef .tc r)) = V (Proc.devRef .tc r) :=
  after_of_writes_sub opsA V opsA_writes h
set_option maxRecDepth 8192 in
theorem opsA_sub : (opsA : List (HloOp τ sig (Elt F))).Forall fun op => op.bufs ⊆ tcRefs τ sig := by
  simp only [List.Forall, nullary_bufs_sub, unary_bufs_sub, binary_bufs_sub, ternary_bufs_sub, reshape_bufs_sub, and_self]

/-- The buffers that statements %34 … %47 write. -/
abbrev opsB_W : List (Ref sig .tc) :=
  [main_v34, main_v35, main_c_7, main_v36, main_v37, main_c_8, main_v38, main_v39, main_v40, main_v41, main_v42, main_v43, main_v44, main_cst_9, main_v45, main_v46, main_v47]
set_option maxRecDepth 8192 in
theorem opsB_writes : (opsB : List (HloOp τ sig (Elt F))).Forall fun op =>
    op.writes ⊆ (opsB_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))
/-- A buffer that statements %34 … %47 do not write keeps its contents through them. -/
theorem keepB (V : Valuation τ sig (Elt F)) (r : Ref sig .tc) (h : r ∉ opsB_W) :
    after opsB V (no_index (Proc.devRef .tc r)) = V (Proc.devRef .tc r) :=
  after_of_writes_sub opsB V opsB_writes h
set_option maxRecDepth 8192 in
theorem opsB_sub : (opsB : List (HloOp τ sig (Elt F))).Forall fun op => op.bufs ⊆ tcRefs τ sig := by
  simp only [List.Forall, nullary_bufs_sub, unary_bufs_sub, binary_bufs_sub, ternary_bufs_sub, reshape_bufs_sub, and_self]

/-- The buffers that statements %48 … %51 write. -/
abbrev opsC1_W : List (Ref sig .tc) :=
  [main_v48, main_v49, main_v50, main_v51]
set_option maxRecDepth 8192 in
theorem opsC1_writes : (opsC1 : List (HloOp τ sig (Elt F))).Forall fun op =>
    op.writes ⊆ (opsC1_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))
/-- A buffer that statements %48 … %51 do not write keeps its contents through them. -/
theorem keepC1 (V : Valuation τ sig (Elt F)) (r : Ref sig .tc) (h : r ∉ opsC1_W) :
    after opsC1 V (no_index (Proc.devRef .tc r)) = V (Proc.devRef .tc r) :=
  after_of_writes_sub opsC1 V opsC1_writes h
set_option maxRecDepth 8192 in
theorem opsC1_sub : (opsC1 : List (HloOp τ sig (Elt F))).Forall fun op => op.bufs ⊆ tcRefs τ sig := by
  simp only [List.Forall, nullary_bufs_sub, unary_bufs_sub, binary_bufs_sub, ternary_bufs_sub, reshape_bufs_sub, and_self]

/-- The buffers that statements %52 … %55 write. -/
abbrev opsC2_W : List (Ref sig .tc) :=
  [main_cst_10, main_v52, main_cst_11, main_v53, main_v54, main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v55]
set_option maxRecDepth 8192 in
theorem opsC2_writes : (opsC2 : List (HloOp τ sig (Elt F))).Forall fun op =>
    op.writes ⊆ (opsC2_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))
/-- A buffer that statements %52 … %55 do not write keeps its contents through them. -/
theorem keepC2 (V : Valuation τ sig (Elt F)) (r : Ref sig .tc) (h : r ∉ opsC2_W) :
    after opsC2 V (no_index (Proc.devRef .tc r)) = V (Proc.devRef .tc r) :=
  after_of_writes_sub opsC2 V opsC2_writes h
set_option maxRecDepth 8192 in
theorem opsC2_sub : (opsC2 : List (HloOp τ sig (Elt F))).Forall fun op => op.bufs ⊆ tcRefs τ sig := by
  simp only [List.Forall, nullary_bufs_sub, unary_bufs_sub, binary_bufs_sub, ternary_bufs_sub, reshape_bufs_sub, and_self]

/-- The buffers that statements %56 … %70 write. -/
abbrev opsD_W : List (Ref sig .tc) :=
  [main_v56, main_v57, main_v58, main_cst_13, main_v59, main_v60, main_v61, main_v62, main_v63, main_v64, main_v65, main_v66, main_v67, main_v68, main_v69, main_v70]
set_option maxRecDepth 8192 in
theorem opsD_writes : (opsD : List (HloOp τ sig (Elt F))).Forall fun op =>
    op.writes ⊆ (opsD_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))
/-- A buffer that statements %56 … %70 do not write keeps its contents through them. -/
theorem keepD (V : Valuation τ sig (Elt F)) (r : Ref sig .tc) (h : r ∉ opsD_W) :
    after opsD V (no_index (Proc.devRef .tc r)) = V (Proc.devRef .tc r) :=
  after_of_writes_sub opsD V opsD_writes h
set_option maxRecDepth 8192 in
theorem opsD_sub : (opsD : List (HloOp τ sig (Elt F))).Forall fun op => op.bufs ⊆ tcRefs τ sig := by
  simp only [List.Forall, nullary_bufs_sub, unary_bufs_sub, binary_bufs_sub, ternary_bufs_sub, reshape_bufs_sub, and_self]

/-- The buffers that statements %71 … %80 write. -/
abbrev opsE_W : List (Ref sig .tc) :=
  [main_v71, main_v72, main_v73, main_v74, main_call2_cst, main_call2_v0, main_v75, main_v76, main_v77, main_v78, main_v79, main_v80]
set_option maxRecDepth 8192 in
theorem opsE_writes : (opsE : List (HloOp τ sig (Elt F))).Forall fun op =>
    op.writes ⊆ (opsE_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))
/-- A buffer that statements %71 … %80 do not write keeps its contents through them. -/
theorem keepE (V : Valuation τ sig (Elt F)) (r : Ref sig .tc) (h : r ∉ opsE_W) :
    after opsE V (no_index (Proc.devRef .tc r)) = V (Proc.devRef .tc r) :=
  after_of_writes_sub opsE V opsE_writes h
set_option maxRecDepth 8192 in
theorem opsE_sub : (opsE : List (HloOp τ sig (Elt F))).Forall fun op => op.bufs ⊆ tcRefs τ sig := by
  simp only [List.Forall, nullary_bufs_sub, unary_bufs_sub, binary_bufs_sub, ternary_bufs_sub, reshape_bufs_sub, and_self]

/-- The buffers that statements %81 … %84 write. -/
abbrev opsF_W : List (Ref sig .tc) :=
  [main_cst_14, main_v81, main_cst_15, main_v82, main_v83, main_c_16, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v84]
set_option maxRecDepth 8192 in
theorem opsF_writes : (opsF : List (HloOp τ sig (Elt F))).Forall fun op =>
    op.writes ⊆ (opsF_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))
/-- A buffer that statements %81 … %84 do not write keeps its contents through them. -/
theorem keepF (V : Valuation τ sig (Elt F)) (r : Ref sig .tc) (h : r ∉ opsF_W) :
    after opsF V (no_index (Proc.devRef .tc r)) = V (Proc.devRef .tc r) :=
  after_of_writes_sub opsF V opsF_writes h
set_option maxRecDepth 8192 in
theorem opsF_sub : (opsF : List (HloOp τ sig (Elt F))).Forall fun op => op.bufs ⊆ tcRefs τ sig := by
  simp only [List.Forall, nullary_bufs_sub, unary_bufs_sub, binary_bufs_sub, ternary_bufs_sub, reshape_bufs_sub, and_self]

/-- The buffers that statements %85 … %99 write. -/
abbrev opsG_W : List (Ref sig .tc) :=
  [main_v85, main_v86, main_v87, main_cst_17, main_v88, main_v89, main_v90, main_v91, main_v92, main_v93, main_v94, main_v95, main_v96, main_v97, main_v98, main_v99]
set_option maxRecDepth 8192 in
theorem opsG_writes : (opsG : List (HloOp τ sig (Elt F))).Forall fun op =>
    op.writes ⊆ (opsG_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))
/-- A buffer that statements %85 … %99 do not write keeps its contents through them. -/
theorem keepG (V : Valuation τ sig (Elt F)) (r : Ref sig .tc) (h : r ∉ opsG_W) :
    after opsG V (no_index (Proc.devRef .tc r)) = V (Proc.devRef .tc r) :=
  after_of_writes_sub opsG V opsG_writes h
set_option maxRecDepth 8192 in
theorem opsG_sub : (opsG : List (HloOp τ sig (Elt F))).Forall fun op => op.bufs ⊆ tcRefs τ sig := by
  simp only [List.Forall, nullary_bufs_sub, unary_bufs_sub, binary_bufs_sub, ternary_bufs_sub, reshape_bufs_sub, and_self]

/-! ## What each stretch computes

The contents of each stage's buffer after its stretch, from any contents before it: the stage's definition applied to the
contents of the buffers it reads. -/

set_option maxRecDepth 8192 in
set_option maxHeartbeats 2000000 in
theorem A_v33 (V : Valuation τ sig (Elt F)) :
    after opsA V (no_index (Proc.devRef .tc main_v33)) = normE (V (Proc.devRef .tc main_arg1)) (V (Proc.devRef .tc main_arg2)) := by
  simp only [opsA]
  after_results_simp
  rfl

set_option maxRecDepth 8192 in
set_option maxHeartbeats 2000000 in
theorem A_v3 (V : Valuation τ sig (Elt F)) :
    after opsA V (no_index (Proc.devRef .tc main_v3)) = srcIdx (V (Proc.devRef .tc main_arg1)) := by
  simp only [opsA]
  after_results_simp
  rfl

set_option maxRecDepth 8192 in
set_option maxHeartbeats 2000000 in
theorem A_v6 (V : Valuation τ sig (Elt F)) :
    after opsA V (no_index (Proc.devRef .tc main_v6)) = dstIdx (V (Proc.devRef .tc main_arg1)) := by
  simp only [opsA]
  after_results_simp
  rfl

set_option maxRecDepth 8192 in
set_option maxHeartbeats 2000000 in
theorem B_v47 (V : Valuation τ sig (Elt F)) :
    after opsB V (no_index (Proc.devRef .tc main_v47)) = scat (xw (V (Proc.devRef .tc main_arg0)) (V (Proc.devRef .tc main_arg3))) (V (Proc.devRef .tc main_v33)) (rowOf (V (Proc.devRef .tc main_v3))) (colOf (V (Proc.devRef .tc main_v6))) := by
  simp only [opsB]
  after_results_simp
  rfl

set_option maxRecDepth 8192 in
set_option maxHeartbeats 2000000 in
theorem C1_v51 (V : Valuation τ sig (Elt F)) :
    after opsC1 V (no_index (Proc.devRef .tc main_v51)) = hOf (V (Proc.devRef .tc main_arg0)) (addf (V (Proc.devRef .tc main_v47)) (rowBcast (V (Proc.devRef .tc main_arg4)))) := by
  simp only [opsC1]
  after_results_simp
  rfl

set_option maxRecDepth 8192 in
set_option maxHeartbeats 2000000 in
theorem C2_v54 (V : Valuation τ sig (Elt F)) :
    after opsC2 V (no_index (Proc.devRef .tc main_v54)) = mean (V (Proc.devRef .tc main_v51)) := by
  simp only [opsC2]
  after_results_simp
  rfl

set_option maxRecDepth 8192 in
set_option maxHeartbeats 2000000 in
theorem C2_v55 (V : Valuation τ sig (Elt F)) :
    after opsC2 V (no_index (Proc.devRef .tc main_v55)) = var (V (Proc.devRef .tc main_v51)) := by
  simp only [opsC2]
  after_results_simp
  rfl

set_option maxRecDepth 8192 in
set_option maxHeartbeats 2000000 in
theorem D_v70 (V : Valuation τ sig (Elt F)) :
    after opsD V (no_index (Proc.devRef .tc main_v70)) = bn (V (Proc.devRef .tc main_v51)) (V (Proc.devRef .tc main_v54)) (V (Proc.devRef .tc main_v55)) (V (Proc.devRef .tc main_arg5)) (V (Proc.devRef .tc main_arg6)) := by
  simp only [opsD]
  after_results_simp
  rfl

set_option maxRecDepth 8192 in
set_option maxHeartbeats 2000000 in
theorem E_v80 (V : Valuation τ sig (Elt F)) :
    after opsE V (no_index (Proc.devRef .tc main_v80)) = ffn (V (Proc.devRef .tc main_v70)) (V (Proc.devRef .tc main_arg7)) (V (Proc.devRef .tc main_arg8)) (V (Proc.devRef .tc main_arg9)) (V (Proc.devRef .tc main_arg10)) := by
  simp only [opsE]
  after_results_simp
  rfl

set_option maxRecDepth 8192 in
set_option maxHeartbeats 2000000 in
theorem F_v83 (V : Valuation τ sig (Elt F)) :
    after opsF V (no_index (Proc.devRef .tc main_v83)) = mean (V (Proc.devRef .tc main_v80)) := by
  simp only [opsF]
  after_results_simp
  rfl

set_option maxRecDepth 8192 in
set_option maxHeartbeats 2000000 in
theorem F_v84 (V : Valuation τ sig (Elt F)) :
    after opsF V (no_index (Proc.devRef .tc main_v84)) = var (V (Proc.devRef .tc main_v80)) := by
  simp only [opsF]
  after_results_simp
  rfl

set_option maxRecDepth 8192 in
set_option maxHeartbeats 2000000 in
theorem G_v99 (V : Valuation τ sig (Elt F)) :
    after opsG V (no_index (Proc.devRef .tc main_v99)) = bn (V (Proc.devRef .tc main_v80)) (V (Proc.devRef .tc main_v83)) (V (Proc.devRef .tc main_v84)) (V (Proc.devRef .tc main_arg11)) (V (Proc.devRef .tc main_arg12)) := by
  simp only [opsG]
  after_results_simp
  rfl

/-! ## The whole line -/

/-- Two lines one after the other: the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A property of every operation of two lists holds of their concatenation's. -/
theorem forall_app {p : HloOp τ sig (Elt F) → Prop} {l₁ l₂ : List (HloOp τ sig (Elt F))} (h₁ : l₁.Forall p) (h₂ : l₂.Forall p) :
    (l₁ ++ l₂).Forall p :=
  List.forall_iff_forall_mem.mpr fun a h =>
    (List.mem_append.mp h).elim (List.forall_iff_forall_mem.mp h₁ a) (List.forall_iff_forall_mem.mp h₂ a)

theorem ops_sub : (ops : List (HloOp τ sig (Elt F))).Forall fun op => op.bufs ⊆ tcRefs τ sig :=
  forall_app (forall_app opsA_sub opsB_sub)
    (forall_app (forall_app opsC1_sub (forall_app opsC2_sub (forall_app opsD_sub (forall_app opsE_sub (forall_app opsF_sub opsG_sub)))))
      (by simp only [ops2, List.Forall]))

/-- The contents after the whole line are those after its eight stretches in turn. -/
theorem after_ops (V : Valuation τ sig (Elt F)) :
    after ops V = after opsG (after opsF (after opsE (after opsD (after opsC2 (after opsC1 (after opsB (after opsA V))))))) := by
  simp only [ops, ops0, ops1, ops2, after_app, after_nil]

/-- The result buffer after the whole line: `out` of the arguments' contents. -/
theorem out_eq (V : Valuation τ sig (Elt F)) :
    after ops V (Proc.devRef .tc main_v99)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  simp (disch := decide) only [G_v99, F_v83, F_v84, keepF, E_v80, keepE, D_v70, keepD, C2_v54, C2_v55, keepC2, C1_v51, keepC1,
    B_v47, keepB, A_v33, A_v3, A_v6, keepA]
  rfl

/-- A buffer no stretch writes keeps its contents through the whole line. -/
theorem keep_all (V : Valuation τ sig (Elt F)) (r : Ref sig .tc) (hA : r ∉ opsA_W) (hB : r ∉ opsB_W) (hC1 : r ∉ opsC1_W) (hC2 : r ∉ opsC2_W) (hD : r ∉ opsD_W) (hE : r ∉ opsE_W) (hF : r ∉ opsF_W) (hG : r ∉ opsG_W) :
    after ops V (Proc.devRef .tc r) = V (Proc.devRef .tc r) := by
  rw [after_ops, keepG _ r hG, keepF _ r hF, keepE _ r hE, keepD _ r hD, keepC2 _ r hC2, keepC1 _ r hC1, keepB _ r hB, keepA _ r hA]

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v99).trans (out_eq (launchContents m c)),
      (h c main_arg0).trans (keep_all (launchContents m c) main_arg0 (by decide) (by decide) (by decide) (by decide) (by decide) (by decide) (by decide) (by decide)),
      (h c main_arg1).trans (keep_all (launchContents m c) main_arg1 (by decide) (by decide) (by decide) (by decide) (by decide) (by decide) (by decide) (by decide)),
      (h c main_arg2).trans (keep_all (launchContents m c) main_arg2 (by decide) (by decide) (by decide) (by decide) (by decide) (by decide) (by decide) (by decide)),
      (h c main_arg3).trans (keep_all (launchContents m c) main_arg3 (by decide) (by decide) (by decide) (by decide) (by decide) (by decide) (by decide) (by decide)),
      (h c main_arg4).trans (keep_all (launchContents m c) main_arg4 (by decide) (by decide) (by decide) (by decide) (by decide) (by decide) (by decide) (by decide)),
      (h c main_arg5).trans (keep_all (launchContents m c) main_arg5 (by decide) (by decide) (by decide) (by decide) (by decide) (by decide) (by decide) (by decide)),
      (h c main_arg6).trans (keep_all (launchContents m c) main_arg6 (by decide) (by decide) (by decide) (by decide) (by decide) (by decide) (by decide) (by decide)),
      (h c main_arg7).trans (keep_all (launchContents m c) main_arg7 (by decide) (by decide) (by decide) (by decide) (by decide) (by decide) (by decide) (by decide)),
      (h c main_arg8).trans (keep_all (launchContents m c) main_arg8 (by decide) (by decide) (by decide) (by decide) (by decide) (by decide) (by decide) (by decide)),
      (h c main_arg9).trans (keep_all (launchContents m c) main_arg9 (by decide) (by decide) (by decide) (by decide) (by decide) (by decide) (by decide) (by decide)),
      (h c main_arg10).trans (keep_all (launchContents m c) main_arg10 (by decide) (by decide) (by decide) (by decide) (by decide) (by decide) (by decide) (by decide)),
      (h c main_arg11).trans (keep_all (launchContents m c) main_arg11 (by decide) (by decide) (by decide) (by decide) (by decide) (by decide) (by decide) (by decide)),
      (h c main_arg12).trans (keep_all (launchContents m c) main_arg12 (by decide) (by decide) (by decide) (by decide) (by decide) (by decide) (by decide) (by decide))⟩)
    (run_seq scopedRefs_eq scopedSems_eq defs main (fun _ => ops) main_eq (fun _ => ops_sub) m ρ)

end Cert.ReferenceIdeal.RefValue

end
-- ==== Proof.Math.lean ====
import Idealize.ShloMosaic.PureOps.Ideal
import Idealize.ShloMosaic.PureOps.Ideal.Laws
import Mathlib.Data.EReal.Operations
import Mathlib.Algebra.BigOperators.Ring.Finset
import Mathlib.Algebra.BigOperators.Fin
import Mathlib.Algebra.Order.BigOperators.Ring.Finset
import Mathlib.Logic.Equiv.Fin.Basic
import Mathlib.Analysis.SpecialFunctions.Sqrt
import Mathlib.Tactic.Ring
import Mathlib.Tactic.FieldSimp
import Mathlib.Tactic.Linarith

/-!
# Real-valued extended reals, and the two laws of a normalisation over the node axis

On the extended reals distributivity and cancellation fail at the infinities, so every law here is stated for
REAL-VALUED data (`IsReal`), which the operations of the block preserve: sums, differences, products, maxima, quotients by a
non-zero real, and the inverse square root of a positive real.

* `var_eq`: the mean of the squared deviations from the mean is the mean of the squares less the square of the mean.
* `sum_blocks`: a sum over 100000 rows is the sum, over 50 blocks, of the sums over each block's 2000 rows.
-/

noncomputable section

namespace Cert.GcnMath

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} : IsReal x → IsReal y → IsReal (max x y)
  | ⟨a, ha⟩, ⟨b, hb⟩ => ⟨Max.max a b, by rw [ha, hb]; exact (EReal.coe_strictMono.monotone.map_max).symm⟩

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real-valued terms is real-valued. -/
theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A real-valued family is the coercion of a real family. -/
theorem exists_real {ι : Type*} (f : ι → EReal) (h : ∀ i, IsReal (f i)) : ∃ g : ι → ℝ, ∀ i, f i = (g i : EReal) :=
  ⟨fun i => (h i).choose, fun i => (h i).choose_spec⟩

/-- The quotient by a non-zero real of a real-valued number is real-valued. -/
theorem IsReal.div_coe {x : EReal} {y : ℝ} (hy : y ≠ 0) : IsReal x → IsReal (Ideal.div x (y : EReal))
  | ⟨a, ha⟩ => ⟨a * (1 / y), by rw [ha, Ideal.div_coe hy, EReal.coe_mul]⟩

theorem div_coe_coe {y : ℝ} (hy : y ≠ 0) (a : ℝ) : Ideal.div (a : EReal) (y : EReal) = ((a / y : ℝ) : EReal) := by
  rw [Ideal.div_coe hy, ← EReal.coe_mul, mul_one_div]

/-- The inverse square root of a positive real is a positive real. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']
theorem isReal_rsqrt_pos {r : ℝ} (hr : 0 < r) : IsReal (Ideal.rsqrt (r : EReal)) := ⟨_, rsqrt_pos hr⟩

/-! ## The variance law -/

/-- On the reals: with `μ` the mean, the mean of `(h i - μ)²` is the mean of `(h i)²` less `μ²`. -/
theorem var_real {ι : Type*} [Fintype ι] (N : ℝ) (hN : N ≠ 0) (hc : (Fintype.card ι : ℝ) = N) (h : ι → ℝ) :
    (∑ i, (h i - (∑ j, h j) / N) * (h i - (∑ j, h j) / N)) / N
      = (∑ i, h i * h i) / N - ((∑ j, h j) / N) * ((∑ j, h j) / N) := by
  have e : ∀ i, (h i - (∑ j, h j) / N) * (h i - (∑ j, h j) / N)
      = h i * h i - 2 * ((∑ j, h j) / N) * h i + ((∑ j, h j) / N) * ((∑ j, h j) / N) := fun i => by ring
  simp only [e, Finset.sum_add_distrib, Finset.sum_sub_distrib, ← Finset.mul_sum, Finset.sum_const, Finset.card_univ,
    nsmul_eq_mul, hc]
  field_simp
  ring

/-- The variance is not negative. -/
theorem var_real_nonneg {ι : Type*} [Fintype ι] (N : ℝ) (hN : 0 < N) (h : ι → ℝ) (μ : ℝ) :
    0 ≤ (∑ i, (h i - μ) * (h i - μ)) / N :=
  div_nonneg (Finset.sum_nonneg fun i _ => mul_self_nonneg _) hN.le

/-- THE VARIANCE LAW on real-valued extended reals: the mean of the squared deviations from the mean `μ` is the mean of
    the squares less `μ²`, a real number that is not negative. -/
theorem var_eq {ι : Type*} [Fintype ι] (N : ℝ) (hN : 0 < N) (hc : (Fintype.card ι : ℝ) = N) (h : ι → EReal)
    (hr : ∀ i, IsReal (h i)) :
    Ideal.div (∑ i, (h i - Ideal.div (∑ j, h j) (N : EReal)) * (h i - Ideal.div (∑ j, h j) (N : EReal))) (N : EReal)
      = Ideal.div (∑ i, h i * h i) (N : EReal)
          - Ideal.div (∑ j, h j) (N : EReal) * Ideal.div (∑ j, h j) (N : EReal)
    ∧ ∃ v : ℝ, 0 ≤ v ∧ Ideal.div (∑ i, h i * h i) (N : EReal)
          - Ideal.div (∑ j, h j) (N : EReal) * Ideal.div (∑ j, h j) (N : EReal) = (v : EReal) := by
  obtain ⟨g, hg⟩ := exists_real h hr
  have hN' : N ≠ 0 := hN.ne'
  have hs : (∑ j, h j) = ((∑ j, g j : ℝ) : EReal) := by rw [coe_sum]; exact Finset.sum_congr rfl fun i _ => hg i
  have hμ : Ideal.div (∑ j, h j) (N : EReal) = (((∑ j, g j) / N : ℝ) : EReal) := by rw [hs, div_coe_coe hN']
  have hsq : (∑ i, h i * h i) = ((∑ i, g i * g i : ℝ) : EReal) := by
    rw [coe_sum]; exact Finset.sum_congr rfl fun i _ => by rw [hg i, EReal.coe_mul]
  have hdev : (∑ i, (h i - Ideal.div (∑ j, h j) (N : EReal)) * (h i - Ideal.div (∑ j, h j) (N : EReal)))
      = ((∑ i, (g i - (∑ j, g j) / N) * (g i - (∑ j, g j) / N) : ℝ) : EReal) := by
    rw [coe_sum]; exact Finset.sum_congr rfl fun i _ => by rw [hμ, hg i, ← EReal.coe_sub, ← EReal.coe_mul]
  have hrhs : Ideal.div (∑ i, h i * h i) (N : EReal)
        - Ideal.div (∑ j, h j) (N : EReal) * Ideal.div (∑ j, h j) (N : EReal)
      = (((∑ i, g i * g i) / N - ((∑ j, g j) / N) * ((∑ j, g j) / N) : ℝ) : EReal) := by
    rw [hμ, hsq, div_coe_coe hN', ← EReal.coe_mul, ← EReal.coe_sub]
  refine ⟨?_, _, ?_, hrhs⟩
  · rw [hrhs, hdev, div_coe_coe hN', var_real N hN' hc g]
  · rw [← var_real N hN' hc g]; exact var_real_nonneg N hN g _

/-! ## Rows in blocks -/

/-- A sum over 100000 rows is the sum, over 50 blocks, of the sums over each block's 2000 rows. -/
theorem sum_blocks {M : Type*} [AddCommMonoid M] (f : Fin 100000 → M) :
    ∑ t : Fin 50, ∑ r : Fin 2000, f ⟨2000 * t.val + r.val, by omega⟩ = ∑ i : Fin 100000, f i := by
  rw [← Fintype.sum_prod_type' (f := fun (t : Fin 50) (r : Fin 2000) => f ⟨2000 * t.val + r.val, by omega⟩)]
  refine Fintype.sum_equiv (finProdFinEquiv : Fin 50 × Fin 2000 ≃ Fin (50 * 2000)) _ _ fun p => ?_
  refine congrArg f (Fin.ext ?_)
  show 2000 * p.1.val + p.2.val = p.2.val + 2000 * p.1.val
  omega

end Cert.GcnMath

end
-- ==== Proof.PreReal.lean ====
/- The precondition decoded at the ideal values: every float argument's every entry is a real number. The printed
   predicate is, per float argument x, the conjunction over all entries of |x| < +inf, and the conjunction of these twelve;
   an extended real whose absolute value is below +inf is neither infinity, hence a real. -/
import proofs.«118182_j89309549953493_1_alg».proof.Pre_finite_inputs
import proofs.«118182_j89309549953493_1_alg».proof.Proof.Math
import Idealize.ShloMosaic.Lib.ReduceAll
import Idealize.ShloMosaic.Lib.ValueIdx

noncomputable section

namespace Cert.PreReal

open Idealize.ShloMosaic Idealize.ShloMosaic.ValueIdx
open Cert.Pre_finite_inputs Cert.GcnMath

/-- The scalar shape has one index. -/
theorem subsingleton_scalar : Subsingleton S_.Idx := ⟨fun a b => funext fun d => d.elim0⟩

/-- An extended real whose absolute value max(x, −x) is below +inf (the word 0x7F800000) is a real: at either
    infinity the absolute value is +inf itself. -/
theorem isReal_of_abs_lt_inf (x : EReal) (e : Ideal.cmp .olt (max x (-x)) (Ideal.ofBits .f32 0x7F800000#32) = 1#1) : IsReal x := by
  have htop : Ideal.ofBits .f32 0x7F800000#32 = ⊤ := by simp [Ideal.ofBits, Ideal.ieee]
  rw [htop] at e
  unfold Ideal.cmp at e
  induction x using EReal.rec with
  | bot => simp at e
  | coe r => exact ⟨r, rfl⟩
  | top => simp at e

/-- One conjunct of the predicate, over any shape and any reduction of it to the scalar shape: if the conjunction
    over all entries of |x| < +inf is 1, every entry of x is a real. -/
theorem real_of_all {s : Shape} {axes : List (Fin s.rank)} (x : FVec Ideal s .f32)
    (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32)))
        (constantI S_ 1 1#1) h hu ix0 = 1#1) (i : s.Idx) : IsReal (x i) :=
  haveI := subsingleton_scalar
  isReal_of_abs_lt_inf (x i) (Host.reduce_andi_all _ _ h hu ix0 e i)

/-- A conjunction of two scalar bits that is 1 has both 1. -/
theorem split {x y : IVec S_ 1} (h : andi x y ix0 = 1#1) : x ix0 = 1#1 ∧ y ix0 = 1#1 := IntOp.andi_eq_one.1 h

variable [Facts]

/-- The precondition at the ideal values says every entry of every float argument is a real (the integer edge index
    `a1` is not constrained). -/
theorem real_of_pre {a0 : FVec Ideal S100000x128 .f32} {a1 : IVec S2x1600000 32} {a2 : FVec Ideal S1600000 .f32}
    {a3 : FVec Ideal S128x128 .f32} {a4 a5 a6 : FVec Ideal S128 .f32} {a7 : FVec Ideal S128x256 .f32}
    {a8 : FVec Ideal S256 .f32} {a9 : FVec Ideal S256x128 .f32} {a10 a11 a12 : FVec Ideal S128 .f32}
    (h : Cert.Pre_finite_inputs.fn (F := Ideal) a0 a1 a2 a3 a4 a5 a6 a7 a8 a9 a10 a11 a12 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) := by
  have h0 := congrFun h ix0
  dsimp only [fn, fn_part1, fn_part2, fn_part3] at h0
  obtain ⟨h0, e12⟩ := split h0
  obtain ⟨h0, e11⟩ := split h0
  obtain ⟨h0, e10⟩ := split h0
  obtain ⟨h0, e9⟩ := split h0
  obtain ⟨h0, e8⟩ := split h0
  obtain ⟨h0, e7⟩ := split h0
  obtain ⟨h0, e6⟩ := split h0
  obtain ⟨h0, e5⟩ := split h0
  obtain ⟨h0, e4⟩ := split h0
  obtain ⟨h0, e3⟩ := split h0
  obtain ⟨e0, e2⟩ := split h0
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7, real_of_all a8 _ _ _ e8,
    real_of_all a9 _ _ _ e9, real_of_all a10 _ _ _ e10, real_of_all a11 _ _ _ e11, real_of_all a12 _ _ _ e12⟩

end Cert.PreReal

end
-- ==== Proof.RefRead.lean ====
/-
  The reference's stages read index by index at the ideal values: each definition of RefDefs.lean at one element, as sums,
  products and quotients of extended reals.
-/
import proofs.«118182_j89309549953493_1_alg».proof.Proof.RefDefs
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx
open scoped BigOperators

/-! ## Layout, and the host's pointwise operations -/

/-- A feature vector repeated on every node reads the feature. -/
theorem rowBcast_apply (v : FVec Ideal S128 .f32) (r : Fin 100000) (j : Fin 128) :
    rowBcast (F := Ideal) v (ix2 r j) = v (ix1 j) := by
  unfold rowBcast
  refine (broadcastInDim_apply _ _ _ (ix2 r j) (ix2 (0 : Fin 1) j)
    (fun a => by match a with | ⟨0, _⟩ => rfl | ⟨1, _⟩ => rfl)).trans ?_
  exact broadcastInDim_apply _ _ _ (ix2 (0 : Fin 1) j) (ix1 j) (fun a => by match a with | ⟨0, _⟩ => rfl)

/-- The host's inverse square root at an index is the ideal one of the element. -/
theorem hostRsqrt_apply {s : Shape} {φ : FTy} (a : FVec Ideal s φ) (i : s.Idx) : Host.rsqrt a i = Ideal.rsqrt (a i) := rfl

/-- The word of `100000.0` denotes the real `100000`. -/
theorem ofBits_1e5 : Ideal.ofBits .f32 0x47C35000#32 = ((100000 : ℝ) : EReal) := by
  simp [Ideal.ofBits, Ideal.ieee, -EReal.coe_mul]; norm_num

/-! ## The stages at an element -/

/-- The residual sum at an element. -/
theorem hOf_apply (a0 g : FVec Ideal S100000x128 .f32) (r : Fin 100000) (j : Fin 128) :
    hOf (F := Ideal) a0 g (ix2 r j) = a0 (ix2 r j) + g (ix2 r j) := rfl

/-- Batch normalisation at an element. -/
theorem bn_apply (h : FVec Ideal S100000x128 .f32) (mu va g b : FVec Ideal S128 .f32) (r : Fin 100000) (j : Fin 128) :
    bn (F := Ideal) h mu va g b (ix2 r j)
      = (h (ix2 r j) - mu (ix1 j)) * Ideal.rsqrt (va (ix1 j) + Ideal.ofBits .f32 0x3727C5AC#32) * g (ix1 j) + b (ix1 j) := by
  unfold bn
  simp only [addf_apply, mulf_apply, subf_apply, rowBcast_apply, hostRsqrt_apply]
  rw [broadcastInDim_scalar_apply, constant_apply]

/-- The sum over the nodes of one feature, as the host reduces it from zero. -/
theorem colsum_apply (h : FVec Ideal S100000x128 .f32) (j : Fin 128) :
    Host.reduceAdd h (constant (F := Ideal) S_ .f32 0x00000000#32) reducesTo_S100000x128_S128_d0 h_S_ (ix1 j)
      = ∑ r : Fin 100000, h (ix2 r j) := by
  refine (Ideal.hostReduceAdd_single reducesTo_S100000x128_S128_d0 (by decide) h _ (ix1 j)).trans ?_
  rw [show (constant (F := Ideal) S_ .f32 0x00000000#32 (Shape.Idx.first h_S_)) = 0 from Ideal.ofBits_zero_f32, zero_add]
  exact Finset.sum_congr rfl fun k _ => congrArg h (funext fun a => Fin.ext (by match a with | ⟨0, _⟩ => rfl | ⟨1, _⟩ => rfl))

/-- The mean over the nodes at a feature. -/
theorem mean_apply (h : FVec Ideal S100000x128 .f32) (j : Fin 128) :
    mean (F := Ideal) h (ix1 j) = Ideal.div (∑ r : Fin 100000, h (ix2 r j)) ((100000 : ℝ) : EReal) := by
  unfold mean
  rw [hostDivf_apply, colsum_apply, broadcastInDim_scalar_apply, constant_apply, ofBits_1e5]

/-- The feature product at an element. -/
theorem xw_apply (a0 : FVec Ideal S100000x128 .f32) (a3 : FVec Ideal S128x128 .f32) (r : Fin 100000) (j : Fin 128) :
    xw (F := Ideal) a0 a3 (ix2 r j) = ∑ k : Fin 128, a0 (ix2 r k) * a3 (ix2 k j) := by
  unfold xw
  refine (Ideal.dotGeneral_apply dot_S100000x128_S128x128_S100000x128_1_0_0_1_n_n none .single a0 a3 (ix2 r j)).trans ?_
  rw [← Equiv.sum_comp (contrEquiv1 dot_S100000x128_S128x128_S100000x128_1_0_0_1_n_n 128 rfl rfl).symm]
  refine Finset.sum_congr rfl fun k _ => ?_
  have hl : dot_S100000x128_S128x128_S100000x128_1_0_0_1_n_n.lhsIdx (ix2 r j)
      ((contrEquiv1 dot_S100000x128_S128x128_S100000x128_1_0_0_1_n_n 128 rfl rfl).symm k) = ix2 r k :=
    funext fun a => Fin.ext (by
      match a with
      | ⟨0, _⟩ => rfl
      | ⟨1, _⟩ => exact (DotDims.lhsIdx_val_of_single _ rfl _ _).trans (contrEquiv1_symm_val _ 128 rfl rfl k))
  have hr : dot_S100000x128_S128x128_S100000x128_1_0_0_1_n_n.rhsIdx (ix2 r j)
      ((contrEquiv1 dot_S100000x128_S128x128_S100000x128_1_0_0_1_n_n 128 rfl rfl).symm k) = ix2 k j :=
    funext fun a => Fin.ext (by
      match a with
      | ⟨0, _⟩ => exact (DotDims.rhsIdx_val_of_single _ rfl _ _).trans (contrEquiv1_symm_val _ 128 rfl rfl k)
      | ⟨1, _⟩ => rfl)
  rw [hl, hr]

/-- The deviation from the mean at an element, as the variance computes it. -/
theorem centered_apply (h : FVec Ideal S100000x128 .f32) (r : Fin 100000) (j : Fin 128) :
    centered (F := Ideal) h (ix2 r j)
      = h (ix2 r j) - Ideal.div (∑ r' : Fin 100000, h (ix2 r' j)) ((100000 : ℝ) : EReal) := by
  unfold centered
  rw [subf_apply]
  refine congrArg (h (ix2 r j) - ·) ?_
  refine (broadcastInDim_apply _ _ _ (ix2 r j) (ix2 (0 : Fin 1) j)
    (fun a => by match a with | ⟨0, _⟩ => rfl | ⟨1, _⟩ => rfl)).trans ?_
  rw [hostDivf_apply]
  refine congrArg₂ Ideal.div ?_ ?_
  · exact (broadcastInDim_apply _ _ _ (ix2 (0 : Fin 1) j) (ix1 j) (fun a => by match a with | ⟨0, _⟩ => rfl)).trans
      (colsum_apply h j)
  · rw [broadcastInDim_scalar_apply, constant_apply, ofBits_1e5]

/-- The variance's divisor is the node count. -/
theorem ddof_apply : ddof (F := Ideal) ix0 = ((100000 : ℝ) : EReal) := by
  unfold ddof
  rw [subf_apply, constant_apply, sitofp_apply, ofBits_1e5]
  show ((100000 : ℝ) : EReal) - (((constantI S_ 32 0#32 ix0).toInt : ℝ) : EReal) = _
  simp [constantI]

/-- The variance over the nodes at a feature: the divisor is positive, so the quotient is selected. -/
theorem var_apply (h : FVec Ideal S100000x128 .f32) (j : Fin 128) :
    var (F := Ideal) h (ix1 j)
      = Ideal.div (∑ r : Fin 100000,
            (h (ix2 r j) - Ideal.div (∑ r' : Fin 100000, h (ix2 r' j)) ((100000 : ℝ) : EReal))
              * (h (ix2 r j) - Ideal.div (∑ r' : Fin 100000, h (ix2 r' j)) ((100000 : ℝ) : EReal)))
          ((100000 : ℝ) : EReal) := by
  unfold var
  rw [select_apply]
  have hc : broadcastInDim S128 ![] bcast_S_S128
      (cmpf .ogt (ddof (F := Ideal)) (constant (F := Ideal) S_ .f32 0x00000000#32)) (ix1 j) = 1#1 := by
    rw [broadcastInDim_scalar_apply, cmpf_apply, ddof_apply, constant_apply, Ideal.ofBits_zero_f32]
    have hpos : (0 : EReal) < ((100000 : ℝ) : EReal) := EReal.coe_pos.mpr (by norm_num)
    show Ideal.cmp .ogt _ _ = _
    simp [Ideal.cmp, hpos]
  rw [hc, select_one, hostDivf_apply, colsum_apply, broadcastInDim_scalar_apply, ddof_apply]
  simp only [mulf_apply, centered_apply]

/-- The feed-forward block's first product at an element. -/
theorem dot_128_256_apply (x : FVec Ideal S100000x128 .f32) (w : FVec Ideal S128x256 .f32) (r : Fin 100000) (k : Fin 256) :
    Host.dotGeneral dot_S100000x128_S128x256_S100000x256_1_0_0_1_n_n none x w (ix2 r k)
      = ∑ l : Fin 128, x (ix2 r l) * w (ix2 l k) := by
  refine (Ideal.dotGeneral_apply dot_S100000x128_S128x256_S100000x256_1_0_0_1_n_n none .single x w (ix2 r k)).trans ?_
  rw [← Equiv.sum_comp (contrEquiv1 dot_S100000x128_S128x256_S100000x256_1_0_0_1_n_n 128 rfl rfl).symm]
  refine Finset.sum_congr rfl fun l _ => ?_
  have hl : dot_S100000x128_S128x256_S100000x256_1_0_0_1_n_n.lhsIdx (ix2 r k)
      ((contrEquiv1 dot_S100000x128_S128x256_S100000x256_1_0_0_1_n_n 128 rfl rfl).symm l) = ix2 r l :=
    funext fun a => Fin.ext (by
      match a with
      | ⟨0, _⟩ => rfl
      | ⟨1, _⟩ => exact (DotDims.lhsIdx_val_of_single _ rfl _ _).trans (contrEquiv1_symm_val _ 128 rfl rfl l))
  have hr : dot_S100000x128_S128x256_S100000x256_1_0_0_1_n_n.rhsIdx (ix2 r k)
      ((contrEquiv1 dot_S100000x128_S128x256_S100000x256_1_0_0_1_n_n 128 rfl rfl).symm l) = ix2 l k :=
    funext fun a => Fin.ext (by
      match a with
      | ⟨0, _⟩ => exact (DotDims.rhsIdx_val_of_single _ rfl _ _).trans (contrEquiv1_symm_val _ 128 rfl rfl l)
      | ⟨1, _⟩ => rfl)
  rw [hl, hr]

/-- The feed-forward block's second product at an element. -/
theorem dot_256_128_apply (x : FVec Ideal S100000x256 .f32) (w : FVec Ideal S256x128 .f32) (r : Fin 100000) (j : Fin 128) :
    Host.dotGeneral dot_S100000x256_S256x128_S100000x128_1_0_0_1_n_n none x w (ix2 r j)
      = ∑ k : Fin 256, x (ix2 r k) * w (ix2 k j) := by
  refine (Ideal.dotGeneral_apply dot_S100000x256_S256x128_S100000x128_1_0_0_1_n_n none .single x w (ix2 r j)).trans ?_
  rw [← Equiv.sum_comp (contrEquiv1 dot_S100000x256_S256x128_S100000x128_1_0_0_1_n_n 256 rfl rfl).symm]
  refine Finset.sum_congr rfl fun k _ => ?_
  have hl : dot_S100000x256_S256x128_S100000x128_1_0_0_1_n_n.lhsIdx (ix2 r j)
      ((contrEquiv1 dot_S100000x256_S256x128_S100000x128_1_0_0_1_n_n 256 rfl rfl).symm k) = ix2 r k :=
    funext fun a => Fin.ext (by
      match a with
      | ⟨0, _⟩ => rfl
      | ⟨1, _⟩ => exact (DotDims.lhsIdx_val_of_single _ rfl _ _).trans (contrEquiv1_symm_val _ 256 rfl rfl k))
  have hr : dot_S100000x256_S256x128_S100000x128_1_0_0_1_n_n.rhsIdx (ix2 r j)
      ((contrEquiv1 dot_S100000x256_S256x128_S100000x128_1_0_0_1_n_n 256 rfl rfl).symm k) = ix2 k j :=
    funext fun a => Fin.ext (by
      match a with
      | ⟨0, _⟩ => exact (DotDims.rhsIdx_val_of_single _ rfl _ _).trans (contrEquiv1_symm_val _ 256 rfl rfl k)
      | ⟨1, _⟩ => rfl)
  rw [hl, hr]

/-- A vector of 256 hidden features repeated on every node reads the feature. -/
theorem rowBcast256_apply (v : FVec Ideal S256 .f32) (r : Fin 100000) (k : Fin 256) :
    broadcastInDim S100000x256 ![0, 1] bcast_S1x256_S100000x256_0_1 (broadcastInDim S1x256 ![1] bcast_S256_S1x256_1 v) (ix2 r k)
      = v (ix1 k) := by
  refine (broadcastInDim_apply _ _ _ (ix2 r k) (ix2 (0 : Fin 1) k)
    (fun a => by match a with | ⟨0, _⟩ => rfl | ⟨1, _⟩ => rfl)).trans ?_
  exact broadcastInDim_apply _ _ _ (ix2 (0 : Fin 1) k) (ix1 k) (fun a => by match a with | ⟨0, _⟩ => rfl)

/-- The feed-forward block with its residual sum at an element. -/
theorem ffn_apply (h1 : FVec Ideal S100000x128 .f32) (a7 : FVec Ideal S128x256 .f32) (a8 : FVec Ideal S256 .f32)
    (a9 : FVec Ideal S256x128 .f32) (a10 : FVec Ideal S128 .f32) (r : Fin 100000) (j : Fin 128) :
    ffn (F := Ideal) h1 a7 a8 a9 a10 (ix2 r j)
      = h1 (ix2 r j) + ((∑ k : Fin 256,
            max ((∑ l : Fin 128, h1 (ix2 r l) * a7 (ix2 l k)) + a8 (ix1 k)) (Ideal.ofBits .f32 0x00000000#32) * a9 (ix2 k j))
          + a10 (ix1 j)) := by
  unfold ffn
  rw [addf_apply, addf_apply, dot_256_128_apply, rowBcast_apply]
  refine congrArg (h1 (ix2 r j) + ·) (congrArg (· + a10 (ix1 j)) (Finset.sum_congr rfl fun k _ => ?_))
  rw [maximumf_apply, addf_apply, dot_128_256_apply, rowBcast256_apply, broadcastInDim_scalar_apply, constant_apply]

end Cert.ReferenceIdeal.RefValue

end
-- ==== Proof.Consts.lean ====
import Idealize.ShloMosaic.PureOps.Ideal
import Idealize.ShloMosaic.PureOps.Ideal.Laws

/-!
# The float constants of the block, as the real numbers their words denote

`100000.0` (the node count, the divisor of both means), `1.0` (a self loop's weight), and the two small positive
constants: the normalisation's `1e-5` and the degree's floor `1e-12`, of which only positivity matters.
-/

noncomputable section

namespace Cert.GcnConsts

open Idealize.ShloMosaic

/-- `100000.0` denotes the real `100000`. -/
theorem ofBits_1e5 : Ideal.ofBits .f32 0x47C35000#32 = ((100000 : ℝ) : EReal) := by
  simp [Ideal.ofBits, Ideal.ieee, -EReal.coe_mul]; norm_num

/-- `1.0` denotes `1`. -/
theorem ofBits_one : Ideal.ofBits .f32 0x3F800000#32 = ((1 : ℝ) : EReal) := by
  simp [Ideal.ofBits, Ideal.ieee, -EReal.coe_mul]; norm_num

/-- The normalisation's small constant denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The degree's floor denotes a positive real. -/
theorem ofBits_tiny : ∃ e : ℝ, 0 < e ∧ Ideal.ofBits .f32 0x2B8CBCCC#32 = (e : EReal) := by
  refine ⟨_, ?_, by simp [Ideal.ofBits, Ideal.ieee, -EReal.coe_mul]; rfl⟩
  norm_num

end Cert.GcnConsts

end
-- ==== Proof.RefReal.lean ====
/- The aggregation of the reference is real-valued on real-valued data. Every stage either picks entries of its
   operands (concatenate, broadcast, gather, select), adds or multiplies them, sums finitely many of them (the scatter
   with addition, the matrix product), or takes the inverse square root of a number that is at least a positive
   constant; each of these keeps every entry a real number. -/
import proofs.«118182_j89309549953493_1_alg».proof.Proof.RefDefs
import proofs.«118182_j89309549953493_1_alg».proof.Proof.Math
import proofs.«118182_j89309549953493_1_alg».proof.Proof.Consts

noncomputable section

open scoped BigOperators

namespace Cert.ReferenceIdeal.RefValue

open Cert.ReferenceIdeal Cert.ReferenceIdeal.Gen Idealize.ShloMosaic Cert.GcnMath

/-! ## Operations that keep every entry real, for any shapes and dimension numbers -/

/-- A splat of a word that encodes a real. -/
theorem isReal_const {s : Shape} (w : BitVec 32) (hw : IsReal (Ideal.ofBits .f32 w)) (i : s.Idx) :
    IsReal (constant (F := Ideal) s .f32 w i) := hw

/-- The zero word encodes the real 0. -/
theorem isReal_ofBits_zero : IsReal (Ideal.ofBits .f32 0x00000000#32) := by
  rw [Ideal.ofBits_zero_f32]; exact isReal_zero

/-- Every entry of a broadcast is an entry of its operand. -/
theorem isReal_bcast {s t : Shape} (dims : Fin s.rank → Fin t.rank) (h : s.BroadcastsInDim t dims) (x : s.Idx → EReal)
    (hx : ∀ i, IsReal (x i)) (j : t.Idx) : IsReal (broadcastInDim t dims h x j) := hx _

/-- Every entry of a gather is the operand's at some index (the starts are clamped into the operand). -/
theorem isReal_gather {s si t : Shape} {w : Nat} (d : GatherDims s si t) (x : s.Idx → EReal) (idx : IVec si w)
    (hx : ∀ i, IsReal (x i)) (j : t.Idx) : IsReal (Host.gather d x idx j) := hx _

/-- Every entry of a concatenate is an entry of one of the pieces. -/
theorem isReal_concatenate {t : Shape} (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

/-- The two-piece case. -/
theorem isReal_concatenate2 {t s1 s2 : Shape} (a : Fin t.rank) (x1 : s1.Idx → EReal) (x2 : s2.Idx → EReal)
    (h : Shape.Concatenates (([⟨s1, x1⟩, ⟨s2, x2⟩] : List ((s : Shape) × (s.Idx → EReal))).map (·.1)) t a)
    (h1 : ∀ i, IsReal (x1 i)) (h2 : ∀ i, IsReal (x2 i)) (j : t.Idx) :
    IsReal (concatenate t a [⟨s1, x1⟩, ⟨s2, x2⟩] h j) :=
  isReal_concatenate a _ h (fun p hp => by
    simp only [List.mem_cons, List.not_mem_nil, or_false] at hp
    rcases hp with rfl | rfl
    · exact h1
    · exact h2) j

/-- A select picks, entry by entry, one of its two operands' entries. -/
theorem isReal_select {s : Shape} (c : IVec s 1) (a b : s.Idx → EReal) (ha : ∀ i, IsReal (a i)) (hb : ∀ i, IsReal (b i))
    (i : s.Idx) : IsReal (select c a b i) := by
  show IsReal (if c i = 1 then a i else b i)
  split
  · exact ha i
  · exact hb i

/-- The scatter with addition, for any dimension numbers: each entry is the operand's plus the sum of the updates
    that land on it, a finite sum. -/
theorem isReal_scatterAdd {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (isReal_sum _ _ fun j _ => hu j)

/-- The matrix product, for any dimension numbers: each entry is a finite sum of products of the operands' entries. -/
theorem isReal_dotGeneral {sl sr so : Shape} (d : DotDims sl sr so) (prec : Option ContractPrecision)
    (l : FVec Ideal sl .f32) (r : FVec Ideal sr .f32) (hl : ∀ i, IsReal (l i)) (hr : ∀ i, IsReal (r i)) (j : so.Idx) :
    IsReal (Host.dotGeneral d prec l r j) := by
  show IsReal (FloatOps.dotGeneral d prec _ l r j)
  rw [Ideal.dotGeneral_apply]
  exact isReal_sum _ _ fun k _ => (hl _).mul (hr _)

/-- Products and sums are entry by entry. -/
theorem isReal_mulf {s : Shape} (a b : FVec Ideal s .f32) (ha : ∀ i, IsReal (a i)) (hb : ∀ i, IsReal (b i)) (i : s.Idx) :
    IsReal (mulf a b i) := (ha i).mul (hb i)
theorem isReal_addf {s : Shape} (a b : FVec Ideal s .f32) (ha : ∀ i, IsReal (a i)) (hb : ∀ i, IsReal (b i)) (i : s.Idx) :
    IsReal (addf a b i) := (ha i).add (hb i)

/-- The inverse square root of the maximum of a real and a positive real: the maximum is a real at least the
    positive one, hence positive, and the inverse square root of a positive real is a real. -/
theorem isReal_rsqrt_max {s : Shape} (v c : FVec Ideal s .f32) (i : s.Idx) (d e : ℝ) (hd : v i = (d : EReal))
    (hc : c i = (e : EReal)) (he : 0 < e) : IsReal (Host.rsqrt (maximumf v c) i) := by
  show IsReal (Ideal.rsqrt (max (v i) (c i)))
  rw [hd, hc, ← EReal.coe_strictMono.monotone.map_max]
  exact isReal_rsqrt_pos (lt_of_lt_of_le he (le_max_right _ _))

/-! ## The stages -/

/-- The node features times the weight. -/
theorem isReal_xw (a0 : FVec Ideal S100000x128 .f32) (a3 : FVec Ideal S128x128 .f32) :
    (∀ i, IsReal (a0 i)) → (∀ i, IsReal (a3 i)) → ∀ i, IsReal (xw (F := Ideal) a0 a3 i) :=
  fun h0 h3 i => isReal_dotGeneral _ _ a0 a3 h0 h3 i

/-- The edge weights followed by ones. -/
theorem isReal_ew (a2 : FVec Ideal S1600000 .f32) (h2 : ∀ i, IsReal (a2 i)) (i : S1700000.Idx) : IsReal (ew (F := Ideal) a2 i) := by
  unfold ew
  exact isReal_concatenate2 _ a2 _ _ h2
    (fun k => isReal_bcast _ bcast_S_S100000 (constant (F := Ideal) S_ .f32 0x3F800000#32)
      (isReal_const _ ⟨1, Cert.GcnConsts.ofBits_one⟩) k) i

/-- The weighted in-degree: the weights summed at their targets. -/
theorem isReal_deg (a1 : IVec S2x1600000 32) (a2 : FVec Ideal S1600000 .f32) (h2 : ∀ i, IsReal (a2 i)) (i : S100000.Idx) :
    IsReal (deg (F := Ideal) a1 a2 i) := by
  unfold deg
  exact isReal_scatterAdd _ _ _ _ (fun i => isReal_bcast _ _ _ (isReal_const _ isReal_ofBits_zero) i) (isReal_ew a2 h2) i

/-- The inverse square root of the degree: the degree is a real, its maximum with the positive constant is a real
    at least that constant, hence positive, and the inverse square root of a positive real is a real; the other
    branch of the select is zero. -/
theorem isReal_dinv (a1 : IVec S2x1600000 32) (a2 : FVec Ideal S1600000 .f32) (h2 : ∀ i, IsReal (a2 i)) (i : S100000.Idx) :
    IsReal (dinv (F := Ideal) a1 a2 i) := by
  unfold dinv
  refine isReal_select _ _ _ (fun i => ?_) (fun i => isReal_bcast _ _ _ (isReal_const _ isReal_ofBits_zero) i) i
  obtain ⟨d, hd⟩ := isReal_deg a1 a2 h2 i
  obtain ⟨e, he, hte⟩ := Cert.GcnConsts.ofBits_tiny
  have hc : (broadcastInDim S100000 ![] bcast_S_S100000 (constant (F := Ideal) S_ .f32 0x2B8CBCCC#32)) i = (e : EReal) := hte
  exact isReal_rsqrt_max (deg (F := Ideal) a1 a2) (broadcastInDim S100000 ![] bcast_S_S100000 (constant (F := Ideal) S_ .f32 0x2B8CBCCC#32))
    i d e hd hc he

/-- The per-edge normalisation: a product of three reals. -/
theorem isReal_normE (a1 : IVec S2x1600000 32) (a2 : FVec Ideal S1600000 .f32) (h2 : ∀ i, IsReal (a2 i)) (i : S1700000.Idx) :
    IsReal (normE (F := Ideal) a1 a2 i) := by
  unfold normE
  refine isReal_mulf _ _ (fun k => ?_) (fun k => ?_) i
  · refine isReal_mulf _ _ (fun k => ?_) (isReal_ew a2 h2) k
    exact isReal_gather gather_S100000_S1700000x1_S1700000_n_0_n_n_0_1_1 (dinv (F := Ideal) a1 a2) (rowOf (srcIdx a1))
      (isReal_dinv a1 a2 h2) k
  · exact isReal_gather gather_S100000_S1700000x1_S1700000_n_0_n_n_0_1_1 (dinv (F := Ideal) a1 a2) (rowOf (dstIdx a1))
      (isReal_dinv a1 a2 h2) k

/-- The scaled rows summed at their targets. -/
theorem isReal_scat (y : FVec Ideal S100000x128 .f32) (ne : FVec Ideal S1700000 .f32) (row col : IVec S1700000x1 32)
    (hy : ∀ i, IsReal (y i)) (hne : ∀ i, IsReal (ne i)) (i : S100000x128.Idx) : IsReal (scat (F := Ideal) y ne row col i) := by
  unfold scat
  refine isReal_scatterAdd scatter_S100000x128_S1700000x1_S1700000x128_1_0_0_1 _ col _
    (fun k => isReal_bcast _ _ _ (isReal_const _ isReal_ofBits_zero) k) (fun j => ?_) i
  refine isReal_mulf _ _ (fun k => ?_) (fun k => ?_) j
  · exact isReal_bcast _ bcast_S1700000x1_S1700000x128_0_1 (broadcastInDim S1700000x1 ![0] bcast_S1700000_S1700000x1_0 ne)
      (fun k => isReal_bcast _ bcast_S1700000_S1700000x1_0 ne hne k) k
  · exact isReal_gather gather_S100000x128_S1700000x1_S1700000x128_1_0_n_n_0_1_1128 y row hy k

/-- A vector repeated on every node. -/
theorem isReal_rowBcast (v : FVec Ideal S128 .f32) (hv : ∀ i, IsReal (v i)) (i : S100000x128.Idx) : IsReal (rowBcast (F := Ideal) v i) := by
  unfold rowBcast
  exact isReal_bcast _ _ _ (fun k => isReal_bcast _ _ _ hv k) i

/-- The aggregated messages plus the bias. -/
theorem isReal_aggOf (y : FVec Ideal S100000x128 .f32) (a1 : IVec S2x1600000 32) (a2 : FVec Ideal S1600000 .f32) (a4 : FVec Ideal S128 .f32) :
    (∀ i, IsReal (y i)) → (∀ i, IsReal (a2 i)) → (∀ i, IsReal (a4 i)) → ∀ i, IsReal (aggOf (F := Ideal) y a1 a2 a4 i) := by
  intro hy h2 h4 i
  unfold aggOf
  refine isReal_addf _ _ (fun k => ?_) (isReal_rowBcast a4 h4) i
  exact isReal_scat y (normE (F := Ideal) a1 a2) (rowIdx a1) (colIdx a1) hy (isReal_normE a1 a2 h2) k

end Cert.ReferenceIdeal.RefValue

end
-- ==== Proof.Laws.lean ====
import proofs.«118182_j89309549953493_1_alg».proof.Proof.Math
import proofs.«118182_j89309549953493_1_alg».proof.Proof.Consts

/-!
# The laws that join the two programs

The kernel accumulates a column's sum and sum of squares block by block (50 blocks of 2000 rows) and takes the variance as
the mean of the squares less the square of the mean; the reference sums a column over all 100000 rows and takes the variance
as the mean of the squared deviations. `mean_law` and `var_law` say these agree — the second for real-valued columns
only — and that the variance is a real number that is not negative, so that adding the positive constant `eps` and taking
the inverse square root stays among the reals (`isReal_norm_entry`).
-/

noncomputable section

namespace Cert.GcnLaws

open Idealize.ShloMosaic Cert.GcnMath Cert.GcnConsts

/-- The node count as the programs spell it. -/
abbrev E5 : EReal := Ideal.ofBits .f32 0x47C35000#32
/-- The normalisation's small constant as the programs spell it. -/
abbrev EPS : EReal := Ideal.ofBits .f32 0x3727C5AC#32

/-- Row `r` of block `t`. -/
def row (t : Fin 50) (r : Fin 2000) : Fin 100000 := ⟨2000 * t.val + r.val, by omega⟩

theorem sum_rows {M : Type*} [AddCommMonoid M] (f : Fin 100000 → M) :
    ∑ t : Fin 50, ∑ r : Fin 2000, f (row t r) = ∑ i : Fin 100000, f i := sum_blocks f

/-- THE MEAN: summed block by block or over all rows. -/
theorem mean_law (f : Fin 100000 → EReal) :
    Ideal.div (∑ t : Fin 50, ∑ r : Fin 2000, f (row t r)) E5 = Ideal.div (∑ i, f i) E5 := by
  rw [sum_rows]

theorem isReal_mean (f : Fin 100000 → EReal) (hf : ∀ i, IsReal (f i)) : IsReal (Ideal.div (∑ i, f i) E5) := by
  rw [show E5 = ((100000 : ℝ) : EReal) from ofBits_1e5]
  exact (isReal_sum _ _ fun i _ => hf i).div_coe (by norm_num)

/-- THE VARIANCE of a real-valued column: the mean of the squares (summed block by block) less the square of the mean is the
    mean of the squared deviations from the mean (summed over all rows), a real number that is not negative. -/
theorem var_law (f : Fin 100000 → EReal) (hf : ∀ i, IsReal (f i)) :
    Ideal.div (∑ t : Fin 50, ∑ r : Fin 2000, f (row t r) * f (row t r)) E5
        - Ideal.div (∑ t : Fin 50, ∑ r : Fin 2000, f (row t r)) E5 * Ideal.div (∑ t : Fin 50, ∑ r : Fin 2000, f (row t r)) E5
      = Ideal.div (∑ i, (f i - Ideal.div (∑ j, f j) E5) * (f i - Ideal.div (∑ j, f j) E5)) E5
    ∧ ∃ v : ℝ, 0 ≤ v ∧
        Ideal.div (∑ i, (f i - Ideal.div (∑ j, f j) E5) * (f i - Ideal.div (∑ j, f j) E5)) E5 = (v : EReal) := by
  have hc : ((Fintype.card (Fin 100000) : ℕ) : ℝ) = 100000 := by rw [Fintype.card_fin]; norm_num
  obtain ⟨h1, v, hv, h2⟩ := var_eq (100000 : ℝ) (by norm_num) hc f hf
  rw [sum_rows (fun i => f i * f i), sum_rows f, show E5 = ((100000 : ℝ) : EReal) from ofBits_1e5]
  exact ⟨h1.symm, v, hv, h1.trans h2⟩

/-- One entry of a normalisation stays real: `(x - μ) · rsqrt (v + eps) · g + b` for real `x`, `μ`, `g`, `b` and a real
    variance `v ≥ 0`. -/
theorem isReal_norm_entry {x μ va g b : EReal} (hx : IsReal x) (hμ : IsReal μ) (hva : ∃ v : ℝ, 0 ≤ v ∧ va = (v : EReal))
    (hg : IsReal g) (hb : IsReal b) : IsReal ((x - μ) * Ideal.rsqrt (va + EPS) * g + b) := by
  obtain ⟨v, hv, rfl⟩ := hva
  obtain ⟨e, he, hE⟩ := ofBits_eps
  have : IsReal (Ideal.rsqrt ((v : EReal) + EPS)) := by
    rw [show EPS = (e : EReal) from hE, ← EReal.coe_add]
    exact isReal_rsqrt_pos (by linarith)
  exact (((hx.sub hμ).mul this).mul hg).add hb

/-- One entry of the feed-forward block stays real. -/
theorem isReal_ffn_entry {K L : Type*} [Fintype K] [Fintype L] {x : EReal} (h : L → EReal) (w1 : L → K → EReal) (b1 : K → EReal)
    (w2 : K → EReal) (b2 : EReal) (hx : IsReal x) (hh : ∀ l, IsReal (h l)) (hw1 : ∀ l k, IsReal (w1 l k)) (hb1 : ∀ k, IsReal (b1 k))
    (hw2 : ∀ k, IsReal (w2 k)) (hb2 : IsReal b2) :
    IsReal (x + ((∑ k : K, max ((∑ l : L, h l * w1 l k) + b1 k) (Ideal.ofBits .f32 0x00000000#32) * w2 k) + b2)) := by
  refine hx.add ((isReal_sum _ _ fun k _ => ?_).add hb2)
  refine IsReal.mul (IsReal.max ((isReal_sum _ _ fun l _ => (hh l).mul (hw1 l k)).add (hb1 k)) ?_) (hw2 k)
  rw [Ideal.ofBits_zero_f32]; exact isReal_zero

end Cert.GcnLaws

end
-- ==== Proof.Bridge.lean ====
import proofs.«118182_j89309549953493_1_alg».proof.Proof.KI.OutK
import proofs.«118182_j89309549953493_1_alg».proof.Proof.RefRead
import proofs.«118182_j89309549953493_1_alg».proof.Proof.RefReal
import proofs.«118182_j89309549953493_1_alg».proof.Proof.Laws
import Idealize.ShloMosaic.Lib.ValueIdx
import Idealize.ShloMosaic.Lib.ValueLayout

/-!
# The two programs compute one function on finite inputs

Stage by stage, index by index. The product of the features with the convolution's weight is the same sum row by row; the
aggregation is the same host operations on it (the bias made a row by a reshape or by a broadcast: the same row); the column
means agree by regrouping a sum over the nodes into blocks; the column variances agree by the variance law, which needs the
column real-valued — and it is, the inputs being finite; each normalisation and the feed-forward block are then the same
arithmetic entry by entry.
-/

noncomputable section

namespace Cert.Bridge

open Idealize.ShloMosaic Idealize.ShloMosaic.ValueIdx
open Cert.GcnMath Cert.GcnLaws
open Cert.ReferenceIdeal Cert.ReferenceIdeal.RefValue
open Cert.KernelIdeal.Fr (G0 G0_apply Gmean Gmean_apply Gvar Gvar_apply Gh1 Ga1 Gh2 Gh2_apply Gmean2 Gvar2 G3 G3_apply
  aggK h2K mu2K va2K outK)

/-- Two `[100000, 128]` arrays that agree at every `(r, j)` are equal. -/
theorem ex2 (i : S100000x128.Idx) : ∃ (r : Fin 100000) (j : Fin 128), i = ix2 r j := ⟨i 0, i 1, eq_ix2 i⟩
theorem ext2 {f g : FVec Ideal S100000x128 .f32} (h : ∀ (r : Fin 100000) (j : Fin 128), f (ix2 r j) = g (ix2 r j)) : f = g :=
  funext fun i => by obtain ⟨r, j, rfl⟩ := ex2 i; exact h r j

/-- A vector of 128 reshaped to a row reads, at `(0, j)`, its `j`-th entry. -/
theorem row_apply (a : FVec Ideal S128 .f32) (z : Fin 1) (j : Fin 128) :
    shapeCast Cert.KernelIdeal.S1x128 a Cert.KernelIdeal.Gen.shapeCasts_S128_S1x128 (ix2 z j) = a (ix1 j) :=
  shapeCast_a_1a_apply a _ z j
theorem row256_apply (a : FVec Ideal S256 .f32) (z : Fin 1) (k : Fin 256) :
    shapeCast Cert.KernelIdeal.S1x256 a Cert.KernelIdeal.Gen.shapeCasts_S256_S1x256 (ix2 z k) = a (ix1 k) :=
  shapeCast_a_1a_apply a _ z k

/-! ## A normalisation's statistics, block by block or at once -/

/-- The column mean. -/
theorem mean_stage (y : FVec Ideal S100000x128 .f32) (j : Fin 128) :
    Ideal.div (∑ t : Fin 50, ∑ r : Fin 2000, y (ix2 (row t r) j)) (Ideal.ofBits .f32 0x47C35000#32) = mean (F := Ideal) y (ix1 j) := by
  refine (mean_law fun i => y (ix2 i j)).trans ?_
  rw [mean_apply, show E5 = ((100000 : ℝ) : EReal) from Cert.GcnConsts.ofBits_1e5]

/-- The column variance of a real-valued array, and that it is a real number that is not negative. -/
theorem var_stage (y : FVec Ideal S100000x128 .f32) (hy : ∀ i, IsReal (y i)) (j : Fin 128) :
    Ideal.div (∑ t : Fin 50, ∑ r : Fin 2000, y (ix2 (row t r) j) * y (ix2 (row t r) j)) (Ideal.ofBits .f32 0x47C35000#32)
        - Ideal.div (∑ t : Fin 50, ∑ r : Fin 2000, y (ix2 (row t r) j)) (Ideal.ofBits .f32 0x47C35000#32)
          * Ideal.div (∑ t : Fin 50, ∑ r : Fin 2000, y (ix2 (row t r) j)) (Ideal.ofBits .f32 0x47C35000#32)
      = var (F := Ideal) y (ix1 j)
    ∧ ∃ v : ℝ, 0 ≤ v ∧ var (F := Ideal) y (ix1 j) = (v : EReal) := by
  obtain ⟨h1, v, hv, h2⟩ := var_law (fun i => y (ix2 i j)) (fun i => hy _)
  have e : var (F := Ideal) y (ix1 j)
      = Ideal.div (∑ i : Fin 100000, (y (ix2 i j) - Ideal.div (∑ i' : Fin 100000, y (ix2 i' j)) E5)
          * (y (ix2 i j) - Ideal.div (∑ i' : Fin 100000, y (ix2 i' j)) E5)) E5 := by
    rw [var_apply, show E5 = ((100000 : ℝ) : EReal) from Cert.GcnConsts.ofBits_1e5]
  exact ⟨h1.trans e.symm, v, hv, e.trans h2⟩

theorem isReal_mean_stage (y : FVec Ideal S100000x128 .f32) (hy : ∀ i, IsReal (y i)) (j : Fin 128) :
    IsReal (mean (F := Ideal) y (ix1 j)) := by
  rw [mean_apply, ← show E5 = ((100000 : ℝ) : EReal) from Cert.GcnConsts.ofBits_1e5]
  exact isReal_mean (fun i => y (ix2 i j)) fun i => hy _

/-! ## The stages of the reference stay real-valued -/

theorem isReal_bnOf (y : FVec Ideal S100000x128 .f32) (g b : FVec Ideal S128 .f32) (hy : ∀ i, IsReal (y i))
    (hg : ∀ i, IsReal (g i)) (hb : ∀ i, IsReal (b i)) : ∀ i, IsReal (bnOf (F := Ideal) y g b i) := fun i => by
  obtain ⟨r, j, rfl⟩ := ex2 i
  show IsReal (bn (F := Ideal) y (mean y) (var y) g b (ix2 r j))
  rw [bn_apply]
  exact isReal_norm_entry (hy _) (isReal_mean_stage y hy _) (var_stage y hy _).2 (hg _) (hb _)

theorem isReal_ffn (h1 : FVec Ideal S100000x128 .f32) (a7 : FVec Ideal S128x256 .f32) (a8 : FVec Ideal S256 .f32)
    (a9 : FVec Ideal S256x128 .f32) (a10 : FVec Ideal S128 .f32) (hh : ∀ i, IsReal (h1 i)) (h7 : ∀ i, IsReal (a7 i))
    (h8 : ∀ i, IsReal (a8 i)) (h9 : ∀ i, IsReal (a9 i)) (h10 : ∀ i, IsReal (a10 i)) :
    ∀ i, IsReal (ffn (F := Ideal) h1 a7 a8 a9 a10 i) := fun i => by
  obtain ⟨r, j, rfl⟩ := ex2 i
  rw [ffn_apply]
  exact isReal_ffn_entry (fun l => h1 (ix2 _ l)) (fun l k => a7 (ix2 l k)) (fun k => a8 (ix1 k)) (fun k => a9 (ix2 k _)) _
    (hh _) (fun l => hh _) (fun l k => h7 _) (fun k => h8 _) (fun k => h9 _) (h10 _)

/-! ## Stage by stage -/

section Stages

variable (a0 : FVec Ideal S100000x128 .f32) (a1 : IVec S2x1600000 32) (a2 : FVec Ideal S1600000 .f32) (a3 : FVec Ideal S128x128 .f32)
  (a4 a5 a6 : FVec Ideal S128 .f32) (a7 : FVec Ideal S128x256 .f32) (a8 : FVec Ideal S256 .f32) (a9 : FVec Ideal S256x128 .f32)
  (a10 a11 a12 : FVec Ideal S128 .f32)

/-- The product of the features with the convolution's weight. -/
theorem xw_eq : G0 a0 a3 = xw (F := Ideal) a0 a3 :=
  ext2 fun r j => by rw [G0_apply, xw_apply]

/-- The bias as a row: reshaped, or broadcast. -/
theorem bias_row (a : FVec Ideal S128 .f32) :
    broadcastInDim Cert.KernelIdeal.S100000x128 ![0, 1] Cert.KernelIdeal.Gen.bcast_S1x128_S100000x128_0_1
        (shapeCast Cert.KernelIdeal.S1x128 a Cert.KernelIdeal.Gen.shapeCasts_S128_S1x128)
      = rowBcast (F := Ideal) a := by
  unfold rowBcast
  refine congrArg _ (funext fun i => ?_)
  obtain ⟨z, j, rfl⟩ : ∃ (z : Fin 1) (j : Fin 128), i = ix2 z j := ⟨i 0, i 1, eq_ix2 i⟩
  rw [row_apply]
  refine (broadcastInDim_apply _ _ a (ix2 z j) (ix1 j) fun d => ?_).symm
  match d with
  | ⟨0, _⟩ => rfl

/-- The aggregated messages plus the bias. -/
theorem agg_eq : aggK (G0 a0 a3) a1 a2 a4 = aggOf (F := Ideal) (xw a0 a3) a1 a2 a4 := by
  unfold aggK aggOf rowIdx colIdx
  rw [xw_eq, bias_row]

/-- The residual sum `x + aggregate`, as the reference computes it. -/
def hR : FVec Ideal S100000x128 .f32 := hOf (F := Ideal) a0 (aggOf (xw a0 a3) a1 a2 a4)
/-- The first normalisation's output. -/
def h1R : FVec Ideal S100000x128 .f32 := bnOf (F := Ideal) (hR a0 a1 a2 a3 a4) a5 a6
/-- The feed-forward block's output. -/
def h2R : FVec Ideal S100000x128 .f32 := ffn (F := Ideal) (h1R a0 a1 a2 a3 a4 a5 a6) a7 a8 a9 a10

theorem out_unfold : out (F := Ideal) a0 a1 a2 a3 a4 a5 a6 a7 a8 a9 a10 a11 a12
    = bnOf (F := Ideal) (h2R a0 a1 a2 a3 a4 a5 a6 a7 a8 a9 a10) a11 a12 := rfl

variable (r0 : ∀ i, IsReal (a0 i)) (r2 : ∀ i, IsReal (a2 i)) (r3 : ∀ i, IsReal (a3 i)) (r4 : ∀ i, IsReal (a4 i))
  (r5 : ∀ i, IsReal (a5 i)) (r6 : ∀ i, IsReal (a6 i)) (r7 : ∀ i, IsReal (a7 i)) (r8 : ∀ i, IsReal (a8 i))
  (r9 : ∀ i, IsReal (a9 i)) (r10 : ∀ i, IsReal (a10 i))

include r0 r2 r3 r4 in
theorem isReal_hR : ∀ i, IsReal (hR a0 a1 a2 a3 a4 i) := fun i => by
  obtain ⟨r, j, rfl⟩ := ex2 i
  unfold hR
  rw [hOf_apply]
  exact (r0 _).add (isReal_aggOf (xw (F := Ideal) a0 a3) a1 a2 a4 (isReal_xw a0 a3 r0 r3) r2 r4 _)

include r0 r2 r3 r4 r5 r6 in
theorem isReal_h1R : ∀ i, IsReal (h1R a0 a1 a2 a3 a4 a5 a6 i) :=
  isReal_bnOf (hR a0 a1 a2 a3 a4) a5 a6 (isReal_hR a0 a1 a2 a3 a4 r0 r2 r3 r4) r5 r6

include r0 r2 r3 r4 r5 r6 r7 r8 r9 r10 in
theorem isReal_h2R : ∀ i, IsReal (h2R a0 a1 a2 a3 a4 a5 a6 a7 a8 a9 a10 i) :=
  isReal_ffn (h1R a0 a1 a2 a3 a4 a5 a6) a7 a8 a9 a10 (isReal_h1R a0 a1 a2 a3 a4 a5 a6 r0 r2 r3 r4 r5 r6) r7 r8 r9 r10

/-- Region 1's column means are the reference's. -/
theorem mean1_eq (j : Fin 128) :
    Gmean a0 (aggOf (F := Ideal) (xw a0 a3) a1 a2 a4) (ix2 (0 : Fin 1) j) = mean (F := Ideal) (hR a0 a1 a2 a3 a4) (ix1 j) :=
  (Gmean_apply a0 _ j).trans (mean_stage (hR a0 a1 a2 a3 a4) j)

include r0 r2 r3 r4 in
/-- Region 1's column variances are the reference's. -/
theorem var1_eq (j : Fin 128) :
    Gvar a0 (aggOf (F := Ideal) (xw a0 a3) a1 a2 a4) (ix2 (0 : Fin 1) j) = var (F := Ideal) (hR a0 a1 a2 a3 a4) (ix1 j) := by
  rw [Gvar_apply, Gmean_apply]
  exact (var_stage (hR a0 a1 a2 a3 a4) (isReal_hR a0 a1 a2 a3 a4 r0 r2 r3 r4) j).1

include r0 r2 r3 r4 in
/-- Region 2's normalised block entry is the reference's first normalisation. -/
theorem h1_eq (r : Fin 100000) (l : Fin 128) :
    Gh1 a0 (aggOf (F := Ideal) (xw a0 a3) a1 a2 a4) (Gmean a0 (aggOf (F := Ideal) (xw a0 a3) a1 a2 a4))
        (Gvar a0 (aggOf (F := Ideal) (xw a0 a3) a1 a2 a4))
        (shapeCast Cert.KernelIdeal.S1x128 a5 Cert.KernelIdeal.Gen.shapeCasts_S128_S1x128)
        (shapeCast Cert.KernelIdeal.S1x128 a6 Cert.KernelIdeal.Gen.shapeCasts_S128_S1x128) r l
      = h1R a0 a1 a2 a3 a4 a5 a6 (ix2 r l) := by
  unfold Gh1
  rw [row_apply, row_apply, mean1_eq, var1_eq a0 a1 a2 a3 a4 r0 r2 r3 r4]
  show _ = bn (F := Ideal) (hR a0 a1 a2 a3 a4) (mean (hR a0 a1 a2 a3 a4)) (var (hR a0 a1 a2 a3 a4)) a5 a6 (ix2 r l)
  rw [bn_apply]
  rfl

include r0 r2 r3 r4 in
/-- Region 2's output is the reference's feed-forward block. -/
theorem h2_eq : h2K a0 a1 a2 a3 a4 a5 a6 a7 a8 a9 a10 = h2R a0 a1 a2 a3 a4 a5 a6 a7 a8 a9 a10 := by
  unfold h2K
  rw [agg_eq]
  refine ext2 fun r j => ?_
  rw [Gh2_apply]
  unfold h2R
  rw [ffn_apply]
  unfold Ga1
  simp only [h1_eq a0 a1 a2 a3 a4 a5 a6 r0 r2 r3 r4, row256_apply, row_apply]

include r0 r2 r3 r4 r5 r6 r7 r8 r9 r10 in
/-- THE TWO PROGRAMS RETURN THE SAME ARRAY on real-valued (finite) inputs. -/
theorem out_eq (r11 : ∀ i, IsReal (a11 i)) (r12 : ∀ i, IsReal (a12 i)) :
    outK a0 a1 a2 a3 a4 a5 a6 a7 a8 a9 a10 a11 a12 = out (F := Ideal) a0 a1 a2 a3 a4 a5 a6 a7 a8 a9 a10 a11 a12 := by
  have hy := isReal_h2R a0 a1 a2 a3 a4 a5 a6 a7 a8 a9 a10 r0 r2 r3 r4 r5 r6 r7 r8 r9 r10
  rw [out_unfold]
  unfold outK mu2K va2K
  rw [h2_eq a0 a1 a2 a3 a4 a5 a6 a7 a8 a9 a10 r0 r2 r3 r4]
  refine ext2 fun r j => ?_
  rw [G3_apply, row_apply, row_apply]
  show _ = bn (F := Ideal) (h2R a0 a1 a2 a3 a4 a5 a6 a7 a8 a9 a10) (mean (h2R a0 a1 a2 a3 a4 a5 a6 a7 a8 a9 a10))
    (var (h2R a0 a1 a2 a3 a4 a5 a6 a7 a8 a9 a10)) a11 a12 (ix2 r j)
  rw [bn_apply, ← mean_stage (h2R a0 a1 a2 a3 a4 a5 a6 a7 a8 a9 a10) j,
    ← (var_stage (h2R a0 a1 a2 a3 a4 a5 a6 a7 a8 a9 a10) hy j).1]
  rfl

end Stages

end Cert.Bridge

end
-- ==== Proof.lean ====
/-
  The kernel is a graph-convolution block on 100000 nodes with 128 features: the messages x·W aggregated over the edges with a
  symmetric degree normalisation, a residual sum, a batch normalisation over the node axis, a two-layer feed-forward block
  with its residual sum, and a second batch normalisation. Its program runs four kernels over 50 blocks of 2000 rows — the
  product x·W; the column means and variances of h = x + aggregate, accumulated block by block in two carried rows; the first
  normalisation fused with the feed-forward block and the accumulation of its output's column means and variances; the second
  normalisation — with the aggregation over the edges done by host operations between them. The reference computes the same
  block with whole-array operations.

  At the ideal instance the two differ in three ways only: a sum over the nodes is taken block by block or at once
  (regrouping a finite sum), a matrix product is taken block by block or at once (the same sums, row by row), and the
  variance is the mean of the squares less the square of the mean or the mean of the squared deviations — equal for
  real-valued data, which the precondition (every float input finite) gives, since every intermediate value is then a real
  number: sums, products and maxima of reals, and the inverse square root only of positive reals (a degree floored at a
  positive constant; a variance, not negative, plus a positive constant).

  The frames: each program's run terminates, faults nowhere and leaves the arguments as launched — the kernel's programs as
  ten segments (host stretches and regions) chained over the buffers' contents at each boundary, the reference as one line of
  host operations.
-/
import proofs.«118182_j89309549953493_1_alg».proof.Defs
import proofs.«118182_j89309549953493_1_alg».proof.Proof.Gen.Kernel
import proofs.«118182_j89309549953493_1_alg».proof.Proof.Gen.KernelIdeal
import proofs.«118182_j89309549953493_1_alg».proof.Proof.Gen.ReferenceIdeal
import proofs.«118182_j89309549953493_1_alg».proof.Proof.Gen.Pre_finite_inputs
import proofs.«118182_j89309549953493_1_alg».proof.Proof.K.Run
import proofs.«118182_j89309549953493_1_alg».proof.Proof.KI.Run
import proofs.«118182_j89309549953493_1_alg».proof.Proof.KI.Chain
import proofs.«118182_j89309549953493_1_alg».proof.Proof.RefRun
import proofs.«118182_j89309549953493_1_alg».proof.Proof.PreReal
import proofs.«118182_j89309549953493_1_alg».proof.Proof.Bridge

noncomputable section

namespace Cert.Proof

open Idealize.ShloMosaic Idealize.SL.Sem

theorem frame_k [Cert.Kernel.Facts] [Cert.Pre_finite_inputs.Facts] : Cert.frame_Kernel :=
  fun m ρ _ => Cert.Kernel.Fr.frame (F := Bits) m ρ

theorem frame_ki [Cert.KernelIdeal.Facts] [Cert.Pre_finite_inputs.Facts] : Cert.frame_KernelIdeal :=
  fun m ρ _ => Cert.KernelIdeal.Fr.frame (F := Ideal) m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.RefValue.run (F := Ideal) m ρ)

/-- Both idealized programs, run from memories that agree on the arguments, return the same array: the kernel's program
    returns `outK` of its arguments (the run's boundary contents read back), the reference `out` of its own, and the two
    functions agree on finite inputs. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.RefValue.out (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)), ?_, ?_⟩
  · refine (θ_run Cert.KernelIdeal.defs _ _).mono (fun r h c => ⟨(h c).1.trans ?_, (h c).2⟩)
      (Cert.KernelIdeal.Fr.run_value (F := Ideal) m ρ)
    rw [Cert.KernelIdeal.Fr.kernel_value m ρ c]
    obtain ⟨e0, e1, e2, e3, e4, e5, e6, e7, e8, e9, e10, e11, e12⟩ := hagree c
    beta_reduce
    rw [e0, e1, e2, e3, e4, e5, e6, e7, e8, e9, e10, e11, e12]
    obtain ⟨r0, r2, r3, r4, r5, r6, r7, r8, r9, r10, r11, r12⟩ := Cert.PreReal.real_of_pre (hpre c)
    exact Cert.Bridge.out_eq _ _ _ _ _ _ _ _ _ _ _ _ _ r0 r2 r3 r4 r5 r6 r7 r8 r9 r10 r11 r12
  · exact Cert.ReferenceIdeal.RefValue.run (F := Ideal) m' ρ'

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
